-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v84)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v84) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v110) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x2048 : Shape := ⟨2, ![8192, 2048]⟩
abbrev S4096x2048 : Shape := ⟨2, ![4096, 2048]⟩
abbrev S4096 : Shape := ⟨1, ![4096]⟩
abbrev S4096x4096 : Shape := ⟨2, ![4096, 4096]⟩
abbrev S6x3x4096 : Shape := ⟨3, ![6, 3, 4096]⟩
abbrev S6x3 : Shape := ⟨2, ![6, 3]⟩
abbrev S1024x4096 : Shape := ⟨2, ![1024, 4096]⟩
abbrev S1024 : Shape := ⟨1, ![1024]⟩
abbrev S1x4096 : Shape := ⟨2, ![1, 4096]⟩
abbrev S1 : Shape := ⟨1, ![1]⟩
abbrev S_ : Shape := ⟨0, ![]⟩

class Facts : Prop where
  bcast_S_S8192x2048 : S_.BroadcastsInDim S8192x2048 (![] : Fin 0 → Fin S8192x2048.rank)
  reducesTo_S8192x2048_S_d0_1 : S8192x2048.ReducesTo [0, 1] S_
  h_S_ : 0 < S_.numel
  bcast_S_S4096x2048 : S_.BroadcastsInDim S4096x2048 (![] : Fin 0 → Fin S4096x2048.rank)
  reducesTo_S4096x2048_S_d0_1 : S4096x2048.ReducesTo [0, 1] S_
  bcast_S_S4096 : S_.BroadcastsInDim S4096 (![] : Fin 0 → Fin S4096.rank)
  reducesTo_S4096_S_d0 : S4096.ReducesTo [0] S_
  bcast_S_S4096x4096 : S_.BroadcastsInDim S4096x4096 (![] : Fin 0 → Fin S4096x4096.rank)
  reducesTo_S4096x4096_S_d0_1 : S4096x4096.ReducesTo [0, 1] S_
  bcast_S_S6x3x4096 : S_.BroadcastsInDim S6x3x4096 (![] : Fin 0 → Fin S6x3x4096.rank)
  reducesTo_S6x3x4096_S_d0_1_2 : S6x3x4096.ReducesTo [0, 1, 2] S_
  bcast_S_S6x3 : S_.BroadcastsInDim S6x3 (![] : Fin 0 → Fin S6x3.rank)
  reducesTo_S6x3_S_d0_1 : S6x3.ReducesTo [0, 1] S_
  bcast_S_S1024x4096 : S_.BroadcastsInDim S1024x4096 (![] : Fin 0 → Fin S1024x4096.rank)
  reducesTo_S1024x4096_S_d0_1 : S1024x4096.ReducesTo [0, 1] S_
  bcast_S_S1024 : S_.BroadcastsInDim S1024 (![] : Fin 0 → Fin S1024.rank)
  reducesTo_S1024_S_d0 : S1024.ReducesTo [0] S_
  bcast_S_S1x4096 : S_.BroadcastsInDim S1x4096 (![] : Fin 0 → Fin S1x4096.rank)
  reducesTo_S1x4096_S_d0_1 : S1x4096.ReducesTo [0, 1] S_
  bcast_S_S1 : S_.BroadcastsInDim S1 (![] : Fin 0 → Fin S1.rank)
  reducesTo_S1_S_d0 : S1.ReducesTo [0] S_

variable [Facts]

def fn_part3 {F : FTy → Type} [FloatOps F] (main_arg11 : FVec F S1x4096 .f32) (main_arg12 : FVec F S1 .f32) (main_v48 : IVec S_ 1) (main_v49 : FVec F S1 .f32) (main_v50 : FVec F S1 .f32) : IVec S_ 1 :=
  let main_v51 : IVec S1 1 := cmpf .olt main_v49 main_v50
  let main_c_19 : IVec S_ 1 := constantI S_ 1 1#1
  let main_v52 : IVec S_ 1 := (fun x v => Host.reduce IntOp.andi x v reducesTo_S1_S_d0 h_S_) main_v51 main_c_19
  let main_v53 : IVec S_ 1 := andi main_v48 main_v52
  let main_v54 : FVec F S1x4096 .f32 := Host.absf main_arg11
  let main_cst_20 : FVec F S_ .f32 := constant S_ .f32 0x7F800000#32
  let main_v55 : FVec F S1x4096 .f32 := broadcastInDim S1x4096 ![] bcast_S_S1x4096 main_cst_20
  let main_v56 : IVec S1x4096 1 := cmpf .olt main_v54 main_v55
  let main_c_21 : IVec S_ 1 := constantI S_ 1 1#1
  let main_v57 : IVec S_ 1 := (fun x v => Host.reduce IntOp.andi x v reducesTo_S1x4096_S_d0_1 h_S_) main_v56 main_c_21
  let main_v58 : IVec S_ 1 := andi main_v53 main_v57
  let main_v59 : FVec F S1 .f32 := Host.absf main_arg12
  let main_cst_22 : FVec F S_ .f32 := constant S_ .f32 0x7F800000#32
  let main_v60 : FVec F S1 .f32 := broadcastInDim S1 ![] bcast_S_S1 main_cst_22
  let main_v61 : IVec S1 1 := cmpf .olt main_v59 main_v60
  let main_c_23 : IVec S_ 1 := constantI S_ 1 1#1
  let main_v62 : IVec S_ 1 := (fun x v => Host.reduce IntOp.andi x v reducesTo_S1_S_d0 h_S_) main_v61 main_c_23
  let main_v63 : IVec S_ 1 := andi main_v58 main_v62
  main_v63

def fn_part2 {F : FTy → Type} [FloatOps F] (main_arg7 : FVec F S1024x4096 .f32) (main_arg8 : FVec F S1024 .f32) (main_arg9 : FVec F S1x4096 .f32) (main_arg10 : FVec F S1 .f32) (main_arg11 : FVec F S1x4096 .f32) (main_arg12 : FVec F S1 .f32) (main_v33 : IVec S_ 1) : IVec S_ 1 :=
  let main_v34 : FVec F S1024x4096 .f32 := Host.absf main_arg7
  let main_cst_12 : FVec F S_ .f32 := constant S_ .f32 0x7F800000#32
  let main_v35 : FVec F S1024x4096 .f32 := broadcastInDim S1024x4096 ![] bcast_S_S1024x4096 main_cst_12
  let main_v36 : IVec S1024x4096 1 := cmpf .olt main_v34 main_v35
  let main_c_13 : IVec S_ 1 := constantI S_ 1 1#1
  let main_v37 : IVec S_ 1 := (fun x v => Host.reduce IntOp.andi x v reducesTo_S1024x4096_S_d0_1 h_S_) main_v36 main_c_13
  let main_v38 : IVec S_ 1 := andi main_v33 main_v37
  let main_v39 : FVec F S1024 .f32 := Host.absf main_arg8
  let main_cst_14 : FVec F S_ .f32 := constant S_ .f32 0x7F800000#32
  let main_v40 : FVec F S1024 .f32 := broadcastInDim S1024 ![] bcast_S_S1024 main_cst_14
  let main_v41 : IVec S1024 1 := cmpf .olt main_v39 main_v40
  let main_c_15 : IVec S_ 1 := constantI S_ 1 1#1
  let main_v42 : IVec S_ 1 := (fun x v => Host.reduce IntOp.andi x v reducesTo_S1024_S_d0 h_S_) main_v41 main_c_15
  let main_v43 : IVec S_ 1 := andi main_v38 main_v42
  let main_v44 : FVec F S1x4096 .f32 := Host.absf main_arg9
  let main_cst_16 : FVec F S_ .f32 := constant S_ .f32 0x7F800000#32
  let main_v45 : FVec F S1x4096 .f32 := broadcastInDim S1x4096 ![] bcast_S_S1x4096 main_cst_16
  let main_v46 : IVec S1x4096 1 := cmpf .olt main_v44 main_v45
  let main_c_17 : IVec S_ 1 := constantI S_ 1 1#1
  let main_v47 : IVec S_ 1 := (fun x v => Host.reduce IntOp.andi x v reducesTo_S1x4096_S_d0_1 h_S_) main_v46 main_c_17
  let main_v48 : IVec S_ 1 := andi main_v43 main_v47
  let main_v49 : FVec F S1 .f32 := Host.absf main_arg10
  let main_cst_18 : FVec F S_ .f32 := constant S_ .f32 0x7F800000#32
  let main_v50 : FVec F S1 .f32 := broadcastInDim S1 ![] bcast_S_S1 main_cst_18
  fn_part3 (F := F) main_arg11 main_arg12 main_v48 main_v49 main_v50

def fn_part1 {F : FTy → Type} [FloatOps F] (main_arg4 : FVec F S4096 .f32) (main_arg5 : FVec F S6x3x4096 .f32) (main_arg6 : FVec F S6x3 .f32) (main_arg7 : FVec F S1024x4096 .f32) (main_arg8 : FVec F S1024 .f32) (main_arg9 : FVec F S1x4096 .f32) (main_arg10 : FVec F S1 .f32) (main_arg11 : FVec F S1x4096 .f32) (main_arg12 : FVec F S1 .f32) (main_v13 : IVec S_ 1) (main_v16 : IVec S4096x4096 1) : IVec S_ 1 :=
  let main_c_5 : IVec S_ 1 := constantI S_ 1 1#1
  let main_v17 : IVec S_ 1 := (fun x v => Host.reduce IntOp.andi x v reducesTo_S4096x4096_S_d0_1 h_S_) main_v16 main_c_5
  let main_v18 : IVec S_ 1 := andi main_v13 main_v17
  let main_v19 : FVec F S4096 .f32 := Host.absf main_arg4
  let main_cst_6 : FVec F S_ .f32 := constant S_ .f32 0x7F800000#32
  let main_v20 : FVec F S4096 .f32 := broadcastInDim S4096 ![] bcast_S_S4096 main_cst_6
  let main_v21 : IVec S4096 1 := cmpf .olt main_v19 main_v20
  let main_c_7 : IVec S_ 1 := constantI S_ 1 1#1
  let main_v22 : IVec S_ 1 := (fun x v => Host.reduce IntOp.andi x v reducesTo_S4096_S_d0 h_S_) main_v21 main_c_7
  let main_v23 : IVec S_ 1 := andi main_v18 main_v22
  let main_v24 : FVec F S6x3x4096 .f32 := Host.absf main_arg5
  let main_cst_8 : FVec F S_ .f32 := constant S_ .f32 0x7F800000#32
  let main_v25 : FVec F S6x3x4096 .f32 := broadcastInDim S6x3x4096 ![] bcast_S_S6x3x4096 main_cst_8
  let main_v26 : IVec S6x3x4096 1 := cmpf .olt main_v24 main_v25
  let main_c_9 : IVec S_ 1 := constantI S_ 1 1#1
  let main_v27 : IVec S_ 1 := (fun x v => Host.reduce IntOp.andi x v reducesTo_S6x3x4096_S_d0_1_2 h_S_) main_v26 main_c_9
  let main_v28 : IVec S_ 1 := andi main_v23 main_v27
  let main_v29 : FVec F S6x3 .f32 := Host.absf main_arg6
  let main_cst_10 : FVec F S_ .f32 := constant S_ .f32 0x7F800000#32
  let main_v30 : FVec F S6x3 .f32 := broadcastInDim S6x3 ![] bcast_S_S6x3 main_cst_10
  let main_v31 : IVec S6x3 1 := cmpf .olt main_v29 main_v30
  let main_c_11 : IVec S_ 1 := constantI S_ 1 1#1
  let main_v32 : IVec S_ 1 := (fun x v => Host.reduce IntOp.andi x v reducesTo_S6x3_S_d0_1 h_S_) main_v31 main_c_11
  let main_v33 : IVec S_ 1 := andi main_v28 main_v32
  fn_part2 (F := F) main_arg7 main_arg8 main_arg9 main_arg10 main_arg11 main_arg12 main_v33

def fn {F : FTy → Type} [FloatOps F] (main_arg0 : FVec F S8192x2048 .f32) (main_arg1 : FVec F S4096x2048 .f32) (main_arg2 : FVec F S4096 .f32) (main_arg3 : FVec F S4096x4096 .f32) (main_arg4 : FVec F S4096 .f32) (main_arg5 : FVec F S6x3x4096 .f32) (main_arg6 : FVec F S6x3 .f32) (main_arg7 : FVec F S1024x4096 .f32) (main_arg8 : FVec F S1024 .f32) (main_arg9 : FVec F S1x4096 .f32) (main_arg10 : FVec F S1 .f32) (main_arg11 : FVec F S1x4096 .f32) (main_arg12 : FVec F S1 .f32) : IVec S_ 1 :=
  let main_v0 : FVec F S8192x2048 .f32 := Host.absf main_arg0
  let main_cst : FVec F S_ .f32 := constant S_ .f32 0x7F800000#32
  let main_v1 : FVec F S8192x2048 .f32 := broadcastInDim S8192x2048 ![] bcast_S_S8192x2048 main_cst
  let main_v2 : IVec S8192x2048 1 := cmpf .olt main_v0 main_v1
  let main_c : IVec S_ 1 := constantI S_ 1 1#1
  let main_v3 : IVec S_ 1 := (fun x v => Host.reduce IntOp.andi x v reducesTo_S8192x2048_S_d0_1 h_S_) main_v2 main_c
  let main_v4 : FVec F S4096x2048 .f32 := Host.absf main_arg1
  let main_cst_0 : FVec F S_ .f32 := constant S_ .f32 0x7F800000#32
  let main_v5 : FVec F S4096x2048 .f32 := broadcastInDim S4096x2048 ![] bcast_S_S4096x2048 main_cst_0
  let main_v6 : IVec S4096x2048 1 := cmpf .olt main_v4 main_v5
  let main_c_1 : IVec S_ 1 := constantI S_ 1 1#1
  let main_v7 : IVec S_ 1 := (fun x v => Host.reduce IntOp.andi x v reducesTo_S4096x2048_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  let main_v14 : FVec F S4096x4096 .f32 := Host.absf main_arg3
  let main_cst_4 : FVec F S_ .f32 := constant S_ .f32 0x7F800000#32
  let main_v15 : FVec F S4096x4096 .f32 := broadcastInDim S4096x4096 ![] bcast_S_S4096x4096 main_cst_4
  let main_v16 : IVec S4096x4096 1 := cmpf .olt main_v14 main_v15
  fn_part1 (F := F) main_arg4 main_arg5 main_arg6 main_arg7 main_arg8 main_arg9 main_arg10 main_arg11 main_arg12 main_v13 main_v16
-- ==== Kernel.lean ====
abbrev S8192x2048 : Shape := ⟨2, ![8192, 2048]⟩
abbrev S4096x2048 : Shape := ⟨2, ![4096, 2048]⟩
abbrev S4096 : Shape := ⟨1, ![4096]⟩
abbrev S4096x4096 : Shape := ⟨2, ![4096, 4096]⟩
abbrev S6x3x4096 : Shape := ⟨3, ![6, 3, 4096]⟩
abbrev S6x3 : Shape := ⟨2, ![6, 3]⟩
abbrev S1024x4096 : Shape := ⟨2, ![1024, 4096]⟩
abbrev S1024 : Shape := ⟨1, ![1024]⟩
abbrev S1x4096 : Shape := ⟨2, ![1, 4096]⟩
abbrev S1 : Shape := ⟨1, ![1]⟩
abbrev S_ : Shape := ⟨0, ![]⟩
abbrev S1x1 : Shape := ⟨2, ![1, 1]⟩
abbrev S6 : Shape := ⟨1, ![6]⟩
abbrev S6x1x1 : Shape := ⟨3, ![6, 1, 1]⟩
abbrev S2048x4096 : Shape := ⟨2, ![2048, 4096]⟩
abbrev S18x4096 : Shape := ⟨2, ![18, 4096]⟩
abbrev S1044x4096 : Shape := ⟨2, ![1044, 4096]⟩
abbrev S18 : Shape := ⟨1, ![18]⟩
abbrev S1044 : Shape := ⟨1, ![1044]⟩
abbrev S1152x4096 : Shape := ⟨2, ![1152, 4096]⟩
abbrev S1152 : Shape := ⟨1, ![1152]⟩
abbrev S4096x1152 : Shape := ⟨2, ![4096, 1152]⟩
abbrev S1x1152 : Shape := ⟨2, ![1, 1152]⟩
abbrev S8192x4096 : Shape := ⟨2, ![8192, 4096]⟩
abbrev S256x2048 : Shape := ⟨2, ![256, 2048]⟩
abbrev S256x4096 : Shape := ⟨2, ![256, 4096]⟩
abbrev S64x4096 : Shape := ⟨2, ![64, 4096]⟩
abbrev S8192x1152 : Shape := ⟨2, ![8192, 1152]⟩
abbrev S512x4096 : Shape := ⟨2, ![512, 4096]⟩
abbrev S512x1152 : Shape := ⟨2, ![512, 1152]⟩
abbrev S8192x1044 : Shape := ⟨2, ![8192, 1044]⟩

abbrev nBuf : Space → Nat
  | .hbm => 120
  | .vmem => 18
  | .smem => 0
  | _ => 0

abbrev bufTy : (tb : Table) → Fin (tcTables nBuf tb) → BufTy
  | .hbm, ⟨0, _⟩ => ⟨S8192x2048, .f32⟩
  | .hbm, ⟨1, _⟩ => ⟨S4096x2048, .f32⟩
  | .hbm, ⟨2, _⟩ => ⟨S4096, .f32⟩
  | .hbm, ⟨3, _⟩ => ⟨S4096x4096, .f32⟩
  | .hbm, ⟨4, _⟩ => ⟨S4096, .f32⟩
  | .hbm, ⟨5, _⟩ => ⟨S6x3x4096, .f32⟩
  | .hbm, ⟨6, _⟩ => ⟨S6x3, .f32⟩
  | .hbm, ⟨7, _⟩ => ⟨S1024x4096, .f32⟩
  | .hbm, ⟨8, _⟩ => ⟨S1024, .f32⟩
  | .hbm, ⟨9, _⟩ => ⟨S1x4096, .f32⟩
  | .hbm, ⟨10, _⟩ => ⟨S1, .f32⟩
  | .hbm, ⟨11, _⟩ => ⟨S1x4096, .f32⟩
  | .hbm, ⟨12, _⟩ => ⟨S1, .f32⟩
  | .hbm, ⟨13, _⟩ => ⟨S4096x2048, .f32⟩
  | .hbm, ⟨14, _⟩ => ⟨S_, .f32⟩
  | .hbm, ⟨15, _⟩ => ⟨S_, .f32⟩
  | .hbm, ⟨16, _⟩ => ⟨S1x1, .f32⟩
  | .hbm, ⟨17, _⟩ => ⟨S_, .f32⟩
  | .hbm, ⟨18, _⟩ => ⟨S1x1, .f32⟩
  | .hbm, ⟨19, _⟩ => ⟨S1x1, .f32⟩
  | .hbm, ⟨20, _⟩ => ⟨S_, .f32⟩
  | .hbm, ⟨21, _⟩ => ⟨S1x1, .f32⟩
  | .hbm, ⟨22, _⟩ => ⟨S1x1, .f32⟩
  | .hbm, ⟨23, _⟩ => ⟨S4096x2048, .f32⟩
  | .hbm, ⟨24, _⟩ => ⟨S4096x2048, .i1⟩
  | .hbm, ⟨25, _⟩ => ⟨S4096x2048, .f32⟩
  | .hbm, ⟨26, _⟩ => ⟨S_, .f32⟩
  | .hbm, ⟨27, _⟩ => ⟨S_, .f32⟩
  | .hbm, ⟨28, _⟩ => ⟨S1x1, .f32⟩
  | .hbm, ⟨29, _⟩ => ⟨S_, .f32⟩
  | .hbm, ⟨30, _⟩ => ⟨S1x1, .f32⟩
  | .hbm, ⟨31, _⟩ => ⟨S1x1, .f32⟩
  | .hbm, ⟨32, _⟩ => ⟨S4096x2048, .f32⟩
  | .hbm, ⟨33, _⟩ => ⟨S_, .f32⟩
  | .hbm, ⟨34, _⟩ => ⟨S_, .f32⟩
  | .hbm, ⟨35, _⟩ => ⟨S1x1, .f32⟩
  | .hbm, ⟨36, _⟩ => ⟨S1x1, .f32⟩
  | .hbm, ⟨37, _⟩ => ⟨S4096x2048, .f32⟩
  | .hbm, ⟨38, _⟩ => ⟨S4096x2048, .f32⟩
  | .hbm, ⟨39, _⟩ => ⟨S4096x2048, .f32⟩
  | .hbm, ⟨40, _⟩ => ⟨S4096x2048, .f32⟩
  | .hbm, ⟨41, _⟩ => ⟨S4096x4096, .f32⟩
  | .hbm, ⟨42, _⟩ => ⟨S_, .f32⟩
  | .hbm, ⟨43, _⟩ => ⟨S_, .f32⟩
  | .hbm, ⟨44, _⟩ => ⟨S1x1, .f32⟩
  | .hbm, ⟨45, _⟩ => ⟨S_, .f32⟩
  | .hbm, ⟨46, _⟩ => ⟨S1x1, .f32⟩
  | .hbm, ⟨47, _⟩ => ⟨S1x1, .f32⟩
  | .hbm, ⟨48, _⟩ => ⟨S_, .f32⟩
  | .hbm, ⟨49, _⟩ => ⟨S1x1, .f32⟩
  | .hbm, ⟨50, _⟩ => ⟨S1x1, .f32⟩
  | .hbm, ⟨51, _⟩ => ⟨S4096x4096, .f32⟩
  | .hbm, ⟨52, _⟩ => ⟨S4096x4096, .i1⟩
  | .hbm, ⟨53, _⟩ => ⟨S4096x4096, .f32⟩
  | .hbm, ⟨54, _⟩ => ⟨S_, .f32⟩
  | .hbm, ⟨55, _⟩ => ⟨S_, .f32⟩
  | .hbm, ⟨56, _⟩ => ⟨S1x1, .f32⟩
  | .hbm, ⟨57, _⟩ => ⟨S_, .f32⟩
  | .hbm, ⟨58, _⟩ => ⟨S1x1, .f32⟩
  | .hbm, ⟨59, _⟩ => ⟨S1x1, .f32⟩
  | .hbm, ⟨60, _⟩ => ⟨S4096x4096, .f32⟩
  | .hbm, ⟨61, _⟩ => ⟨S_, .f32⟩
  | .hbm, ⟨62, _⟩ => ⟨S_, .f32⟩
  | .hbm, ⟨63, _⟩ => ⟨S1x1, .f32⟩
  | .hbm, ⟨64, _⟩ => ⟨S1x1, .f32⟩
  | .hbm, ⟨65, _⟩ => ⟨S4096x4096, .f32⟩
  | .hbm, ⟨66, _⟩ => ⟨S4096x4096, .f32⟩
  | .hbm, ⟨67, _⟩ => ⟨S4096x4096, .f32⟩
  | .hbm, ⟨68, _⟩ => ⟨S4096x4096, .f32⟩
  | .hbm, ⟨69, _⟩ => ⟨S6x3x4096, .f32⟩
  | .hbm, ⟨70, _⟩ => ⟨S_, .f32⟩
  | .hbm, ⟨71, _⟩ => ⟨S6, .f32⟩
  | .hbm, ⟨72, _⟩ => ⟨S6x1x1, .f32⟩
  | .hbm, ⟨73, _⟩ => ⟨S_, .f32⟩
  | .hbm, ⟨74, _⟩ => ⟨S6x1x1, .f32⟩
  | .hbm, ⟨75, _⟩ => ⟨S6x1x1, .f32⟩
  | .hbm, ⟨76, _⟩ => ⟨S_, .f32⟩
  | .hbm, ⟨77, _⟩ => ⟨S6x1x1, .f32⟩
  | .hbm, ⟨78, _⟩ => ⟨S6x1x1, .f32⟩
  | .hbm, ⟨79, _⟩ => ⟨S6x3x4096, .f32⟩
  | .hbm, ⟨80, _⟩ => ⟨S6x3x4096, .i1⟩
  | .hbm, ⟨81, _⟩ => ⟨S6x3x4096, .f32⟩
  | .hbm, ⟨82, _⟩ => ⟨S_, .f32⟩
  | .hbm, ⟨83, _⟩ => ⟨S6, .f32⟩
  | .hbm, ⟨84, _⟩ => ⟨S6x1x1, .f32⟩
  | .hbm, ⟨85, _⟩ => ⟨S_, .f32⟩
  | .hbm, ⟨86, _⟩ => ⟨S6x1x1, .f32⟩
  | .hbm, ⟨87, _⟩ => ⟨S6x1x1, .f32⟩
  | .hbm, ⟨88, _⟩ => ⟨S6x3x4096, .f32⟩
  | .hbm, ⟨89, _⟩ => ⟨S_, .f32⟩
  | .hbm, ⟨90, _⟩ => ⟨S6, .f32⟩
  | .hbm, ⟨91, _⟩ => ⟨S6x1x1, .f32⟩
  | .hbm, ⟨92, _⟩ => ⟨S6x1x1, .f32⟩
  | .hbm, ⟨93, _⟩ => ⟨S6x3x4096, .f32⟩
  | .hbm, ⟨94, _⟩ => ⟨S6x3x4096, .f32⟩
  | .hbm, ⟨95, _⟩ => ⟨S6x3x4096, .f32⟩
  | .hbm, ⟨96, _⟩ => ⟨S6x3x4096, .f32⟩
  | .hbm, ⟨97, _⟩ => ⟨S2048x4096, .f32⟩
  | .hbm, ⟨98, _⟩ => ⟨S2048x4096, .bf16⟩
  | .hbm, ⟨99, _⟩ => ⟨S4096x4096, .f32⟩
  | .hbm, ⟨100, _⟩ => ⟨S4096x4096, .bf16⟩
  | .hbm, ⟨101, _⟩ => ⟨S18x4096, .f32⟩
  | .hbm, ⟨102, _⟩ => ⟨S1044x4096, .f32⟩
  | .hbm, ⟨103, _⟩ => ⟨S18, .f32⟩
  | .hbm, ⟨104, _⟩ => ⟨S1044, .f32⟩
  | .hbm, ⟨105, _⟩ => ⟨S_, .i32⟩
  | .hbm, ⟨106, _⟩ => ⟨S_, .f32⟩
  | .hbm, ⟨107, _⟩ => ⟨S1152x4096, .f32⟩
  | .hbm, ⟨108, _⟩ => ⟨S_, .i32⟩
  | .hbm, ⟨109, _⟩ => ⟨S_, .f32⟩
  | .hbm, ⟨110, _⟩ => ⟨S1152, .f32⟩
  | .hbm, ⟨111, _⟩ => ⟨S4096x1152, .f32⟩
  | .hbm, ⟨112, _⟩ => ⟨S4096x1152, .bf16⟩
  | .hbm, ⟨113, _⟩ => ⟨S1x4096, .f32⟩
  | .hbm, ⟨114, _⟩ => ⟨S1x4096, .f32⟩
  | .hbm, ⟨115, _⟩ => ⟨S1x1152, .f32⟩
  | .hbm, ⟨116, _⟩ => ⟨S8192x4096, .bf16⟩
  | .hbm, ⟨117, _⟩ => ⟨S8192x4096, .bf16⟩
  | .hbm, ⟨118, _⟩ => ⟨S8192x1152, .f32⟩
  | .hbm, ⟨119, _⟩ => ⟨S8192x1044, .f32⟩
  | .local _ .vmem, ⟨0, _⟩ => ⟨S256x2048, .f32⟩
  | .local _ .vmem, ⟨1, _⟩ => ⟨S256x2048, .f32⟩
  | .local _ .vmem, ⟨2, _⟩ => ⟨S2048x4096, .bf16⟩
  | .local _ .vmem, ⟨3, _⟩ => ⟨S1x4096, .f32⟩
  | .local _ .vmem, ⟨4, _⟩ => ⟨S256x4096, .bf16⟩
  | .local _ .vmem, ⟨5, _⟩ => ⟨S256x4096, .bf16⟩
  | .local _ .vmem, ⟨6, _⟩ => ⟨S64x4096, .bf16⟩
  | .local _ .vmem, ⟨7, _⟩ => ⟨S64x4096, .bf16⟩
  | .local _ .vmem, ⟨8, _⟩ => ⟨S4096x4096, .bf16⟩
  | .local _ .vmem, ⟨9, _⟩ => ⟨S1x4096, .f32⟩
  | .local _ .vmem, ⟨10, _⟩ => ⟨S64x4096, .bf16⟩
  | .local _ .vmem, ⟨11, _⟩ => ⟨S64x4096, .bf16⟩
  | .local _ .vmem, ⟨12, _⟩ => ⟨S512x4096, .bf16⟩
  | .local _ .vmem, ⟨13, _⟩ => ⟨S512x4096, .bf16⟩
  | .local _ .vmem, ⟨14, _⟩ => ⟨S4096x1152, .bf16⟩
  | .local _ .vmem, ⟨15, _⟩ => ⟨S1x1152, .f32⟩
  | .local _ .vmem, ⟨16, _⟩ => ⟨S512x1152, .f32⟩
  | .local _ .vmem, ⟨17, _⟩ => ⟨S512x1152, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_cst : Ref sig .tc := ⟨.hbm, 14, rfl⟩
abbrev main_v1 : Ref sig .tc := ⟨.hbm, 15, rfl⟩
abbrev main_v2 : Ref sig .tc := ⟨.hbm, 16, rfl⟩
abbrev main_cst_0 : Ref sig .tc := ⟨.hbm, 17, rfl⟩
abbrev main_v3 : Ref sig .tc := ⟨.hbm, 18, rfl⟩
abbrev main_v4 : Ref sig .tc := ⟨.hbm, 19, rfl⟩
abbrev main_cst_1 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_cst_2 : Ref sig .tc := ⟨.hbm, 26, rfl⟩
abbrev main_v10 : Ref sig .tc := ⟨.hbm, 27, rfl⟩
abbrev main_v11 : Ref sig .tc := ⟨.hbm, 28, rfl⟩
abbrev main_cst_3 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_cst_4 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_cst_5 : Ref sig .tc := ⟨.hbm, 42, rfl⟩
abbrev main_v23 : Ref sig .tc := ⟨.hbm, 43, rfl⟩
abbrev main_v24 : Ref sig .tc := ⟨.hbm, 44, rfl⟩
abbrev main_cst_6 : Ref sig .tc := ⟨.hbm, 45, rfl⟩
abbrev main_v25 : Ref sig .tc := ⟨.hbm, 46, rfl⟩
abbrev main_v26 : Ref sig .tc := ⟨.hbm, 47, rfl⟩
abbrev main_cst_7 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_cst_8 : Ref sig .tc := ⟨.hbm, 54, rfl⟩
abbrev main_v32 : Ref sig .tc := ⟨.hbm, 55, rfl⟩
abbrev main_v33 : Ref sig .tc := ⟨.hbm, 56, rfl⟩
abbrev main_cst_9 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_cst_10 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_cst_11 : Ref sig .tc := ⟨.hbm, 70, rfl⟩
abbrev main_v45 : Ref sig .tc := ⟨.hbm, 71, rfl⟩
abbrev main_v46 : Ref sig .tc := ⟨.hbm, 72, rfl⟩
abbrev main_cst_12 : Ref sig .tc := ⟨.hbm, 73, rfl⟩
abbrev main_v47 : Ref sig .tc := ⟨.hbm, 74, rfl⟩
abbrev main_v48 : Ref sig .tc := ⟨.hbm, 75, rfl⟩
abbrev main_cst_13 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_cst_14 : Ref sig .tc := ⟨.hbm, 82, rfl⟩
abbrev main_v54 : Ref sig .tc := ⟨.hbm, 83, rfl⟩
abbrev main_v55 : Ref sig .tc := ⟨.hbm, 84, rfl⟩
abbrev main_cst_15 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_cst_16 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_c : Ref sig .tc := ⟨.hbm, 105, rfl⟩
abbrev main_call0_v0 : Ref sig .tc := ⟨.hbm, 106, rfl⟩
abbrev main_v74 : Ref sig .tc := ⟨.hbm, 107, rfl⟩
abbrev main_c_17 : Ref sig .tc := ⟨.hbm, 108, rfl⟩
abbrev main_call1_v0 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg3_0 : Ref sig .tc := ⟨.vmem, 16, rfl⟩
abbrev cc2_stg3_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem3_0 : DmaSem sig := 16
abbrev cc2_sem3_1 : DmaSem sig := 17

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x4096 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![128], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S64x4096 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S4096x4096 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x4096 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S64x4096 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![16], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S512x4096 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S4096x1152 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x1152 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S512x1152 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  reducesTo_S4096x2048_S_d0_1 : S4096x2048.ReducesTo [0, 1] S_
  h_S_ : 0 < S_.numel
  bcast_S_S1x1 : S_.BroadcastsInDim S1x1 (![] : Fin 0 → Fin S1x1.rank)
  bcast_S1x1_S4096x2048_0_1 : S1x1.BroadcastsInDim S4096x2048 (![0, 1] : Fin 2 → Fin S4096x2048.rank)
  reducesTo_S4096x4096_S_d0_1 : S4096x4096.ReducesTo [0, 1] S_
  bcast_S1x1_S4096x4096_0_1 : S1x1.BroadcastsInDim S4096x4096 (![0, 1] : Fin 2 → Fin S4096x4096.rank)
  reducesTo_S6x3x4096_S6_d1_2 : S6x3x4096.ReducesTo [1, 2] S6
  bcast_S6_S6x1x1_0 : S6.BroadcastsInDim S6x1x1 (![0] : Fin 1 → Fin S6x1x1.rank)
  bcast_S_S6x1x1 : S_.BroadcastsInDim S6x1x1 (![] : Fin 0 → Fin S6x1x1.rank)
  bcast_S6x1x1_S6x3x4096_0_1_2 : S6x1x1.BroadcastsInDim S6x3x4096 (![0, 1, 2] : Fin 3 → Fin S6x3x4096.rank)
  transposes_S4096x2048_S2048x4096_1_0 : S4096x2048.Transposes [1, 0] S2048x4096
  bitsLt_bf16_f32 : FTy.bits .bf16 < FTy.bits .f32
  transposes_S4096x4096_S4096x4096_1_0 : S4096x4096.Transposes [1, 0] S4096x4096
  shapeCasts_S6x3x4096_S18x4096 : S6x3x4096.ShapeCasts S18x4096
  concatenates_S18x4096_S1024x4096_S1x4096_S1x4096_S1044x4096_d0 : Shape.Concatenates [S18x4096, S1024x4096, S1x4096, S1x4096] S1044x4096 0
  shapeCasts_S6x3_S18 : S6x3.ShapeCasts S18
  concatenates_S18_S1024_S1_S1_S1044_d0 : Shape.Concatenates [S18, S1024, S1, S1] S1044 0
  pads_S1044x4096_S1152x4096_01080_000 : S1044x4096.Pads (![0, 0] : Fin 2 → Nat) ![108, 0] ![0, 0] S1152x4096
  pads_S1044_S1152_01080 : S1044.Pads (![0] : Fin 1 → Nat) ![108] ![0] S1152
  transposes_S1152x4096_S4096x1152_1_0 : S1152x4096.Transposes [1, 0] S4096x1152
  shapeCasts_S4096_S1x4096 : S4096.ShapeCasts S1x4096
  shapeCasts_S1152_S1x1152 : S1152.ShapeCasts S1x1152
  inb_S256x2048_S256x2048_0_0 : ∀ a, (![0, 0] : Fin 2 → Nat) a + S256x2048.size a ≤ S256x2048.size a
  h_S256x2048 : 0 < S256x2048.numel
  inb_S2048x4096_S2048x4096_0_0 : ∀ a, (![0, 0] : Fin 2 → Nat) a + S2048x4096.size a ≤ S2048x4096.size a
  h_S2048x4096 : 0 < S2048x4096.numel
  shapeCasts_S2048x4096_S2048x4096 : S2048x4096.ShapeCasts S2048x4096
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  broadcasts_S1x4096_S256x4096 : S1x4096.Broadcasts S256x4096
  inb_S256x4096_S256x4096_0_0 : ∀ a, (![0, 0] : Fin 2 → Nat) a + S256x4096.size a ≤ S256x4096.size a
  h_S256x4096 : 0 < S256x4096.numel
  packedbf16_S256x4096_S256x4096_0_0 : (Rect.unit (s := S256x4096) ![0, 0] S256x4096.size inb_S256x4096_S256x4096_0_0).PackedRows (EltTy.packing .bf16)
  inb_S64x4096_S64x4096_0_0 : ∀ a, (![0, 0] : Fin 2 → Nat) a + S64x4096.size a ≤ S64x4096.size a
  h_S64x4096 : 0 < S64x4096.numel
  shapeCasts_S64x4096_S64x4096 : S64x4096.ShapeCasts S64x4096
  inb_S4096x4096_S4096x4096_0_0 : ∀ a, (![0, 0] : Fin 2 → Nat) a + S4096x4096.size a ≤ S4096x4096.size a
  h_S4096x4096 : 0 < S4096x4096.numel
  shapeCasts_S4096x4096_S4096x4096 : S4096x4096.ShapeCasts S4096x4096
  broadcasts_S1x4096_S64x4096 : S1x4096.Broadcasts S64x4096
  packedbf16_S64x4096_S64x4096_0_0 : (Rect.unit (s := S64x4096) ![0, 0] S64x4096.size inb_S64x4096_S64x4096_0_0).PackedRows (EltTy.packing .bf16)
  inb_S512x4096_S512x4096_0_0 : ∀ a, (![0, 0] : Fin 2 → Nat) a + S512x4096.size a ≤ S512x4096.size a
  h_S512x4096 : 0 < S512x4096.numel
  shapeCasts_S512x4096_S512x4096 : S512x4096.ShapeCasts S512x4096
  inb_S4096x1152_S4096x1152_0_0 : ∀ a, (![0, 0] : Fin 2 → Nat) a + S4096x1152.size a ≤ S4096x1152.size a
  h_S4096x1152 : 0 < S4096x1152.numel
  shapeCasts_S4096x1152_S4096x1152 : S4096x1152.ShapeCasts S4096x1152
  inb_S1x1152_S1x1152_0_0 : ∀ a, (![0, 0] : Fin 2 → Nat) a + S1x1152.size a ≤ S1x1152.size a
  h_S1x1152 : 0 < S1x1152.numel
  shapeCasts_S1x1152_S1x1152 : S1x1152.ShapeCasts S1x1152
  broadcasts_S1x1152_S512x1152 : S1x1152.Broadcasts S512x1152
  iota_S512x1152_d1_w32 : S512x1152.Iotas .tc 32 [1]
  inb_S512x1152_S512x1152_0_0 : ∀ a, (![0, 0] : Fin 2 → Nat) a + S512x1152.size a ≤ S512x1152.size a
  h_S512x1152 : 0 < S512x1152.numel
  slices_S8192x1152_S8192x1044_0_0 : S8192x1152.Slices ![0, 0] S8192x1044
  dot_S256x2048_S2048x4096_S256x4096_1_0_0_1_n_n_wf : DotDims.WF S256x2048 S2048x4096 S256x4096 [1] [0] [0] [1] [] []
  dot_S64x4096_S4096x4096_S64x4096_1_0_0_1_n_n_wf : DotDims.WF S64x4096 S4096x4096 S64x4096 [1] [0] [0] [1] [] []
  dot_S512x4096_S4096x1152_S512x1152_1_0_0_1_n_n_wf : DotDims.WF S512x4096 S4096x1152 S512x1152 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x2048.size a ≤ S8192x2048.size a
  hwx0_0 : ∀ i : grid0.Coords, EltTy.bits .f32 = 32 ∨ (Rect.block (s := S8192x2048) S256x2048.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2048x4096.size a ≤ S2048x4096.size a
  hwx0_1 : ∀ i : grid0.Coords, EltTy.bits .bf16 = 32 ∨ (Rect.block (s := S2048x4096) S2048x4096.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x4096.size a ≤ S1x4096.size a
  hwx0_2 : ∀ i : grid0.Coords, EltTy.bits .f32 = 32 ∨ (Rect.block (s := S1x4096) S1x4096.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x4096.size a ≤ S8192x4096.size a
  hwx0_3 : ∀ i : grid0.Coords, EltTy.bits .bf16 = 32 ∨ (Rect.block (s := S8192x4096) S256x4096.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S64x4096.size a ≤ S8192x4096.size a
  hwx1_0 : ∀ i : grid1.Coords, EltTy.bits .bf16 = 32 ∨ (Rect.block (s := S8192x4096) S64x4096.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S4096x4096.size a ≤ S4096x4096.size a
  hwx1_1 : ∀ i : grid1.Coords, EltTy.bits .bf16 = 32 ∨ (Rect.block (s := S4096x4096) S4096x4096.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x4096.size a ≤ S1x4096.size a
  hwx1_2 : ∀ i : grid1.Coords, EltTy.bits .f32 = 32 ∨ (Rect.block (s := S1x4096) S1x4096.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S64x4096.size a ≤ S8192x4096.size a
  hwx1_3 : ∀ i : grid1.Coords, EltTy.bits .bf16 = 32 ∨ (Rect.block (s := S8192x4096) S64x4096.size (cc1_transform_3 i) (hinb1_3 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S512x4096.size a ≤ S8192x4096.size a
  hwx2_0 : ∀ i : grid2.Coords, EltTy.bits .bf16 = 32 ∨ (Rect.block (s := S8192x4096) S512x4096.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S4096x1152.size a ≤ S4096x1152.size a
  hwx2_1 : ∀ i : grid2.Coords, EltTy.bits .bf16 = 32 ∨ (Rect.block (s := S4096x1152) S4096x1152.size (cc2_transform_1 i) (hinb2_1 i)).WholeWords (EltTy.packing .bf16)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x1152.size a ≤ S1x1152.size a
  hwx2_2 : ∀ i : grid2.Coords, EltTy.bits .f32 = 32 ∨ (Rect.block (s := S1x1152) S1x1152.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S512x1152.size a ≤ S8192x1152.size a
  hwx2_3 : ∀ i : grid2.Coords, EltTy.bits .f32 = 32 ∨ (Rect.block (s := S8192x1152) S512x1152.size (cc2_transform_3 i) (hinb2_3 i)).WholeWords (EltTy.packing .f32)

variable [Facts₀]

def dot_S256x2048_S2048x4096_S256x4096_1_0_0_1_n_n : DotDims S256x2048 S2048x4096 S256x4096 where
  lhsContracting := [1]
  rhsContracting := [0]
  lhsNonContracting := [0]
  rhsNonContracting := [1]
  lhsBatch := []
  rhsBatch := []
  wf := dot_S256x2048_S2048x4096_S256x4096_1_0_0_1_n_n_wf
def dot_S64x4096_S4096x4096_S64x4096_1_0_0_1_n_n : DotDims S64x4096 S4096x4096 S64x4096 where
  lhsContracting := [1]
  rhsContracting := [0]
  lhsNonContracting := [0]
  rhsNonContracting := [1]
  lhsBatch := []
  rhsBatch := []
  wf := dot_S64x4096_S4096x4096_S64x4096_1_0_0_1_n_n_wf
def dot_S512x4096_S4096x1152_S512x1152_1_0_0_1_n_n : DotDims S512x4096 S4096x1152 S512x1152 where
  lhsContracting := [1]
  rhsContracting := [0]
  lhsNonContracting := [0]
  rhsNonContracting := [1]
  lhsBatch := []
  rhsBatch := []
  wf := dot_S512x4096_S4096x1152_S512x1152_1_0_0_1_n_n_wf

abbrev win0_0 : Pipeline.Window sig grid0 :=
  Pipeline.Window.ofSpec (Memref.whole main_arg0) S256x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v67) S2048x4096.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v78) S1x4096.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v81) S256x4096.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v81) S64x4096.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v69) S4096x4096.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v79) S1x4096.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v82) S64x4096.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v82) S512x4096.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v77) S4096x1152.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v80) S1x1152.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v83) S512x1152.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S8192x2048 : Shape := ⟨2, ![8192, 2048]⟩
abbrev S4096x2048 : Shape := ⟨2, ![4096, 2048]⟩
abbrev S4096 : Shape := ⟨1, ![4096]⟩
abbrev S4096x4096 : Shape := ⟨2, ![4096, 4096]⟩
abbrev S6x3x4096 : Shape := ⟨3, ![6, 3, 4096]⟩
abbrev S6x3 : Shape := ⟨2, ![6, 3]⟩
abbrev S1024x4096 : Shape := ⟨2, ![1024, 4096]⟩
abbrev S1024 : Shape := ⟨1, ![1024]⟩
abbrev S1x4096 : Shape := ⟨2, ![1, 4096]⟩
abbrev S1 : Shape := ⟨1, ![1]⟩
abbrev S_ : Shape := ⟨0, ![]⟩
abbrev S1x1 : Shape := ⟨2, ![1, 1]⟩
abbrev S2048x4096 : Shape := ⟨2, ![2048, 4096]⟩
abbrev S8192x4096 : Shape := ⟨2, ![8192, 4096]⟩
abbrev S6 : Shape := ⟨1, ![6]⟩
abbrev S6x1x1 : Shape := ⟨3, ![6, 1, 1]⟩
abbrev S8192x6x3 : Shape := ⟨3, ![8192, 6, 3]⟩
abbrev S1x6x3 : Shape := ⟨3, ![1, 6, 3]⟩
abbrev S4096x1024 : Shape := ⟨2, ![4096, 1024]⟩
abbrev S8192x1024 : Shape := ⟨2, ![8192, 1024]⟩
abbrev S1x1024 : Shape := ⟨2, ![1, 1024]⟩
abbrev S4096x1 : Shape := ⟨2, ![4096, 1]⟩
abbrev S8192x1 : Shape := ⟨2, ![8192, 1]⟩
abbrev S8192x18 : Shape := ⟨2, ![8192, 18]⟩
abbrev S8192x1044 : Shape := ⟨2, ![8192, 1044]⟩

abbrev nBuf : Space → Nat
  | .hbm => 148
  | .vmem => 0
  | .smem => 0
  | _ => 0

abbrev hbmTy0_0 (i : Nat) : BufTy := match i % 128 with
  | 0 => ⟨S8192x2048, .f32⟩
  | 1 => ⟨S4096x2048, .f32⟩
  | 2 => ⟨S4096, .f32⟩
  | 3 => ⟨S4096x4096, .f32⟩
  | 4 => ⟨S4096, .f32⟩
  | 5 => ⟨S6x3x4096, .f32⟩
  | 6 => ⟨S6x3, .f32⟩
  | 7 => ⟨S1024x4096, .f32⟩
  | 8 => ⟨S1024, .f32⟩
  | 9 => ⟨S1x4096, .f32⟩
  | 10 => ⟨S1, .f32⟩
  | 11 => ⟨S1x4096, .f32⟩
  | 12 => ⟨S1, .f32⟩
  | 13 => ⟨S4096x2048, .f32⟩
  | 14 => ⟨S_, .f32⟩
  | 15 => ⟨S_, .f32⟩
  | 16 => ⟨S1x1, .f32⟩
  | 17 => ⟨S_, .f32⟩
  | 18 => ⟨S1x1, .f32⟩
  | 19 => ⟨S1x1, .f32⟩
  | 20 => ⟨S_, .f32⟩
  | 21 => ⟨S1x1, .f32⟩
  | 22 => ⟨S1x1, .f32⟩
  | 23 => ⟨S4096x2048, .f32⟩
  | 24 => ⟨S4096x2048, .i1⟩
  | 25 => ⟨S4096x2048, .f32⟩
  | 26 => ⟨S_, .f32⟩
  | 27 => ⟨S_, .f32⟩
  | 28 => ⟨S1x1, .f32⟩
  | 29 => ⟨S_, .f32⟩
  | 30 => ⟨S1x1, .f32⟩
  | 31 => ⟨S1x1, .f32⟩
  | 32 => ⟨S4096x2048, .f32⟩
  | 33 => ⟨S_, .f32⟩
  | 34 => ⟨S_, .f32⟩
  | 35 => ⟨S1x1, .f32⟩
  | 36 => ⟨S1x1, .f32⟩
  | 37 => ⟨S4096x2048, .f32⟩
  | 38 => ⟨S4096x2048, .f32⟩
  | 39 => ⟨S4096x2048, .f32⟩
  | 40 => ⟨S4096x2048, .f32⟩
  | 41 => ⟨S4096x2048, .f32⟩
  | 42 => ⟨S4096x2048, .f32⟩
  | 43 => ⟨S2048x4096, .f32⟩
  | 44 => ⟨S8192x4096, .f32⟩
  | 45 => ⟨S1x4096, .f32⟩
  | 46 => ⟨S8192x4096, .f32⟩
  | 47 => ⟨S8192x4096, .f32⟩
  | 48 => ⟨S_, .f32⟩
  | 49 => ⟨S8192x4096, .f32⟩
  | 50 => ⟨S8192x4096, .f32⟩
  | 51 => ⟨S4096x4096, .f32⟩
  | 52 => ⟨S_, .f32⟩
  | 53 => ⟨S_, .f32⟩
  | 54 => ⟨S1x1, .f32⟩
  | 55 => ⟨S_, .f32⟩
  | 56 => ⟨S1x1, .f32⟩
  | 57 => ⟨S1x1, .f32⟩
  | 58 => ⟨S_, .f32⟩
  | 59 => ⟨S1x1, .f32⟩
  | 60 => ⟨S1x1, .f32⟩
  | 61 => ⟨S4096x4096, .f32⟩
  | 62 => ⟨S4096x4096, .i1⟩
  | 63 => ⟨S4096x4096, .f32⟩
  | 64 => ⟨S_, .f32⟩
  | 65 => ⟨S_, .f32⟩
  | 66 => ⟨S1x1, .f32⟩
  | 67 => ⟨S_, .f32⟩
  | 68 => ⟨S1x1, .f32⟩
  | 69 => ⟨S1x1, .f32⟩
  | 70 => ⟨S4096x4096, .f32⟩
  | 71 => ⟨S_, .f32⟩
  | 72 => ⟨S_, .f32⟩
  | 73 => ⟨S1x1, .f32⟩
  | 74 => ⟨S1x1, .f32⟩
  | 75 => ⟨S4096x4096, .f32⟩
  | 76 => ⟨S4096x4096, .f32⟩
  | 77 => ⟨S4096x4096, .f32⟩
  | 78 => ⟨S4096x4096, .f32⟩
  | 79 => ⟨S4096x4096, .f32⟩
  | 80 => ⟨S4096x4096, .f32⟩
  | 81 => ⟨S4096x4096, .f32⟩
  | 82 => ⟨S8192x4096, .f32⟩
  | 83 => ⟨S1x4096, .f32⟩
  | 84 => ⟨S8192x4096, .f32⟩
  | 85 => ⟨S8192x4096, .f32⟩
  | 86 => ⟨S_, .f32⟩
  | 87 => ⟨S8192x4096, .f32⟩
  | 88 => ⟨S8192x4096, .f32⟩
  | 89 => ⟨S6x3x4096, .f32⟩
  | 90 => ⟨S_, .f32⟩
  | 91 => ⟨S6, .f32⟩
  | 92 => ⟨S6x1x1, .f32⟩
  | 93 => ⟨S_, .f32⟩
  | 94 => ⟨S6x1x1, .f32⟩
  | 95 => ⟨S6x1x1, .f32⟩
  | 96 => ⟨S_, .f32⟩
  | 97 => ⟨S6x1x1, .f32⟩
  | 98 => ⟨S6x1x1, .f32⟩
  | 99 => ⟨S6x3x4096, .f32⟩
  | 100 => ⟨S6x3x4096, .i1⟩
  | 101 => ⟨S6x3x4096, .f32⟩
  | 102 => ⟨S_, .f32⟩
  | 103 => ⟨S6, .f32⟩
  | 104 => ⟨S6x1x1, .f32⟩
  | 105 => ⟨S_, .f32⟩
  | 106 => ⟨S6x1x1, .f32⟩
  | 107 => ⟨S6x1x1, .f32⟩
  | 108 => ⟨S6x3x4096, .f32⟩
  | 109 => ⟨S_, .f32⟩
  | 110 => ⟨S6, .f32⟩
  | 111 => ⟨S6x1x1, .f32⟩
  | 112 => ⟨S6x1x1, .f32⟩
  | 113 => ⟨S6x3x4096, .f32⟩
  | 114 => ⟨S6x3x4096, .f32⟩
  | 115 => ⟨S6x3x4096, .f32⟩
  | 116 => ⟨S6x3x4096, .f32⟩
  | 117 => ⟨S6x3x4096, .f32⟩
  | 118 => ⟨S6x3x4096, .f32⟩
  | 119 => ⟨S8192x6x3, .f32⟩
  | 120 => ⟨S1x6x3, .f32⟩
  | 121 => ⟨S8192x6x3, .f32⟩
  | 122 => ⟨S8192x6x3, .f32⟩
  | 123 => ⟨S4096x1024, .f32⟩
  | 124 => ⟨S8192x1024, .f32⟩
  | 125 => ⟨S1x1024, .f32⟩
  | 126 => ⟨S8192x1024, .f32⟩
  | 127 => ⟨S8192x1024, .f32⟩
  | _ => ⟨S8192x2048, .f32⟩

abbrev hbmTy0_1 (i : Nat) : BufTy := match i % 128 with
  | 0 => ⟨S4096x1, .f32⟩
  | 1 => ⟨S8192x1, .f32⟩
  | 2 => ⟨S1x1, .f32⟩
  | 3 => ⟨S8192x1, .f32⟩
  | 4 => ⟨S8192x1, .f32⟩
  | 5 => ⟨S4096x1, .f32⟩
  | 6 => ⟨S8192x1, .f32⟩
  | 7 => ⟨S1x1, .f32⟩
  | 8 => ⟨S8192x1, .f32⟩
  | 9 => ⟨S8192x1, .f32⟩
  | 10 => ⟨S8192x1, .f32⟩
  | 11 => ⟨S8192x1, .f32⟩
  | 12 => ⟨S_, .f32⟩
  | 13 => ⟨S8192x1, .f32⟩
  | 14 => ⟨S8192x1, .f32⟩
  | 15 => ⟨S_, .f32⟩
  | 16 => ⟨S8192x1, .f32⟩
  | 17 => ⟨S8192x1, .f32⟩
  | 18 => ⟨S8192x18, .f32⟩
  | 19 => ⟨S8192x1044, .f32⟩
  | _ => ⟨S8192x2048, .f32⟩

abbrev hbmTy (i : Nat) : BufTy := match i / 128 with
  | 0 => hbmTy0_0 i
  | 1 => hbmTy0_1 i
  | _ => ⟨S8192x2048, .f32⟩

abbrev bufTy : (tb : Table) → Fin (tcTables nBuf tb) → BufTy
  | .hbm, ⟨i, _⟩ => hbmTy i
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_cst : Ref sig .tc := ⟨.hbm, 14, rfl⟩
abbrev main_v1 : Ref sig .tc := ⟨.hbm, 15, rfl⟩
abbrev main_v2 : Ref sig .tc := ⟨.hbm, 16, rfl⟩
abbrev main_cst_0 : Ref sig .tc := ⟨.hbm, 17, rfl⟩
abbrev main_v3 : Ref sig .tc := ⟨.hbm, 18, rfl⟩
abbrev main_v4 : Ref sig .tc := ⟨.hbm, 19, rfl⟩
abbrev main_cst_1 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_cst_2 : Ref sig .tc := ⟨.hbm, 26, rfl⟩
abbrev main_v10 : Ref sig .tc := ⟨.hbm, 27, rfl⟩
abbrev main_v11 : Ref sig .tc := ⟨.hbm, 28, rfl⟩
abbrev main_cst_3 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_cst_4 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_call0_cst : Ref sig .tc := ⟨.hbm, 48, rfl⟩
abbrev main_call0_v0 : Ref sig .tc := ⟨.hbm, 49, rfl⟩
abbrev main_v29 : Ref sig .tc := ⟨.hbm, 50, rfl⟩
abbrev main_v30 : Ref sig .tc := ⟨.hbm, 51, rfl⟩
abbrev main_cst_5 : Ref sig .tc := ⟨.hbm, 52, rfl⟩
abbrev main_v31 : Ref sig .tc := ⟨.hbm, 53, rfl⟩
abbrev main_v32 : Ref sig .tc := ⟨.hbm, 54, rfl⟩
abbrev main_cst_6 : Ref sig .tc := ⟨.hbm, 55, rfl⟩
abbrev main_v33 : Ref sig .tc := ⟨.hbm, 56, rfl⟩
abbrev main_v34 : Ref sig .tc := ⟨.hbm, 57, rfl⟩
abbrev main_cst_7 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_cst_8 : Ref sig .tc := ⟨.hbm, 64, rfl⟩
abbrev main_v40 : Ref sig .tc := ⟨.hbm, 65, rfl⟩
abbrev main_v41 : Ref sig .tc := ⟨.hbm, 66, rfl⟩
abbrev main_cst_9 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_cst_10 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_call1_cst : Ref sig .tc := ⟨.hbm, 86, rfl⟩
abbrev main_call1_v0 : Ref sig .tc := ⟨.hbm, 87, rfl⟩
abbrev main_v59 : Ref sig .tc := ⟨.hbm, 88, rfl⟩
abbrev main_v60 : Ref sig .tc := ⟨.hbm, 89, rfl⟩
abbrev main_cst_11 : Ref sig .tc := ⟨.hbm, 90, rfl⟩
abbrev main_v61 : Ref sig .tc := ⟨.hbm, 91, rfl⟩
abbrev main_v62 : Ref sig .tc := ⟨.hbm, 92, rfl⟩
abbrev main_cst_12 : Ref sig .tc := ⟨.hbm, 93, rfl⟩
abbrev main_v63 : Ref sig .tc := ⟨.hbm, 94, rfl⟩
abbrev main_v64 : Ref sig .tc := ⟨.hbm, 95, rfl⟩
abbrev main_cst_13 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_cst_14 : Ref sig .tc := ⟨.hbm, 102, rfl⟩
abbrev main_v70 : Ref sig .tc := ⟨.hbm, 103, rfl⟩
abbrev main_v71 : Ref sig .tc := ⟨.hbm, 104, rfl⟩
abbrev main_cst_15 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_cst_16 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_v86 : Ref sig .tc := ⟨.hbm, 121, rfl⟩
abbrev main_v87 : Ref sig .tc := ⟨.hbm, 122, rfl⟩
abbrev main_v88 : Ref sig .tc := ⟨.hbm, 123, rfl⟩
abbrev main_v89 : Ref sig .tc := ⟨.hbm, 124, rfl⟩
abbrev main_v90 : Ref sig .tc := ⟨.hbm, 125, rfl⟩
abbrev main_v91 : Ref sig .tc := ⟨.hbm, 126, rfl⟩
abbrev main_v92 : Ref sig .tc := ⟨.hbm, 127, rfl⟩
abbrev main_v93 : Ref sig .tc := ⟨.hbm, 128, rfl⟩
abbrev main_v94 : Ref sig .tc := ⟨.hbm, 129, rfl⟩
abbrev main_v95 : Ref sig .tc := ⟨.hbm, 130, rfl⟩
abbrev main_v96 : Ref sig .tc := ⟨.hbm, 131, rfl⟩
abbrev main_v97 : Ref sig .tc := ⟨.hbm, 132, rfl⟩
abbrev main_v98 : Ref sig .tc := ⟨.hbm, 133, rfl⟩
abbrev main_v99 : Ref sig .tc := ⟨.hbm, 134, rfl⟩
abbrev main_v100 : Ref sig .tc := ⟨.hbm, 135, rfl⟩
abbrev main_v101 : Ref sig .tc := ⟨.hbm, 136, rfl⟩
abbrev main_v102 : Ref sig .tc := ⟨.hbm, 137, rfl⟩
abbrev main_v103 : Ref sig .tc := ⟨.hbm, 138, rfl⟩
abbrev main_v104 : Ref sig .tc := ⟨.hbm, 139, rfl⟩
abbrev main_cst_17 : Ref sig .tc := ⟨.hbm, 140, rfl⟩
abbrev main_v105 : Ref sig .tc := ⟨.hbm, 141, rfl⟩
abbrev main_v106 : Ref sig .tc := ⟨.hbm, 142, rfl⟩
abbrev main_cst_18 : Ref sig .tc := ⟨.hbm, 143, rfl⟩
abbrev main_v107 : Ref sig .tc := ⟨.hbm, 144, rfl⟩
abbrev main_v108 : Ref sig .tc := ⟨.hbm, 145, rfl⟩
abbrev main_v109 : Ref sig .tc := ⟨.hbm, 146, rfl⟩
abbrev main_v110 : Ref sig .tc := ⟨.hbm, 147, rfl⟩

abbrev nD : Nat := 1
abbrev τ : Topo := Topo.v7x

variable {F : FTy → Type} [FloatOps F]

class Facts₀ : Prop where
  reducesTo_S4096x2048_S_d0_1 : S4096x2048.ReducesTo [0, 1] S_
  h_S_ : 0 < S_.numel
  bcast_S_S1x1 : S_.BroadcastsInDim S1x1 (![] : Fin 0 → Fin S1x1.rank)
  bcast_S1x1_S4096x2048_0_1 : S1x1.BroadcastsInDim S4096x2048 (![0, 1] : Fin 2 → Fin S4096x2048.rank)
  transposes_S4096x2048_S2048x4096_1_0 : S4096x2048.Transposes [1, 0] S2048x4096
  bcast_S4096_S1x4096_1 : S4096.BroadcastsInDim S1x4096 (![1] : Fin 1 → Fin S1x4096.rank)
  bcast_S1x4096_S8192x4096_0_1 : S1x4096.BroadcastsInDim S8192x4096 (![0, 1] : Fin 2 → Fin S8192x4096.rank)
  bcast_S_S8192x4096 : S_.BroadcastsInDim S8192x4096 (![] : Fin 0 → Fin S8192x4096.rank)
  reducesTo_S4096x4096_S_d0_1 : S4096x4096.ReducesTo [0, 1] S_
  bcast_S1x1_S4096x4096_0_1 : S1x1.BroadcastsInDim S4096x4096 (![0, 1] : Fin 2 → Fin S4096x4096.rank)
  transposes_S4096x4096_S4096x4096_1_0 : S4096x4096.Transposes [1, 0] S4096x4096
  reducesTo_S6x3x4096_S6_d1_2 : S6x3x4096.ReducesTo [1, 2] S6
  bcast_S6_S6x1x1_0 : S6.BroadcastsInDim S6x1x1 (![0] : Fin 1 → Fin S6x1x1.rank)
  bcast_S_S6x1x1 : S_.BroadcastsInDim S6x1x1 (![] : Fin 0 → Fin S6x1x1.rank)
  bcast_S6x1x1_S6x3x4096_0_1_2 : S6x1x1.BroadcastsInDim S6x3x4096 (![0, 1, 2] : Fin 3 → Fin S6x3x4096.rank)
  bcast_S6x3_S1x6x3_1_2 : S6x3.BroadcastsInDim S1x6x3 (![1, 2] : Fin 2 → Fin S1x6x3.rank)
  bcast_S1x6x3_S8192x6x3_0_1_2 : S1x6x3.BroadcastsInDim S8192x6x3 (![0, 1, 2] : Fin 3 → Fin S8192x6x3.rank)
  transposes_S1024x4096_S4096x1024_1_0 : S1024x4096.Transposes [1, 0] S4096x1024
  bcast_S1024_S1x1024_1 : S1024.BroadcastsInDim S1x1024 (![1] : Fin 1 → Fin S1x1024.rank)
  bcast_S1x1024_S8192x1024_0_1 : S1x1024.BroadcastsInDim S8192x1024 (![0, 1] : Fin 2 → Fin S8192x1024.rank)
  transposes_S1x4096_S4096x1_1_0 : S1x4096.Transposes [1, 0] S4096x1
  bcast_S1_S1x1_1 : S1.BroadcastsInDim S1x1 (![1] : Fin 1 → Fin S1x1.rank)
  bcast_S1x1_S8192x1_0_1 : S1x1.BroadcastsInDim S8192x1 (![0, 1] : Fin 2 → Fin S8192x1.rank)
  bcast_S_S8192x1 : S_.BroadcastsInDim S8192x1 (![] : Fin 0 → Fin S8192x1.rank)
  shapeCasts_S8192x6x3_S8192x18 : S8192x6x3.ShapeCasts S8192x18
  concatenates_S8192x18_S8192x1024_S8192x1_S8192x1_S8192x1044_d1 : Shape.Concatenates [S8192x18, S8192x1024, S8192x1, S8192x1] S8192x1044 1
  dot_S8192x2048_S2048x4096_S8192x4096_1_0_0_1_n_n_wf : DotDims.WF S8192x2048 S2048x4096 S8192x4096 [1] [0] [0] [1] [] []
  dot_S8192x4096_S4096x4096_S8192x4096_1_0_0_1_n_n_wf : DotDims.WF S8192x4096 S4096x4096 S8192x4096 [1] [0] [0] [1] [] []
  dot_S8192x4096_S6x3x4096_S8192x6x3_1_2_0_01_n_n_wf : DotDims.WF S8192x4096 S6x3x4096 S8192x6x3 [1] [2] [0] [0, 1] [] []
  dot_S8192x4096_S4096x1024_S8192x1024_1_0_0_1_n_n_wf : DotDims.WF S8192x4096 S4096x1024 S8192x1024 [1] [0] [0] [1] [] []
  dot_S8192x4096_S4096x1_S8192x1_1_0_0_1_n_n_wf : DotDims.WF S8192x4096 S4096x1 S8192x1 [1] [0] [0] [1] [] []

variable [Facts₀]

def dot_S8192x2048_S2048x4096_S8192x4096_1_0_0_1_n_n : DotDims S8192x2048 S2048x4096 S8192x4096 where
  lhsContracting := [1]
  rhsContracting := [0]
  lhsNonContracting := [0]
  rhsNonContracting := [1]
  lhsBatch := []
  rhsBatch := []
  wf := dot_S8192x2048_S2048x4096_S8192x4096_1_0_0_1_n_n_wf
def dot_S8192x4096_S4096x4096_S8192x4096_1_0_0_1_n_n : DotDims S8192x4096 S4096x4096 S8192x4096 where
  lhsContracting := [1]
  rhsContracting := [0]
  lhsNonContracting := [0]
  rhsNonContracting := [1]
  lhsBatch := []
  rhsBatch := []
  wf := dot_S8192x4096_S4096x4096_S8192x4096_1_0_0_1_n_n_wf
def dot_S8192x4096_S6x3x4096_S8192x6x3_1_2_0_01_n_n : DotDims S8192x4096 S6x3x4096 S8192x6x3 where
  lhsContracting := [1]
  rhsContracting := [2]
  lhsNonContracting := [0]
  rhsNonContracting := [0, 1]
  lhsBatch := []
  rhsBatch := []
  wf := dot_S8192x4096_S6x3x4096_S8192x6x3_1_2_0_01_n_n_wf
def dot_S8192x4096_S4096x1024_S8192x1024_1_0_0_1_n_n : DotDims S8192x4096 S4096x1024 S8192x1024 where
  lhsContracting := [1]
  rhsContracting := [0]
  lhsNonContracting := [0]
  rhsNonContracting := [1]
  lhsBatch := []
  rhsBatch := []
  wf := dot_S8192x4096_S4096x1024_S8192x1024_1_0_0_1_n_n_wf
def dot_S8192x4096_S4096x1_S8192x1_1_0_0_1_n_n : DotDims S8192x4096 S4096x1 S8192x1 where
  lhsContracting := [1]
  rhsContracting := [0]
  lhsNonContracting := [0]
  rhsNonContracting := [1]
  lhsBatch := []
  rhsBatch := []
  wf := dot_S8192x4096_S4096x1_S8192x1_1_0_0_1_n_n_wf

class Facts : Prop extends Facts₀ where

variable [Facts]
-- ==== Proof.KB.Fold.lean ====
/-
  The contents of a core's buffers at the boundaries of the host stretches that precede the first kernel region:
  each boundary's contents are the previous boundary's with one more stretch of host operations applied, starting
  from the memory the program is launched with. The last of them is what the first region finds on entry.
-/
import proofs.«158892_j50087908606273_2_alg».proof.Proof.Gen.Kernel.Launch

noncomputable section

namespace Cert.Kernel.Hand

open Cert.Kernel Cert.Kernel.Gen
open Idealize.ShloMosaic Idealize.ShloMosaic.TcCoe
open Idealize.SL Idealize.SL.Sem

variable {F : FTy → Type} [FloatOps F]
variable (m : (ℓ : Loc nD τ sig) → Buf (Elt F) ℓ) (ρ : Dev nD → PrngReg)

/-- Core c's buffers at launch. -/
abbrev W0 : Dev nD → Valuation τ sig (Elt F) := fun c b => (s₀ m ρ).mem ((c : Dev nD), b)
/-- After the first 93 host operations: the three quantized weights, the two transposed hidden weights, the stacked
    head weight and bias before padding. -/
abbrev W1 : Dev nD → Valuation τ sig (Elt F) := fun c => StableHlo.after hostOps0 (W0 m ρ c)
/-- After the stacked head weight is padded to 1152 rows. -/
abbrev W2 : Dev nD → Valuation τ sig (Elt F) := fun c => StableHlo.after hostOps0_1 (W1 m ρ c)
/-- After the second padding constant. -/
abbrev W3 : Dev nD → Valuation τ sig (Elt F) := fun c => StableHlo.after hostOps0_2 (W2 m ρ c)
/-- After the stacked head bias is padded to 1152 entries. -/
abbrev W4 : Dev nD → Valuation τ sig (Elt F) := fun c => StableHlo.after hostOps0_3 (W3 m ρ c)
/-- After the padded head weight is transposed and the three biases are laid out as rows: the first region's entry. -/
abbrev W5 : Dev nD → Valuation τ sig (Elt F) := fun c => StableHlo.after hostOps0_4 (W4 m ρ c)
/-- The same read at the TensorCore's references. -/
abbrev V5 : (c : Dev nD) → (b : Ref sig .tc) → Buf (Elt F) ((c : Thread nD τ).loc b) := fun c b => W5 m ρ c b

end Cert.Kernel.Hand

end
-- ==== Proof.KB.Body0.lean ====
/-
  The first hidden layer's kernel: at each of its 32 grid points it reads a block of 256 rows of the input, the whole transposed weight and the bias row, and writes the 256 rows of max(x·w + b, 0).
  This module states what one grid point does to the four staging buffers: the three input buffers are left as they
  were, and the output buffer ends holding the one stored value, a function of the three input blocks alone. From that
  it builds the data the pipeline's launch rule asks for: which array each window stages, what each staging buffer
  holds after the body at each point, and the obligation that the body, started on the blocks the pipeline fetched,
  ends in that state. Everything is stated for an arbitrary contents V of the core's buffers at the moment the region
  is entered, and for an arbitrary interpretation of the floats.
-/
import proofs.«158892_j50087908606273_2_alg».proof.Proof.Gen.Kernel.Launch
import proofs.«158892_j50087908606273_2_alg».proof.Proof.Gen.Kernel.Skeleton
import proofs.«158892_j50087908606273_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at grid point t, cut out of the array the window stages, as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds the window's block at every point, whether the pipeline fetched it
    there or kept it from the point before (its block index has not moved), once the body leaves it in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- The body reads and writes each staging buffer whole. -/
abbrev r0_0 : Rect S256x2048 := Rect.unit (s := S256x2048) ![0, 0] S256x2048.size inb_S256x2048_S256x2048_0_0
abbrev r0_1 : Rect S2048x4096 := Rect.unit (s := S2048x4096) ![0, 0] S2048x4096.size inb_S2048x4096_S2048x4096_0_0
abbrev r0_2 : Rect S1x4096 := Rect.unit (s := S1x4096) ![0, 0] S1x4096.size inb_S1x4096_S1x4096_0_0
abbrev r0_3 : Rect S256x4096 := Rect.unit (s := S256x4096) ![0, 0] S256x4096.size inb_S256x4096_S256x4096_0_0

/-- What the output window's staging buffer holds after the body: its one store, of the stored value computed from
    the three input blocks. -/
def out0_3 (x0 : Vec F S256x2048 .f32) (x1 : Vec F S2048x4096 .bf16) (x2 : Vec F S1x4096 .f32) : Vec F S256x4096 .bf16 :=
  View.canon [⟨r0_3, k0_pay1 (View.ld x0 r0_0) (View.ld x1 r0_1) (View.ld x2 r0_2)⟩]

/-- The one store covers the whole buffer. -/
theorem cover0_3 (p0 : Vec F S256x4096 .bf16) (y : S256x4096.Idx) :
    ∃ pc ∈ ([⟨r0_3, p0⟩] : List (View.Piece (Elt F) S256x4096 .bf16)), y ∈ pc.1.set :=
  View.cover_of_tiled [⟨r0_3, p0⟩] S256x4096.size (by rfl) y

set_option maxHeartbeats 4000000 in
/-- The body on whole staging buffers, the three inputs at given contents and the output at anything, runs to the end
    leaving the inputs as they were and the output at `out0_3` of them. -/
theorem sound_kernel0 (c : Dev nD) (E : Set ℕ) (i : grid0.Coords)
    (arg1 : Memref sig .tc .vmem S256x2048 .f32) (harg1 : arg1.IsWhole) (arg2 : Memref sig .tc .vmem S2048x4096 .bf16) (harg2 : arg2.IsWhole)
    (arg3 : Memref sig .tc .vmem S1x4096 .f32) (harg3 : arg3.IsWhole) (arg4 : Memref sig .tc .vmem S256x4096 .bf16) (harg4 : arg4.IsWhole)
    (x0 : Vec F S256x2048 .f32) (x1 : Vec F S2048x4096 .bf16) (x2 : Vec F S1x4096 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1 x2)) -∗ K ⟨⟩))
      ⊢ wp frame (wpE (defs₀ (F := F)) Variants.none c none) E (cc0__mm_bias_relu_kernel i arg1 harg1 arg2 harg2 arg3 harg3 arg4 harg4) K := by
  simp only [cc0__mm_bias_relu_kernel_eq_skeleton]; unfold cc0__mm_bias_relu_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-- The pipeline's data on core c: each window stages the array the region finds; after the body at point t each input
    buffer holds its block and the output buffer `out0_3` of the three blocks; the invariant between points is the
    core's other scoped buffers and its generator register, untouched; nothing is owed; every share is whole. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-- What the body is called with at point t, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the input buffers hold their blocks, so `sound_kernel0` applies; the invariant and what the
    core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The launch rule's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.KB.Body1.lean ====
/-
  The second hidden layer's kernel: at each of its 128 grid points it reads a block of 64 rows of the first layer's output, the whole transposed weight and the bias row, and writes the 64 rows of max(h·w + b, 0).
  This module states what one grid point does to the four staging buffers: the three input buffers are left as they
  were, and the output buffer ends holding the one stored value, a function of the three input blocks alone. From that
  it builds the data the pipeline's launch rule asks for: which array each window stages, what each staging buffer
  holds after the body at each point, and the obligation that the body, started on the blocks the pipeline fetched,
  ends in that state. Everything is stated for an arbitrary contents V of the core's buffers at the moment the region
  is entered, and for an arbitrary interpretation of the floats.
-/
import proofs.«158892_j50087908606273_2_alg».proof.Proof.Gen.Kernel.Launch
import proofs.«158892_j50087908606273_2_alg».proof.Proof.Gen.Kernel.Skeleton
import proofs.«158892_j50087908606273_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at grid point t, cut out of the array the window stages, as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds the window's block at every point, whether the pipeline fetched it
    there or kept it from the point before (its block index has not moved), once the body leaves it in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- The body reads and writes each staging buffer whole. -/
abbrev r1_0 : Rect S64x4096 := Rect.unit (s := S64x4096) ![0, 0] S64x4096.size inb_S64x4096_S64x4096_0_0
abbrev r1_1 : Rect S4096x4096 := Rect.unit (s := S4096x4096) ![0, 0] S4096x4096.size inb_S4096x4096_S4096x4096_0_0
abbrev r1_2 : Rect S1x4096 := Rect.unit (s := S1x4096) ![0, 0] S1x4096.size inb_S1x4096_S1x4096_0_0
abbrev r1_3 : Rect S64x4096 := Rect.unit (s := S64x4096) ![0, 0] S64x4096.size inb_S64x4096_S64x4096_0_0

/-- What the output window's staging buffer holds after the body: its one store, of the stored value computed from
    the three input blocks. -/
def out1_3 (x0 : Vec F S64x4096 .bf16) (x1 : Vec F S4096x4096 .bf16) (x2 : Vec F S1x4096 .f32) : Vec F S64x4096 .bf16 :=
  View.canon [⟨r1_3, k1_pay1 (View.ld x0 r1_0) (View.ld x1 r1_1) (View.ld x2 r1_2)⟩]

/-- The one store covers the whole buffer. -/
theorem cover1_3 (p0 : Vec F S64x4096 .bf16) (y : S64x4096.Idx) :
    ∃ pc ∈ ([⟨r1_3, p0⟩] : List (View.Piece (Elt F) S64x4096 .bf16)), y ∈ pc.1.set :=
  View.cover_of_tiled [⟨r1_3, p0⟩] S64x4096.size (by rfl) y

set_option maxHeartbeats 4000000 in
/-- The body on whole staging buffers, the three inputs at given contents and the output at anything, runs to the end
    leaving the inputs as they were and the output at `out1_3` of them. -/
theorem sound_kernel1 (c : Dev nD) (E : Set ℕ) (i : grid1.Coords)
    (arg1 : Memref sig .tc .vmem S64x4096 .bf16) (harg1 : arg1.IsWhole) (arg2 : Memref sig .tc .vmem S4096x4096 .bf16) (harg2 : arg2.IsWhole)
    (arg3 : Memref sig .tc .vmem S1x4096 .f32) (harg3 : arg3.IsWhole) (arg4 : Memref sig .tc .vmem S64x4096 .bf16) (harg4 : arg4.IsWhole)
    (x0 : Vec F S64x4096 .bf16) (x1 : Vec F S4096x4096 .bf16) (x2 : Vec F S1x4096 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out1_3 x0 x1 x2)) -∗ K ⟨⟩))
      ⊢ wp frame (wpE (defs₀ (F := F)) Variants.none c none) E (cc1__mm_bias_relu_kernel i arg1 harg1 arg2 harg2 arg3 harg3 arg4 harg4) K := by
  simp only [cc1__mm_bias_relu_kernel_eq_skeleton]; unfold cc1__mm_bias_relu_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-- The pipeline's data on core c: each window stages the array the region finds; after the body at point t each input
    buffer holds its block and the output buffer `out1_3` of the three blocks; the invariant between points is the
    core's other scoped buffers and its generator register, untouched; nothing is owed; every share is whole. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = out1_3 (iblk1 V c 0 t) (iblk1 V c 1 t) (iblk1 V c 2 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-- What the body is called with at point t, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the input buffers hold their blocks, so `sound_kernel1` applies; the invariant and what the
    core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The launch rule's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.KB.Body2.lean ====
/-
  The head kernel: at each of its 16 grid points it reads a block of 512 rows of the second layer's output, the whole transposed stacked head weight and the stacked bias row, and writes the 512 rows of h·w + b with column 1043 passed through the logistic function.
  This module states what one grid point does to the four staging buffers: the three input buffers are left as they
  were, and the output buffer ends holding the one stored value, a function of the three input blocks alone. From that
  it builds the data the pipeline's launch rule asks for: which array each window stages, what each staging buffer
  holds after the body at each point, and the obligation that the body, started on the blocks the pipeline fetched,
  ends in that state. Everything is stated for an arbitrary contents V of the core's buffers at the moment the region
  is entered, and for an arbitrary interpretation of the floats.
-/
import proofs.«158892_j50087908606273_2_alg».proof.Proof.Gen.Kernel.Launch
import proofs.«158892_j50087908606273_2_alg».proof.Proof.Gen.Kernel.Skeleton
import proofs.«158892_j50087908606273_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at grid point t, cut out of the array the window stages, as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's current staging buffer holds the window's block at every point, whether the pipeline fetched it
    there or kept it from the point before (its block index has not moved), once the body leaves it in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- The body reads and writes each staging buffer whole. -/
abbrev r2_0 : Rect S512x4096 := Rect.unit (s := S512x4096) ![0, 0] S512x4096.size inb_S512x4096_S512x4096_0_0
abbrev r2_1 : Rect S4096x1152 := Rect.unit (s := S4096x1152) ![0, 0] S4096x1152.size inb_S4096x1152_S4096x1152_0_0
abbrev r2_2 : Rect S1x1152 := Rect.unit (s := S1x1152) ![0, 0] S1x1152.size inb_S1x1152_S1x1152_0_0
abbrev r2_3 : Rect S512x1152 := Rect.unit (s := S512x1152) ![0, 0] S512x1152.size inb_S512x1152_S512x1152_0_0

/-- What the output window's staging buffer holds after the body: its one store, of the stored value computed from
    the three input blocks. -/
def out2_3 (x0 : Vec F S512x4096 .bf16) (x1 : Vec F S4096x1152 .bf16) (x2 : Vec F S1x1152 .f32) : Vec F S512x1152 .f32 :=
  View.canon [⟨r2_3, k2_pay1 (View.ld x0 r2_0) (View.ld x1 r2_1) (View.ld x2 r2_2)⟩]

/-- The one store covers the whole buffer. -/
theorem cover2_3 (p0 : Vec F S512x1152 .f32) (y : S512x1152.Idx) :
    ∃ pc ∈ ([⟨r2_3, p0⟩] : List (View.Piece (Elt F) S512x1152 .f32)), y ∈ pc.1.set :=
  View.cover_of_tiled [⟨r2_3, p0⟩] S512x1152.size (by rfl) y

set_option maxHeartbeats 4000000 in
/-- The body on whole staging buffers, the three inputs at given contents and the output at anything, runs to the end
    leaving the inputs as they were and the output at `out2_3` of them. -/
theorem sound_kernel2 (c : Dev nD) (E : Set ℕ) (i : grid2.Coords)
    (arg1 : Memref sig .tc .vmem S512x4096 .bf16) (harg1 : arg1.IsWhole) (arg2 : Memref sig .tc .vmem S4096x1152 .bf16) (harg2 : arg2.IsWhole)
    (arg3 : Memref sig .tc .vmem S1x1152 .f32) (harg3 : arg3.IsWhole) (arg4 : Memref sig .tc .vmem S512x1152 .f32) (harg4 : arg4.IsWhole)
    (x0 : Vec F S512x4096 .bf16) (x1 : Vec F S4096x1152 .bf16) (x2 : Vec F S1x1152 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out2_3 x0 x1 x2)) -∗ K ⟨⟩))
      ⊢ wp frame (wpE (defs₀ (F := F)) Variants.none c none) E (cc2__mm_bias_head_kernel i arg1 harg1 arg2 harg2 arg3 harg3 arg4 harg4) K := by
  simp only [cc2__mm_bias_head_kernel_eq_skeleton]; unfold cc2__mm_bias_head_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover2_3 _)

/-- The pipeline's data on core c: each window stages the array the region finds; after the body at point t each input
    buffer holds its block and the output buffer `out2_3` of the three blocks; the invariant between points is the
    core's other scoped buffers and its generator register, untouched; nothing is owed; every share is whole. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) :
    (dat2 V c).after 3 t = out2_3 (iblk2 V c 0 t) (iblk2 V c 1 t) (iblk2 V c 2 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-- What the body is called with at point t, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

/-- The body at any point: the input buffers hold their blocks, so `sound_kernel2` applies; the invariant and what the
    core owes pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ _ _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The launch rule's body obligation, at every point. -/
theorem body_obligation2 (c : Dev nD) : BodyObligation (dat2 (F := F) V c) (defs₀ (F := F)) Variants.none () Set.univ := fun t => by
  rw [bigSep_W2, bigSep_W2]
  exact sound_body2 V c t

end Cert.Kernel.Hand

end
-- ==== Proof.KB.Run.lean ====
/-
  The whole program as a list of nine segments — five stretches of host operations, the three kernel regions, and
  the final slice — and its run: from any launch memory every weakly fair execution ends, faulting nowhere, with every
  unscoped buffer of each core at contents this module NAMES. The contents at a boundary are the previous boundary's
  with a stretch of host operations applied, or, across a region, with the region's four arrays replaced by what the
  pipeline's write-backs leave and every other buffer kept.
-/
import proofs.«158892_j50087908606273_2_alg».proof.Proof.KB.Fold
import proofs.«158892_j50087908606273_2_alg».proof.Proof.KB.Body0
import proofs.«158892_j50087908606273_2_alg».proof.Proof.KB.Body1
import proofs.«158892_j50087908606273_2_alg».proof.Proof.KB.Body2

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- When region 0 ends: its four arrays at what the pipeline leaves (the three inputs as entered, the output's
    write-backs folded over the grid), every other buffer as entered. -/
def W6 (c : Dev nD) : Valuation τ sig (Elt F) :=
  Pipeline.withArrays spec0 c (W5 m ρ c) fun w => (dat0 (V5 m ρ) c).arrAt w cfg0.N
theorem W6_arr (c : Dev nD) (w : Fin cfg0.W) :
    W6 m ρ c (Proc.devRef .tc (Pipeline.arrRef spec0 w)) = (dat0 (V5 m ρ) c).arrAt w cfg0.N := by
  unfold W6; exact Pipeline.withArrays_arr spec0 launch0.win.arr_inj c _ _ w
theorem W6_of_ne (c : Dev nD) (b : Ref sig .tc) (hb : ∀ w, Pipeline.arrRef spec0 w ≠ b) :
    W6 m ρ c (Proc.devRef .tc b) = W5 m ρ c (Proc.devRef .tc b) := by
  unfold W6; exact Pipeline.withArrays_of_ne spec0 c _ _ b hb
/-- The same read at the TensorCore's references. -/
abbrev V6 : (c : Dev nD) → (b : Ref sig .tc) → Buf (Elt F) ((c : Thread nD τ).loc b) := fun c b => W6 m ρ c b
theorem hF0 (c : Dev nD) (w : Fin cfg0.W) : (dat0 (V5 m ρ) c).arrAt w cfg0.N = V6 m ρ c (Pipeline.arrRef spec0 w) :=
  (W6_arr m ρ c w).symm
theorem hrest0 (c : Dev nD) : ∀ b, b ∉ Finset.univ.image (Pipeline.arrRef spec0) → V6 m ρ c b = V5 m ρ c b :=
  fun b hb => W6_of_ne m ρ c b fun w e => hb (Finset.mem_image.mpr ⟨w, Finset.mem_univ _, e⟩)

/-- When region 1 ends: its four arrays at what the pipeline leaves (the three inputs as entered, the output's
    write-backs folded over the grid), every other buffer as entered. -/
def W7 (c : Dev nD) : Valuation τ sig (Elt F) :=
  Pipeline.withArrays spec1 c (W6 m ρ c) fun w => (dat1 (V6 m ρ) c).arrAt w cfg1.N
theorem W7_arr (c : Dev nD) (w : Fin cfg1.W) :
    W7 m ρ c (Proc.devRef .tc (Pipeline.arrRef spec1 w)) = (dat1 (V6 m ρ) c).arrAt w cfg1.N := by
  unfold W7; exact Pipeline.withArrays_arr spec1 launch1.win.arr_inj c _ _ w
theorem W7_of_ne (c : Dev nD) (b : Ref sig .tc) (hb : ∀ w, Pipeline.arrRef spec1 w ≠ b) :
    W7 m ρ c (Proc.devRef .tc b) = W6 m ρ c (Proc.devRef .tc b) := by
  unfold W7; exact Pipeline.withArrays_of_ne spec1 c _ _ b hb
/-- The same read at the TensorCore's references. -/
abbrev V7 : (c : Dev nD) → (b : Ref sig .tc) → Buf (Elt F) ((c : Thread nD τ).loc b) := fun c b => W7 m ρ c b
theorem hF1 (c : Dev nD) (w : Fin cfg1.W) : (dat1 (V6 m ρ) c).arrAt w cfg1.N = V7 m ρ c (Pipeline.arrRef spec1 w) :=
  (W7_arr m ρ c w).symm
theorem hrest1 (c : Dev nD) : ∀ b, b ∉ Finset.univ.image (Pipeline.arrRef spec1) → V7 m ρ c b = V6 m ρ c b :=
  fun b hb => W7_of_ne m ρ c b fun w e => hb (Finset.mem_image.mpr ⟨w, Finset.mem_univ _, e⟩)

/-- When region 2 ends: its four arrays at what the pipeline leaves (the three inputs as entered, the output's
    write-backs folded over the grid), every other buffer as entered. -/
def W8 (c : Dev nD) : Valuation τ sig (Elt F) :=
  Pipeline.withArrays spec2 c (W7 m ρ c) fun w => (dat2 (V7 m ρ) c).arrAt w cfg2.N
theorem W8_arr (c : Dev nD) (w : Fin cfg2.W) :
    W8 m ρ c (Proc.devRef .tc (Pipeline.arrRef spec2 w)) = (dat2 (V7 m ρ) c).arrAt w cfg2.N := by
  unfold W8; exact Pipeline.withArrays_arr spec2 launch2.win.arr_inj c _ _ w
theorem W8_of_ne (c : Dev nD) (b : Ref sig .tc) (hb : ∀ w, Pipeline.arrRef spec2 w ≠ b) :
    W8 m ρ c (Proc.devRef .tc b) = W7 m ρ c (Proc.devRef .tc b) := by
  unfold W8; exact Pipeline.withArrays_of_ne spec2 c _ _ b hb
/-- The same read at the TensorCore's references. -/
abbrev V8 : (c : Dev nD) → (b : Ref sig .tc) → Buf (Elt F) ((c : Thread nD τ).loc b) := fun c b => W8 m ρ c b
theorem hF2 (c : Dev nD) (w : Fin cfg2.W) : (dat2 (V7 m ρ) c).arrAt w cfg2.N = V8 m ρ c (Pipeline.arrRef spec2 w) :=
  (W8_arr m ρ c w).symm
theorem hrest2 (c : Dev nD) : ∀ b, b ∉ Finset.univ.image (Pipeline.arrRef spec2) → V8 m ρ c b = V7 m ρ c b :=
  fun b hb => W8_of_ne m ρ c b fun w e => hb (Finset.mem_image.mpr ⟨w, Finset.mem_univ _, e⟩)

/-- After the final slice: what the program returns. -/
abbrev W9 : Dev nD → Valuation τ sig (Elt F) := fun c => StableHlo.after hostOps3 (W8 m ρ c)

/-! ## The pipelines' data and the thread state between segments -/

/-- No pipeline has a prefetched table. -/
abbrev adm : (p : Fin 3) → (pcfgs (F := F) p).Adm := fun p => (cfgs p).toPCfg_adm
/-- Every pipeline's data, each at the contents its region is entered with. -/
def pdats : (p : Fin 3) → (c : Dev nD) → Dat τ (Elt F) Unit ℕ (UR sig nD τ) ℕ (Pipeline.pin (pcfgs (F := F)) adm p) c
  | ⟨0, _⟩ => fun c => dat0 (V5 m ρ) c
  | ⟨1, _⟩ => fun c => dat1 (V6 m ρ) c
  | ⟨2, _⟩ => fun c => dat2 (V7 m ρ) c
abbrev 𝒱₀ : Variants := Variants.none
/-- No core owes another anything. -/
abbrev L : GSem nD τ sig → Finset Unit := fun _ => ∅
abbrev lv : GSem nD τ sig → Unit → ℕ := fun _ _ => 0
/-- What rides beside the buffers through every segment: the core's generator register at some state, and that it
    owes nothing. -/
abbrev R (c : Dev nD) : sProp 𝕄 := iprop((∃ r, prngReg c r) ∗ ∃ W, owes (c : Thread nD τ) (0 : CellTallies nD τ sig Unit) W)
/-- A stretch of host operations as a segment over the unscoped buffers, from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- No host operation allocates a buffer. -/
theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps3_fresh : (hostOps3 : List (HloOp τ sig (Elt F))).Forall fun op => op.fresh = ∅ := by
  simp only [List.Forall]; repeat' constructor
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without what the core owes: every unscoped buffer at the final contents, the generator
    register at some state. -/
abbrev Tₙ (c : Dev nD) : sProp 𝕄 := iprop(StableHlo.held (c : Thread nD τ) (Pipeline.ucRefs τ sig) (W9 m ρ c) ∗ ∃ r, prngReg c r)

/-! ## The regions as segments -/

set_option backward.isDefEq.respectTransparency.types false in
/-- Region 0 as a segment: entered with every unscoped buffer at `W5`, left with them at `W6`. Its four arrays
    are split out of the unscoped buffers on entry and put back, at what the pipeline's write-backs leave, on exit; the
    generator register goes into the pipeline's invariant and comes back; nothing is owed; the kernel has no semaphore of
    its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V5 m ρ) c).loose
  hwaits := Pipeline.hwaits_of_owed_zero _ _ _ _ L lv 0 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec0 c (V5 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V5 m ρ c) (V6 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 as a segment: entered with every unscoped buffer at `W6`, left with them at `W7`. Its four arrays
    are split out of the unscoped buffers on entry and put back, at what the pipeline's write-backs leave, on exit; the
    generator register goes into the pipeline's invariant and comes back; nothing is owed; the kernel has no semaphore of
    its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V6 m ρ) c).loose
  hwaits := Pipeline.hwaits_of_owed_zero _ _ _ _ L lv 1 fun _ _ => rfl
  pre c := iprop(StableHlo.held (c : Thread nD τ) (Pipeline.ucRefs τ sig) (W6 m ρ c) ∗ R c)
  post c := iprop(StableHlo.held (c : Thread nD τ) (Pipeline.ucRefs τ sig) (W7 m ρ c) ∗ R c)
  X c := iprop(∃ r, prngReg c r)
  Y c := iprop(∃ r, prngReg c r)
  Z c := Pipeline.unscopedRest (Ix := Unit) (Name := ℕ) (U := UR sig nD τ) (Lvl := ℕ) spec1 c (V6 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V6 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V6 m ρ c) (V7 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 as a segment: entered with every unscoped buffer at `W7`, left with them at `W8`. Its four arrays
    are split out of the unscoped buffers on entry and put back, at what the pipeline's write-backs leave, on exit; the
    generator register goes into the pipeline's invariant and comes back; nothing is owed; the kernel has no semaphore of
    its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V7 m ρ) c).loose
  hwaits := Pipeline.hwaits_of_owed_zero _ _ _ _ L lv 2 fun _ _ => rfl
  pre c := iprop(StableHlo.held (c : Thread nD τ) (Pipeline.ucRefs τ sig) (W7 m ρ c) ∗ R c)
  post c := iprop(StableHlo.held (c : Thread nD τ) (Pipeline.ucRefs τ sig) (W8 m ρ c) ∗ R c)
  X c := iprop(∃ r, prngReg c r)
  Y c := iprop(∃ r, prngReg c r)
  Z c := Pipeline.unscopedRest (Ix := Unit) (Name := ℕ) (U := UR sig nD τ) (Lvl := ℕ) spec2 c (V7 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V7 m ρ c) (V8 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments, and the launch -/

/-- The nine segments in order. -/
abbrev segs : List (Pipeline.Seg (pcfgs (F := F)) adm (pdats m ρ) () defs₀ 𝒱₀ L lv) :=
  [ .host (hseg hostOps0 hostOps0_sub hostOps0_fresh (W0 m ρ)),
    .host (hseg hostOps0_1 hostOps0_1_sub hostOps0_1_fresh (W1 m ρ)),
    .host (hseg hostOps0_2 hostOps0_2_sub hostOps0_2_fresh (W2 m ρ)),
    .host (hseg hostOps0_3 hostOps0_3_sub hostOps0_3_fresh (W3 m ρ)),
    .host (hseg hostOps0_4 hostOps0_4_sub hostOps0_4_fresh (W4 m ρ)),
    .region (reg0 m ρ),
    .region (reg1 m ρ),
    .region (reg2 m ρ),
    .host (hseg hostOps3 hostOps3_sub hostOps3_fresh (W8 m ρ)) ]
/-- The program IS the run of the segments. -/
theorem main_run (c : Dev nD) : main (F := F) c = Pipeline.Seg.run (segs m ρ) := (main_chain c).trans (by chain_rfl)

set_option backward.isDefEq.respectTransparency.types false in
set_option maxHeartbeats 4000000 in
/-- THE RUN: from any launch memory with zero counters, every weakly fair execution of the program on the TensorCores
    terminates, nothing faulting, and in every final state every unscoped buffer of core c holds `W9 m ρ c`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W9 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl,
      fun _ => .rfl, fun c => by
        show iprop(StableHlo.held (c : Thread nD τ) (Pipeline.ucRefs τ sig) (W9 m ρ c)
            ∗ ((∃ r, prngReg c r) ∗ ∃ W, owes (c : Thread nD τ) (0 : CellTallies nD τ sig Unit) W))
          ⊢ iprop((StableHlo.held (c : Thread nD τ) (Pipeline.ucRefs τ sig) (W9 m ρ c) ∗ ∃ r, prngReg c r)
            ∗ ∃ W, owes (c : Thread nD τ) (0 : CellTallies nD τ sig Unit) W)
        iintro ⟨Hh, Hp, HO⟩
        isplitr [HO]
        · isplitl [Hh]; · iexact Hh
          iexact Hp
        iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h c => h c)

end Cert.Kernel.Hand

end
-- ==== Proof.KB.Args.lean ====
/-
  Every argument array ends as it was launched: no host operation writes an argument's buffer, the second and third
  regions do not touch one, and the first region only reads the input array through a window, so walking the final
  contents back through the nine segments reaches the launch memory.
-/
import proofs.«158892_j50087908606273_2_alg».proof.Proof.KB.Run

set_option maxRecDepth 16384

noncomputable section

namespace Cert.Kernel.Hand

open Cert.Kernel Cert.Kernel.Gen
open Idealize.ShloMosaic Idealize.ShloMosaic.TcCoe
open Idealize.SL Idealize.SL.Sem
open Idealize.ShloMosaic.Pipeline (Dat)

variable {F : FTy → Type} [FloatOps F]
variable (m : (ℓ : Loc nD τ sig) → Buf (Elt F) ℓ) (ρ : Dev nD → PrngReg)

/-- A buffer that no operation of a stretch writes holds after the stretch what it held before. -/
local macro "kept_through " ops:ident : tactic => `(tactic| (
  refine StableHlo.after_of_forall_not_mem _ _ (List.forall_iff_forall_mem.mp ?_)
  simp only [$ops:ident, List.Forall, StableHlo.nullary_writes, StableHlo.unary_writes, StableHlo.binary_writes,
    StableHlo.reshape_writes, StableHlo.nary_writes, Finset.mem_singleton]
  repeat' apply And.intro
  all_goals exact StableHlo.devRef_ne_of_ne (by decide)))

theorem W9_main_arg0 (c : Dev nD) : W9 m ρ c (Proc.devRef .tc main_arg0) = m ((c : Thread nD τ).loc main_arg0) :=
  calc W9 m ρ c (Proc.devRef .tc main_arg0)
    _ = W8 m ρ c (Proc.devRef .tc main_arg0) := by kept_through hostOps3
    _ = W7 m ρ c (Proc.devRef .tc main_arg0) := W8_of_ne m ρ c main_arg0 (by decide)
    _ = W6 m ρ c (Proc.devRef .tc main_arg0) := W7_of_ne m ρ c main_arg0 (by decide)
    _ = W5 m ρ c (Proc.devRef .tc main_arg0) := (W6_arr m ρ c 0).trans (((dat0 (V5 m ρ) c).arrAt_in 0 rfl _).trans (A_eq0 (V5 m ρ) c 0))
    _ = W4 m ρ c (Proc.devRef .tc main_arg0) := by kept_through hostOps0_4
    _ = W3 m ρ c (Proc.devRef .tc main_arg0) := by kept_through hostOps0_3
    _ = W2 m ρ c (Proc.devRef .tc main_arg0) := by kept_through hostOps0_2
    _ = W1 m ρ c (Proc.devRef .tc main_arg0) := by kept_through hostOps0_1
    _ = W0 m ρ c (Proc.devRef .tc main_arg0) := by kept_through hostOps0
    _ = m ((c : Thread nD τ).loc main_arg0) := rfl

theorem W9_main_arg1 (c : Dev nD) : W9 m ρ c (Proc.devRef .tc main_arg1) = m ((c : Thread nD τ).loc main_arg1) :=
  calc W9 m ρ c (Proc.devRef .tc main_arg1)
    _ = W8 m ρ c (Proc.devRef .tc main_arg1) := by kept_through hostOps3
    _ = W7 m ρ c (Proc.devRef .tc main_arg1) := W8_of_ne m ρ c main_arg1 (by decide)
    _ = W6 m ρ c (Proc.devRef .tc main_arg1) := W7_of_ne m ρ c main_arg1 (by decide)
    _ = W5 m ρ c (Proc.devRef .tc main_arg1) := W6_of_ne m ρ c main_arg1 (by decide)
    _ = W4 m ρ c (Proc.devRef .tc main_arg1) := by kept_through hostOps0_4
    _ = W3 m ρ c (Proc.devRef .tc main_arg1) := by kept_through hostOps0_3
    _ = W2 m ρ c (Proc.devRef .tc main_arg1) := by kept_through hostOps0_2
    _ = W1 m ρ c (Proc.devRef .tc main_arg1) := by kept_through hostOps0_1
    _ = W0 m ρ c (Proc.devRef .tc main_arg1) := by kept_through hostOps0
    _ = m ((c : Thread nD τ).loc main_arg1) := rfl

theorem W9_main_arg2 (c : Dev nD) : W9 m ρ c (Proc.devRef .tc main_arg2) = m ((c : Thread nD τ).loc main_arg2) :=
  calc W9 m ρ c (Proc.devRef .tc main_arg2)
    _ = W8 m ρ c (Proc.devRef .tc main_arg2) := by kept_through hostOps3
    _ = W7 m ρ c (Proc.devRef .tc main_arg2) := W8_of_ne m ρ c main_arg2 (by decide)
    _ = W6 m ρ c (Proc.devRef .tc main_arg2) := W7_of_ne m ρ c main_arg2 (by decide)
    _ = W5 m ρ c (Proc.devRef .tc main_arg2) := W6_of_ne m ρ c main_arg2 (by decide)
    _ = W4 m ρ c (Proc.devRef .tc main_arg2) := by kept_through hostOps0_4
    _ = W3 m ρ c (Proc.devRef .tc main_arg2) := by kept_through hostOps0_3
    _ = W2 m ρ c (Proc.devRef .tc main_arg2) := by kept_through hostOps0_2
    _ = W1 m ρ c (Proc.devRef .tc main_arg2) := by kept_through hostOps0_1
    _ = W0 m ρ c (Proc.devRef .tc main_arg2) := by kept_through hostOps0
    _ = m ((c : Thread nD τ).loc main_arg2) := rfl

theorem W9_main_arg3 (c : Dev nD) : W9 m ρ c (Proc.devRef .tc main_arg3) = m ((c : Thread nD τ).loc main_arg3) :=
  calc W9 m ρ c (Proc.devRef .tc main_arg3)
    _ = W8 m ρ c (Proc.devRef .tc main_arg3) := by kept_through hostOps3
    _ = W7 m ρ c (Proc.devRef .tc main_arg3) := W8_of_ne m ρ c main_arg3 (by decide)
    _ = W6 m ρ c (Proc.devRef .tc main_arg3) := W7_of_ne m ρ c main_arg3 (by decide)
    _ = W5 m ρ c (Proc.devRef .tc main_arg3) := W6_of_ne m ρ c main_arg3 (by decide)
    _ = W4 m ρ c (Proc.devRef .tc main_arg3) := by kept_through hostOps0_4
    _ = W3 m ρ c (Proc.devRef .tc main_arg3) := by kept_through hostOps0_3
    _ = W2 m ρ c (Proc.devRef .tc main_arg3) := by kept_through hostOps0_2
    _ = W1 m ρ c (Proc.devRef .tc main_arg3) := by kept_through hostOps0_1
    _ = W0 m ρ c (Proc.devRef .tc main_arg3) := by kept_through hostOps0
    _ = m ((c : Thread nD τ).loc main_arg3) := rfl

theorem W9_main_arg4 (c : Dev nD) : W9 m ρ c (Proc.devRef .tc main_arg4) = m ((c : Thread nD τ).loc main_arg4) :=
  calc W9 m ρ c (Proc.devRef .tc main_arg4)
    _ = W8 m ρ c (Proc.devRef .tc main_arg4) := by kept_through hostOps3
    _ = W7 m ρ c (Proc.devRef .tc main_arg4) := W8_of_ne m ρ c main_arg4 (by decide)
    _ = W6 m ρ c (Proc.devRef .tc main_arg4) := W7_of_ne m ρ c main_arg4 (by decide)
    _ = W5 m ρ c (Proc.devRef .tc main_arg4) := W6_of_ne m ρ c main_arg4 (by decide)
    _ = W4 m ρ c (Proc.devRef .tc main_arg4) := by kept_through hostOps0_4
    _ = W3 m ρ c (Proc.devRef .tc main_arg4) := by kept_through hostOps0_3
    _ = W2 m ρ c (Proc.devRef .tc main_arg4) := by kept_through hostOps0_2
    _ = W1 m ρ c (Proc.devRef .tc main_arg4) := by kept_through hostOps0_1
    _ = W0 m ρ c (Proc.devRef .tc main_arg4) := by kept_through hostOps0
    _ = m ((c : Thread nD τ).loc main_arg4) := rfl

theorem W9_main_arg5 (c : Dev nD) : W9 m ρ c (Proc.devRef .tc main_arg5) = m ((c : Thread nD τ).loc main_arg5) :=
  calc W9 m ρ c (Proc.devRef .tc main_arg5)
    _ = W8 m ρ c (Proc.devRef .tc main_arg5) := by kept_through hostOps3
    _ = W7 m ρ c (Proc.devRef .tc main_arg5) := W8_of_ne m ρ c main_arg5 (by decide)
    _ = W6 m ρ c (Proc.devRef .tc main_arg5) := W7_of_ne m ρ c main_arg5 (by decide)
    _ = W5 m ρ c (Proc.devRef .tc main_arg5) := W6_of_ne m ρ c main_arg5 (by decide)
    _ = W4 m ρ c (Proc.devRef .tc main_arg5) := by kept_through hostOps0_4
    _ = W3 m ρ c (Proc.devRef .tc main_arg5) := by kept_through hostOps0_3
    _ = W2 m ρ c (Proc.devRef .tc main_arg5) := by kept_through hostOps0_2
    _ = W1 m ρ c (Proc.devRef .tc main_arg5) := by kept_through hostOps0_1
    _ = W0 m ρ c (Proc.devRef .tc main_arg5) := by kept_through hostOps0
    _ = m ((c : Thread nD τ).loc main_arg5) := rfl

theorem W9_main_arg6 (c : Dev nD) : W9 m ρ c (Proc.devRef .tc main_arg6) = m ((c : Thread nD τ).loc main_arg6) :=
  calc W9 m ρ c (Proc.devRef .tc main_arg6)
    _ = W8 m ρ c (Proc.devRef .tc main_arg6) := by kept_through hostOps3
    _ = W7 m ρ c (Proc.devRef .tc main_arg6) := W8_of_ne m ρ c main_arg6 (by decide)
    _ = W6 m ρ c (Proc.devRef .tc main_arg6) := W7_of_ne m ρ c main_arg6 (by decide)
    _ = W5 m ρ c (Proc.devRef .tc main_arg6) := W6_of_ne m ρ c main_arg6 (by decide)
    _ = W4 m ρ c (Proc.devRef .tc main_arg6) := by kept_through hostOps0_4
    _ = W3 m ρ c (Proc.devRef .tc main_arg6) := by kept_through hostOps0_3
    _ = W2 m ρ c (Proc.devRef .tc main_arg6) := by kept_through hostOps0_2
    _ = W1 m ρ c (Proc.devRef .tc main_arg6) := by kept_through hostOps0_1
    _ = W0 m ρ c (Proc.devRef .tc main_arg6) := by kept_through hostOps0
    _ = m ((c : Thread nD τ).loc main_arg6) := rfl

theorem W9_main_arg7 (c : Dev nD) : W9 m ρ c (Proc.devRef .tc main_arg7) = m ((c : Thread nD τ).loc main_arg7) :=
  calc W9 m ρ c (Proc.devRef .tc main_arg7)
    _ = W8 m ρ c (Proc.devRef .tc main_arg7) := by kept_through hostOps3
    _ = W7 m ρ c (Proc.devRef .tc main_arg7) := W8_of_ne m ρ c main_arg7 (by decide)
    _ = W6 m ρ c (Proc.devRef .tc main_arg7) := W7_of_ne m ρ c main_arg7 (by decide)
    _ = W5 m ρ c (Proc.devRef .tc main_arg7) := W6_of_ne m ρ c main_arg7 (by decide)
    _ = W4 m ρ c (Proc.devRef .tc main_arg7) := by kept_through hostOps0_4
    _ = W3 m ρ c (Proc.devRef .tc main_arg7) := by kept_through hostOps0_3
    _ = W2 m ρ c (Proc.devRef .tc main_arg7) := by kept_through hostOps0_2
    _ = W1 m ρ c (Proc.devRef .tc main_arg7) := by kept_through hostOps0_1
    _ = W0 m ρ c (Proc.devRef .tc main_arg7) := by kept_through hostOps0
    _ = m ((c : Thread nD τ).loc main_arg7) := rfl

theorem W9_main_arg8 (c : Dev nD) : W9 m ρ c (Proc.devRef .tc main_arg8) = m ((c : Thread nD τ).loc main_arg8) :=
  calc W9 m ρ c (Proc.devRef .tc main_arg8)
    _ = W8 m ρ c (Proc.devRef .tc main_arg8) := by kept_through hostOps3
    _ = W7 m ρ c (Proc.devRef .tc main_arg8) := W8_of_ne m ρ c main_arg8 (by decide)
    _ = W6 m ρ c (Proc.devRef .tc main_arg8) := W7_of_ne m ρ c main_arg8 (by decide)
    _ = W5 m ρ c (Proc.devRef .tc main_arg8) := W6_of_ne m ρ c main_arg8 (by decide)
    _ = W4 m ρ c (Proc.devRef .tc main_arg8) := by kept_through hostOps0_4
    _ = W3 m ρ c (Proc.devRef .tc main_arg8) := by kept_through hostOps0_3
    _ = W2 m ρ c (Proc.devRef .tc main_arg8) := by kept_through hostOps0_2
    _ = W1 m ρ c (Proc.devRef .tc main_arg8) := by kept_through hostOps0_1
    _ = W0 m ρ c (Proc.devRef .tc main_arg8) := by kept_through hostOps0
    _ = m ((c : Thread nD τ).loc main_arg8) := rfl

theorem W9_main_arg9 (c : Dev nD) : W9 m ρ c (Proc.devRef .tc main_arg9) = m ((c : Thread nD τ).loc main_arg9) :=
  calc W9 m ρ c (Proc.devRef .tc main_arg9)
    _ = W8 m ρ c (Proc.devRef .tc main_arg9) := by kept_through hostOps3
    _ = W7 m ρ c (Proc.devRef .tc main_arg9) := W8_of_ne m ρ c main_arg9 (by decide)
    _ = W6 m ρ c (Proc.devRef .tc main_arg9) := W7_of_ne m ρ c main_arg9 (by decide)
    _ = W5 m ρ c (Proc.devRef .tc main_arg9) := W6_of_ne m ρ c main_arg9 (by decide)
    _ = W4 m ρ c (Proc.devRef .tc main_arg9) := by kept_through hostOps0_4
    _ = W3 m ρ c (Proc.devRef .tc main_arg9) := by kept_through hostOps0_3
    _ = W2 m ρ c (Proc.devRef .tc main_arg9) := by kept_through hostOps0_2
    _ = W1 m ρ c (Proc.devRef .tc main_arg9) := by kept_through hostOps0_1
    _ = W0 m ρ c (Proc.devRef .tc main_arg9) := by kept_through hostOps0
    _ = m ((c : Thread nD τ).loc main_arg9) := rfl

theorem W9_main_arg10 (c : Dev nD) : W9 m ρ c (Proc.devRef .tc main_arg10) = m ((c : Thread nD τ).loc main_arg10) :=
  calc W9 m ρ c (Proc.devRef .tc main_arg10)
    _ = W8 m ρ c (Proc.devRef .tc main_arg10) := by kept_through hostOps3
    _ = W7 m ρ c (Proc.devRef .tc main_arg10) := W8_of_ne m ρ c main_arg10 (by decide)
    _ = W6 m ρ c (Proc.devRef .tc main_arg10) := W7_of_ne m ρ c main_arg10 (by decide)
    _ = W5 m ρ c (Proc.devRef .tc main_arg10) := W6_of_ne m ρ c main_arg10 (by decide)
    _ = W4 m ρ c (Proc.devRef .tc main_arg10) := by kept_through hostOps0_4
    _ = W3 m ρ c (Proc.devRef .tc main_arg10) := by kept_through hostOps0_3
    _ = W2 m ρ c (Proc.devRef .tc main_arg10) := by kept_through hostOps0_2
    _ = W1 m ρ c (Proc.devRef .tc main_arg10) := by kept_through hostOps0_1
    _ = W0 m ρ c (Proc.devRef .tc main_arg10) := by kept_through hostOps0
    _ = m ((c : Thread nD τ).loc main_arg10) := rfl

theorem W9_main_arg11 (c : Dev nD) : W9 m ρ c (Proc.devRef .tc main_arg11) = m ((c : Thread nD τ).loc main_arg11) :=
  calc W9 m ρ c (Proc.devRef .tc main_arg11)
    _ = W8 m ρ c (Proc.devRef .tc main_arg11) := by kept_through hostOps3
    _ = W7 m ρ c (Proc.devRef .tc main_arg11) := W8_of_ne m ρ c main_arg11 (by decide)
    _ = W6 m ρ c (Proc.devRef .tc main_arg11) := W7_of_ne m ρ c main_arg11 (by decide)
    _ = W5 m ρ c (Proc.devRef .tc main_arg11) := W6_of_ne m ρ c main_arg11 (by decide)
    _ = W4 m ρ c (Proc.devRef .tc main_arg11) := by kept_through hostOps0_4
    _ = W3 m ρ c (Proc.devRef .tc main_arg11) := by kept_through hostOps0_3
    _ = W2 m ρ c (Proc.devRef .tc main_arg11) := by kept_through hostOps0_2
    _ = W1 m ρ c (Proc.devRef .tc main_arg11) := by kept_through hostOps0_1
    _ = W0 m ρ c (Proc.devRef .tc main_arg11) := by kept_through hostOps0
    _ = m ((c : Thread nD τ).loc main_arg11) := rfl

theorem W9_main_arg12 (c : Dev nD) : W9 m ρ c (Proc.devRef .tc main_arg12) = m ((c : Thread nD τ).loc main_arg12) :=
  calc W9 m ρ c (Proc.devRef .tc main_arg12)
    _ = W8 m ρ c (Proc.devRef .tc main_arg12) := by kept_through hostOps3
    _ = W7 m ρ c (Proc.devRef .tc main_arg12) := W8_of_ne m ρ c main_arg12 (by decide)
    _ = W6 m ρ c (Proc.devRef .tc main_arg12) := W7_of_ne m ρ c main_arg12 (by decide)
    _ = W5 m ρ c (Proc.devRef .tc main_arg12) := W6_of_ne m ρ c main_arg12 (by decide)
    _ = W4 m ρ c (Proc.devRef .tc main_arg12) := by kept_through hostOps0_4
    _ = W3 m ρ c (Proc.devRef .tc main_arg12) := by kept_through hostOps0_3
    _ = W2 m ρ c (Proc.devRef .tc main_arg12) := by kept_through hostOps0_2
    _ = W1 m ρ c (Proc.devRef .tc main_arg12) := by kept_through hostOps0_1
    _ = W0 m ρ c (Proc.devRef .tc main_arg12) := by kept_through hostOps0
    _ = m ((c : Thread nD τ).loc main_arg12) := rfl

end Cert.Kernel.Hand

end
-- ==== Proof.KB.Frame.lean ====
/-
  The frame claim read off the run: in every final state each argument array is the final contents of its buffer,
  and those are the launch contents. For the value claim the same run also names what the result buffer holds.
-/
import proofs.«158892_j50087908606273_2_alg».proof.Proof.KB.Args

set_option maxRecDepth 16384

noncomputable section

namespace Cert.Kernel.Hand

open Cert.Kernel Cert.Kernel.Gen
open Idealize.ShloMosaic Idealize.ShloMosaic.TcCoe
open Idealize.SL Idealize.SL.Sem

variable {F : FTy → Type} [FloatOps F]
variable (m : (ℓ : Loc nD τ sig) → Buf (Elt F) ℓ) (ρ : Dev nD → PrngReg)

/-- Every weakly fair execution terminates, nothing faulting, with the thirteen argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun r h c => ⟨(h c _ (mem_uc main_arg0 (by decide))).trans (W9_main_arg0 m ρ c),
      (h c _ (mem_uc main_arg1 (by decide))).trans (W9_main_arg1 m ρ c),
      (h c _ (mem_uc main_arg2 (by decide))).trans (W9_main_arg2 m ρ c),
      (h c _ (mem_uc main_arg3 (by decide))).trans (W9_main_arg3 m ρ c),
      (h c _ (mem_uc main_arg4 (by decide))).trans (W9_main_arg4 m ρ c),
      (h c _ (mem_uc main_arg5 (by decide))).trans (W9_main_arg5 m ρ c),
      (h c _ (mem_uc main_arg6 (by decide))).trans (W9_main_arg6 m ρ c),
      (h c _ (mem_uc main_arg7 (by decide))).trans (W9_main_arg7 m ρ c),
      (h c _ (mem_uc main_arg8 (by decide))).trans (W9_main_arg8 m ρ c),
      (h c _ (mem_uc main_arg9 (by decide))).trans (W9_main_arg9 m ρ c),
      (h c _ (mem_uc main_arg10 (by decide))).trans (W9_main_arg10 m ρ c),
      (h c _ (mem_uc main_arg11 (by decide))).trans (W9_main_arg11 m ρ c),
      (h c _ (mem_uc main_arg12 (by decide))).trans (W9_main_arg12 m ρ c)⟩) (run_all m ρ)

/-- The same run with the result named: the result buffer ends at the final contents `W9 m ρ c` of its reference. -/
theorem run_result : θ_run defs (onTc (τ := τ) (main (F := F))) ⟨m, fun _ => 0, ρ⟩ (fun r => ∀ c : Dev nD,
      r.2.mem ((c.tc : Thread nD τ).loc main_v84) = W9 m ρ c (Proc.devRef .tc main_v84)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun r h c => ⟨h c _ (mem_uc main_v84 (by decide)),
      (h c _ (mem_uc main_arg0 (by decide))).trans (W9_main_arg0 m ρ c),
      (h c _ (mem_uc main_arg1 (by decide))).trans (W9_main_arg1 m ρ c),
      (h c _ (mem_uc main_arg2 (by decide))).trans (W9_main_arg2 m ρ c),
      (h c _ (mem_uc main_arg3 (by decide))).trans (W9_main_arg3 m ρ c),
      (h c _ (mem_uc main_arg4 (by decide))).trans (W9_main_arg4 m ρ c),
      (h c _ (mem_uc main_arg5 (by decide))).trans (W9_main_arg5 m ρ c),
      (h c _ (mem_uc main_arg6 (by decide))).trans (W9_main_arg6 m ρ c),
      (h c _ (mem_uc main_arg7 (by decide))).trans (W9_main_arg7 m ρ c),
      (h c _ (mem_uc main_arg8 (by decide))).trans (W9_main_arg8 m ρ c),
      (h c _ (mem_uc main_arg9 (by decide))).trans (W9_main_arg9 m ρ c),
      (h c _ (mem_uc main_arg10 (by decide))).trans (W9_main_arg10 m ρ c),
      (h c _ (mem_uc main_arg11 (by decide))).trans (W9_main_arg11 m ρ c),
      (h c _ (mem_uc main_arg12 (by decide))).trans (W9_main_arg12 m ρ c)⟩) (run_all m ρ)

end Cert.Kernel.Hand

end
-- ==== Proof.KI.Fold.lean ====
/-
  The contents of a core's buffers at the boundaries of the host stretches that precede the first kernel region:
  each boundary's contents are the previous boundary's with one more stretch of host operations applied, starting
  from the memory the program is launched with. The last of them is what the first region finds on entry.
-/
import proofs.«158892_j50087908606273_2_alg».proof.Proof.Gen.KernelIdeal.Launch

noncomputable section

namespace Cert.KernelIdeal.Hand

open Cert.KernelIdeal Cert.KernelIdeal.Gen
open Idealize.ShloMosaic Idealize.ShloMosaic.TcCoe
open Idealize.SL Idealize.SL.Sem

variable {F : FTy → Type} [FloatOps F]
variable (m : (ℓ : Loc nD τ sig) → Buf (Elt F) ℓ) (ρ : Dev nD → PrngReg)

/-- Core c's buffers at launch. -/
abbrev W0 : Dev nD → Valuation τ sig (Elt F) := fun c b => (s₀ m ρ).mem ((c : Dev nD), b)
/-- After the first 93 host operations: the three quantized weights, the two transposed hidden weights, the stacked
    head weight and bias before padding. -/
abbrev W1 : Dev nD → Valuation τ sig (Elt F) := fun c => StableHlo.after hostOps0 (W0 m ρ c)
/-- After the stacked head weight is padded to 1152 rows. -/
abbrev W2 : Dev nD → Valuation τ sig (Elt F) := fun c => StableHlo.after hostOps0_1 (W1 m ρ c)
/-- After the second padding constant. -/
abbrev W3 : Dev nD → Valuation τ sig (Elt F) := fun c => StableHlo.after hostOps0_2 (W2 m ρ c)
/-- After the stacked head bias is padded to 1152 entries. -/
abbrev W4 : Dev nD → Valuation τ sig (Elt F) := fun c => StableHlo.after hostOps0_3 (W3 m ρ c)
/-- After the padded head weight is transposed and the three biases are laid out as rows: the first region's entry. -/
abbrev W5 : Dev nD → Valuation τ sig (Elt F) := fun c => StableHlo.after hostOps0_4 (W4 m ρ c)
/-- The same read at the TensorCore's references. -/
abbrev V5 : (c : Dev nD) → (b : Ref sig .tc) → Buf (Elt F) ((c : Thread nD τ).loc b) := fun c b => W5 m ρ c b

end Cert.KernelIdeal.Hand

end
-- ==== Proof.KI.Body0.lean ====
/-
  The first hidden layer's kernel: at each of its 32 grid points it reads a block of 256 rows of the input, the whole transposed weight and the bias row, and writes the 256 rows of max(x·w + b, 0).
  This module states what one grid point does to the four staging buffers: the three input buffers are left as they
  were, and the output buffer ends holding the one stored value, a function of the three input blocks alone. From that
  it builds the data the pipeline's launch rule asks for: which array each window stages, what each staging buffer
  holds after the body at each point, and the obligation that the body, started on the blocks the pipeline fetched,
  ends in that state. Everything is stated for an arbitrary contents V of the core's buffers at the moment the region
  is entered, and for an arbitrary interpretation of the floats.
-/
import proofs.«158892_j50087908606273_2_alg».proof.Proof.Gen.KernelIdeal.Launch
import proofs.«158892_j50087908606273_2_alg».proof.Proof.Gen.KernelIdeal.Skeleton
import proofs.«158892_j50087908606273_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at grid point t, cut out of the array the window stages, as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds the window's block at every point, whether the pipeline fetched it
    there or kept it from the point before (its block index has not moved), once the body leaves it in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- The body reads and writes each staging buffer whole. -/
abbrev r0_0 : Rect S256x2048 := Rect.unit (s := S256x2048) ![0, 0] S256x2048.size inb_S256x2048_S256x2048_0_0
abbrev r0_1 : Rect S2048x4096 := Rect.unit (s := S2048x4096) ![0, 0] S2048x4096.size inb_S2048x4096_S2048x4096_0_0
abbrev r0_2 : Rect S1x4096 := Rect.unit (s := S1x4096) ![0, 0] S1x4096.size inb_S1x4096_S1x4096_0_0
abbrev r0_3 : Rect S256x4096 := Rect.unit (s := S256x4096) ![0, 0] S256x4096.size inb_S256x4096_S256x4096_0_0

/-- What the output window's staging buffer holds after the body: its one store, of the stored value computed from
    the three input blocks. -/
def out0_3 (x0 : Vec F S256x2048 .f32) (x1 : Vec F S2048x4096 .bf16) (x2 : Vec F S1x4096 .f32) : Vec F S256x4096 .bf16 :=
  View.canon [⟨r0_3, k0_pay1 (View.ld x0 r0_0) (View.ld x1 r0_1) (View.ld x2 r0_2)⟩]

/-- The one store covers the whole buffer. -/
theorem cover0_3 (p0 : Vec F S256x4096 .bf16) (y : S256x4096.Idx) :
    ∃ pc ∈ ([⟨r0_3, p0⟩] : List (View.Piece (Elt F) S256x4096 .bf16)), y ∈ pc.1.set :=
  View.cover_of_tiled [⟨r0_3, p0⟩] S256x4096.size (by rfl) y

set_option maxHeartbeats 4000000 in
/-- The body on whole staging buffers, the three inputs at given contents and the output at anything, runs to the end
    leaving the inputs as they were and the output at `out0_3` of them. -/
theorem sound_kernel0 (c : Dev nD) (E : Set ℕ) (i : grid0.Coords)
    (arg1 : Memref sig .tc .vmem S256x2048 .f32) (harg1 : arg1.IsWhole) (arg2 : Memref sig .tc .vmem S2048x4096 .bf16) (harg2 : arg2.IsWhole)
    (arg3 : Memref sig .tc .vmem S1x4096 .f32) (harg3 : arg3.IsWhole) (arg4 : Memref sig .tc .vmem S256x4096 .bf16) (harg4 : arg4.IsWhole)
    (x0 : Vec F S256x2048 .f32) (x1 : Vec F S2048x4096 .bf16) (x2 : Vec F S1x4096 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1 x2)) -∗ K ⟨⟩))
      ⊢ wp frame (wpE (defs₀ (F := F)) Variants.none c none) E (cc0__mm_bias_relu_kernel i arg1 harg1 arg2 harg2 arg3 harg3 arg4 harg4) K := by
  simp only [cc0__mm_bias_relu_kernel_eq_skeleton]; unfold cc0__mm_bias_relu_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-- The pipeline's data on core c: each window stages the array the region finds; after the body at point t each input
    buffer holds its block and the output buffer `out0_3` of the three blocks; the invariant between points is the
    core's other scoped buffers and its generator register, untouched; nothing is owed; every share is whole. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-- What the body is called with at point t, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the input buffers hold their blocks, so `sound_kernel0` applies; the invariant and what the
    core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The launch rule's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.Body1.lean ====
/-
  The second hidden layer's kernel: at each of its 128 grid points it reads a block of 64 rows of the first layer's output, the whole transposed weight and the bias row, and writes the 64 rows of max(h·w + b, 0).
  This module states what one grid point does to the four staging buffers: the three input buffers are left as they
  were, and the output buffer ends holding the one stored value, a function of the three input blocks alone. From that
  it builds the data the pipeline's launch rule asks for: which array each window stages, what each staging buffer
  holds after the body at each point, and the obligation that the body, started on the blocks the pipeline fetched,
  ends in that state. Everything is stated for an arbitrary contents V of the core's buffers at the moment the region
  is entered, and for an arbitrary interpretation of the floats.
-/
import proofs.«158892_j50087908606273_2_alg».proof.Proof.Gen.KernelIdeal.Launch
import proofs.«158892_j50087908606273_2_alg».proof.Proof.Gen.KernelIdeal.Skeleton
import proofs.«158892_j50087908606273_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at grid point t, cut out of the array the window stages, as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds the window's block at every point, whether the pipeline fetched it
    there or kept it from the point before (its block index has not moved), once the body leaves it in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- The body reads and writes each staging buffer whole. -/
abbrev r1_0 : Rect S64x4096 := Rect.unit (s := S64x4096) ![0, 0] S64x4096.size inb_S64x4096_S64x4096_0_0
abbrev r1_1 : Rect S4096x4096 := Rect.unit (s := S4096x4096) ![0, 0] S4096x4096.size inb_S4096x4096_S4096x4096_0_0
abbrev r1_2 : Rect S1x4096 := Rect.unit (s := S1x4096) ![0, 0] S1x4096.size inb_S1x4096_S1x4096_0_0
abbrev r1_3 : Rect S64x4096 := Rect.unit (s := S64x4096) ![0, 0] S64x4096.size inb_S64x4096_S64x4096_0_0

/-- What the output window's staging buffer holds after the body: its one store, of the stored value computed from
    the three input blocks. -/
def out1_3 (x0 : Vec F S64x4096 .bf16) (x1 : Vec F S4096x4096 .bf16) (x2 : Vec F S1x4096 .f32) : Vec F S64x4096 .bf16 :=
  View.canon [⟨r1_3, k1_pay1 (View.ld x0 r1_0) (View.ld x1 r1_1) (View.ld x2 r1_2)⟩]

/-- The one store covers the whole buffer. -/
theorem cover1_3 (p0 : Vec F S64x4096 .bf16) (y : S64x4096.Idx) :
    ∃ pc ∈ ([⟨r1_3, p0⟩] : List (View.Piece (Elt F) S64x4096 .bf16)), y ∈ pc.1.set :=
  View.cover_of_tiled [⟨r1_3, p0⟩] S64x4096.size (by rfl) y

set_option maxHeartbeats 4000000 in
/-- The body on whole staging buffers, the three inputs at given contents and the output at anything, runs to the end
    leaving the inputs as they were and the output at `out1_3` of them. -/
theorem sound_kernel1 (c : Dev nD) (E : Set ℕ) (i : grid1.Coords)
    (arg1 : Memref sig .tc .vmem S64x4096 .bf16) (harg1 : arg1.IsWhole) (arg2 : Memref sig .tc .vmem S4096x4096 .bf16) (harg2 : arg2.IsWhole)
    (arg3 : Memref sig .tc .vmem S1x4096 .f32) (harg3 : arg3.IsWhole) (arg4 : Memref sig .tc .vmem S64x4096 .bf16) (harg4 : arg4.IsWhole)
    (x0 : Vec F S64x4096 .bf16) (x1 : Vec F S4096x4096 .bf16) (x2 : Vec F S1x4096 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out1_3 x0 x1 x2)) -∗ K ⟨⟩))
      ⊢ wp frame (wpE (defs₀ (F := F)) Variants.none c none) E (cc1__mm_bias_relu_kernel i arg1 harg1 arg2 harg2 arg3 harg3 arg4 harg4) K := by
  simp only [cc1__mm_bias_relu_kernel_eq_skeleton]; unfold cc1__mm_bias_relu_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-- The pipeline's data on core c: each window stages the array the region finds; after the body at point t each input
    buffer holds its block and the output buffer `out1_3` of the three blocks; the invariant between points is the
    core's other scoped buffers and its generator register, untouched; nothing is owed; every share is whole. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = out1_3 (iblk1 V c 0 t) (iblk1 V c 1 t) (iblk1 V c 2 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-- What the body is called with at point t, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the input buffers hold their blocks, so `sound_kernel1` applies; the invariant and what the
    core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The launch rule's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KI.Body2.lean ====
/-
  The head kernel: at each of its 16 grid points it reads a block of 512 rows of the second layer's output, the whole transposed stacked head weight and the stacked bias row, and writes the 512 rows of h·w + b with column 1043 passed through the logistic function.
  This module states what one grid point does to the four staging buffers: the three input buffers are left as they
  were, and the output buffer ends holding the one stored value, a function of the three input blocks alone. From that
  it builds the data the pipeline's launch rule asks for: which array each window stages, what each staging buffer
  holds after the body at each point, and the obligation that the body, started on the blocks the pipeline fetched,
  ends in that state. Everything is stated for an arbitrary contents V of the core's buffers at the moment the region
  is entered, and for an arbitrary interpretation of the floats.
-/
import proofs.«158892_j50087908606273_2_alg».proof.Proof.Gen.KernelIdeal.Launch
import proofs.«158892_j50087908606273_2_alg».proof.Proof.Gen.KernelIdeal.Skeleton
import proofs.«158892_j50087908606273_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at grid point t, cut out of the array the window stages, as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's current staging buffer holds the window's block at every point, whether the pipeline fetched it
    there or kept it from the point before (its block index has not moved), once the body leaves it in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- The body reads and writes each staging buffer whole. -/
abbrev r2_0 : Rect S512x4096 := Rect.unit (s := S512x4096) ![0, 0] S512x4096.size inb_S512x4096_S512x4096_0_0
abbrev r2_1 : Rect S4096x1152 := Rect.unit (s := S4096x1152) ![0, 0] S4096x1152.size inb_S4096x1152_S4096x1152_0_0
abbrev r2_2 : Rect S1x1152 := Rect.unit (s := S1x1152) ![0, 0] S1x1152.size inb_S1x1152_S1x1152_0_0
abbrev r2_3 : Rect S512x1152 := Rect.unit (s := S512x1152) ![0, 0] S512x1152.size inb_S512x1152_S512x1152_0_0

/-- What the output window's staging buffer holds after the body: its one store, of the stored value computed from
    the three input blocks. -/
def out2_3 (x0 : Vec F S512x4096 .bf16) (x1 : Vec F S4096x1152 .bf16) (x2 : Vec F S1x1152 .f32) : Vec F S512x1152 .f32 :=
  View.canon [⟨r2_3, k2_pay1 (View.ld x0 r2_0) (View.ld x1 r2_1) (View.ld x2 r2_2)⟩]

/-- The one store covers the whole buffer. -/
theorem cover2_3 (p0 : Vec F S512x1152 .f32) (y : S512x1152.Idx) :
    ∃ pc ∈ ([⟨r2_3, p0⟩] : List (View.Piece (Elt F) S512x1152 .f32)), y ∈ pc.1.set :=
  View.cover_of_tiled [⟨r2_3, p0⟩] S512x1152.size (by rfl) y

set_option maxHeartbeats 4000000 in
/-- The body on whole staging buffers, the three inputs at given contents and the output at anything, runs to the end
    leaving the inputs as they were and the output at `out2_3` of them. -/
theorem sound_kernel2 (c : Dev nD) (E : Set ℕ) (i : grid2.Coords)
    (arg1 : Memref sig .tc .vmem S512x4096 .bf16) (harg1 : arg1.IsWhole) (arg2 : Memref sig .tc .vmem S4096x1152 .bf16) (harg2 : arg2.IsWhole)
    (arg3 : Memref sig .tc .vmem S1x1152 .f32) (harg3 : arg3.IsWhole) (arg4 : Memref sig .tc .vmem S512x1152 .f32) (harg4 : arg4.IsWhole)
    (x0 : Vec F S512x4096 .bf16) (x1 : Vec F S4096x1152 .bf16) (x2 : Vec F S1x1152 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out2_3 x0 x1 x2)) -∗ K ⟨⟩))
      ⊢ wp frame (wpE (defs₀ (F := F)) Variants.none c none) E (cc2__mm_bias_head_kernel i arg1 harg1 arg2 harg2 arg3 harg3 arg4 harg4) K := by
  simp only [cc2__mm_bias_head_kernel_eq_skeleton]; unfold cc2__mm_bias_head_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover2_3 _)

/-- The pipeline's data on core c: each window stages the array the region finds; after the body at point t each input
    buffer holds its block and the output buffer `out2_3` of the three blocks; the invariant between points is the
    core's other scoped buffers and its generator register, untouched; nothing is owed; every share is whole. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) :
    (dat2 V c).after 3 t = out2_3 (iblk2 V c 0 t) (iblk2 V c 1 t) (iblk2 V c 2 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-- What the body is called with at point t, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

/-- The body at any point: the input buffers hold their blocks, so `sound_kernel2` applies; the invariant and what the
    core owes pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ _ _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The launch rule's body obligation, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.KI.Run.lean ====
/-
  The whole program as a list of nine segments — five stretches of host operations, the three kernel regions, and
  the final slice — and its run: from any launch memory every weakly fair execution ends, faulting nowhere, with every
  unscoped buffer of each core at contents this module NAMES. The contents at a boundary are the previous boundary's
  with a stretch of host operations applied, or, across a region, with the region's four arrays replaced by what the
  pipeline's write-backs leave and every other buffer kept.
-/
import proofs.«158892_j50087908606273_2_alg».proof.Proof.KI.Fold
import proofs.«158892_j50087908606273_2_alg».proof.Proof.KI.Body0
import proofs.«158892_j50087908606273_2_alg».proof.Proof.KI.Body1
import proofs.«158892_j50087908606273_2_alg».proof.Proof.KI.Body2

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- When region 0 ends: its four arrays at what the pipeline leaves (the three inputs as entered, the output's
    write-backs folded over the grid), every other buffer as entered. -/
def W6 (c : Dev nD) : Valuation τ sig (Elt F) :=
  Pipeline.withArrays spec0 c (W5 m ρ c) fun w => (dat0 (V5 m ρ) c).arrAt w cfg0.N
theorem W6_arr (c : Dev nD) (w : Fin cfg0.W) :
    W6 m ρ c (Proc.devRef .tc (Pipeline.arrRef spec0 w)) = (dat0 (V5 m ρ) c).arrAt w cfg0.N := by
  unfold W6; exact Pipeline.withArrays_arr spec0 launch0.win.arr_inj c _ _ w
theorem W6_of_ne (c : Dev nD) (b : Ref sig .tc) (hb : ∀ w, Pipeline.arrRef spec0 w ≠ b) :
    W6 m ρ c (Proc.devRef .tc b) = W5 m ρ c (Proc.devRef .tc b) := by
  unfold W6; exact Pipeline.withArrays_of_ne spec0 c _ _ b hb
/-- The same read at the TensorCore's references. -/
abbrev V6 : (c : Dev nD) → (b : Ref sig .tc) → Buf (Elt F) ((c : Thread nD τ).loc b) := fun c b => W6 m ρ c b
theorem hF0 (c : Dev nD) (w : Fin cfg0.W) : (dat0 (V5 m ρ) c).arrAt w cfg0.N = V6 m ρ c (Pipeline.arrRef spec0 w) :=
  (W6_arr m ρ c w).symm
theorem hrest0 (c : Dev nD) : ∀ b, b ∉ Finset.univ.image (Pipeline.arrRef spec0) → V6 m ρ c b = V5 m ρ c b :=
  fun b hb => W6_of_ne m ρ c b fun w e => hb (Finset.mem_image.mpr ⟨w, Finset.mem_univ _, e⟩)

/-- When region 1 ends: its four arrays at what the pipeline leaves (the three inputs as entered, the output's
    write-backs folded over the grid), every other buffer as entered. -/
def W7 (c : Dev nD) : Valuation τ sig (Elt F) :=
  Pipeline.withArrays spec1 c (W6 m ρ c) fun w => (dat1 (V6 m ρ) c).arrAt w cfg1.N
theorem W7_arr (c : Dev nD) (w : Fin cfg1.W) :
    W7 m ρ c (Proc.devRef .tc (Pipeline.arrRef spec1 w)) = (dat1 (V6 m ρ) c).arrAt w cfg1.N := by
  unfold W7; exact Pipeline.withArrays_arr spec1 launch1.win.arr_inj c _ _ w
theorem W7_of_ne (c : Dev nD) (b : Ref sig .tc) (hb : ∀ w, Pipeline.arrRef spec1 w ≠ b) :
    W7 m ρ c (Proc.devRef .tc b) = W6 m ρ c (Proc.devRef .tc b) := by
  unfold W7; exact Pipeline.withArrays_of_ne spec1 c _ _ b hb
/-- The same read at the TensorCore's references. -/
abbrev V7 : (c : Dev nD) → (b : Ref sig .tc) → Buf (Elt F) ((c : Thread nD τ).loc b) := fun c b => W7 m ρ c b
theorem hF1 (c : Dev nD) (w : Fin cfg1.W) : (dat1 (V6 m ρ) c).arrAt w cfg1.N = V7 m ρ c (Pipeline.arrRef spec1 w) :=
  (W7_arr m ρ c w).symm
theorem hrest1 (c : Dev nD) : ∀ b, b ∉ Finset.univ.image (Pipeline.arrRef spec1) → V7 m ρ c b = V6 m ρ c b :=
  fun b hb => W7_of_ne m ρ c b fun w e => hb (Finset.mem_image.mpr ⟨w, Finset.mem_univ _, e⟩)

/-- When region 2 ends: its four arrays at what the pipeline leaves (the three inputs as entered, the output's
    write-backs folded over the grid), every other buffer as entered. -/
def W8 (c : Dev nD) : Valuation τ sig (Elt F) :=
  Pipeline.withArrays spec2 c (W7 m ρ c) fun w => (dat2 (V7 m ρ) c).arrAt w cfg2.N
theorem W8_arr (c : Dev nD) (w : Fin cfg2.W) :
    W8 m ρ c (Proc.devRef .tc (Pipeline.arrRef spec2 w)) = (dat2 (V7 m ρ) c).arrAt w cfg2.N := by
  unfold W8; exact Pipeline.withArrays_arr spec2 launch2.win.arr_inj c _ _ w
theorem W8_of_ne (c : Dev nD) (b : Ref sig .tc) (hb : ∀ w, Pipeline.arrRef spec2 w ≠ b) :
    W8 m ρ c (Proc.devRef .tc b) = W7 m ρ c (Proc.devRef .tc b) := by
  unfold W8; exact Pipeline.withArrays_of_ne spec2 c _ _ b hb
/-- The same read at the TensorCore's references. -/
abbrev V8 : (c : Dev nD) → (b : Ref sig .tc) → Buf (Elt F) ((c : Thread nD τ).loc b) := fun c b => W8 m ρ c b
theorem hF2 (c : Dev nD) (w : Fin cfg2.W) : (dat2 (V7 m ρ) c).arrAt w cfg2.N = V8 m ρ c (Pipeline.arrRef spec2 w) :=
  (W8_arr m ρ c w).symm
theorem hrest2 (c : Dev nD) : ∀ b, b ∉ Finset.univ.image (Pipeline.arrRef spec2) → V8 m ρ c b = V7 m ρ c b :=
  fun b hb => W8_of_ne m ρ c b fun w e => hb (Finset.mem_image.mpr ⟨w, Finset.mem_univ _, e⟩)

/-- After the final slice: what the program returns. -/
abbrev W9 : Dev nD → Valuation τ sig (Elt F) := fun c => StableHlo.after hostOps3 (W8 m ρ c)

/-! ## The pipelines' data and the thread state between segments -/

/-- No pipeline has a prefetched table. -/
abbrev adm : (p : Fin 3) → (pcfgs (F := F) p).Adm := fun p => (cfgs p).toPCfg_adm
/-- Every pipeline's data, each at the contents its region is entered with. -/
def pdats : (p : Fin 3) → (c : Dev nD) → Dat τ (Elt F) Unit ℕ (UR sig nD τ) ℕ (Pipeline.pin (pcfgs (F := F)) adm p) c
  | ⟨0, _⟩ => fun c => dat0 (V5 m ρ) c
  | ⟨1, _⟩ => fun c => dat1 (V6 m ρ) c
  | ⟨2, _⟩ => fun c => dat2 (V7 m ρ) c
abbrev 𝒱₀ : Variants := Variants.none
/-- No core owes another anything. -/
abbrev L : GSem nD τ sig → Finset Unit := fun _ => ∅
abbrev lv : GSem nD τ sig → Unit → ℕ := fun _ _ => 0
/-- What rides beside the buffers through every segment: the core's generator register at some state, and that it
    owes nothing. -/
abbrev R (c : Dev nD) : sProp 𝕄 := iprop((∃ r, prngReg c r) ∗ ∃ W, owes (c : Thread nD τ) (0 : CellTallies nD τ sig Unit) W)
/-- A stretch of host operations as a segment over the unscoped buffers, from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- No host operation allocates a buffer. -/
theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps3_fresh : (hostOps3 : List (HloOp τ sig (Elt F))).Forall fun op => op.fresh = ∅ := by
  simp only [List.Forall]; repeat' constructor
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without what the core owes: every unscoped buffer at the final contents, the generator
    register at some state. -/
abbrev Tₙ (c : Dev nD) : sProp 𝕄 := iprop(StableHlo.held (c : Thread nD τ) (Pipeline.ucRefs τ sig) (W9 m ρ c) ∗ ∃ r, prngReg c r)

/-! ## The regions as segments -/

set_option backward.isDefEq.respectTransparency.types false in
/-- Region 0 as a segment: entered with every unscoped buffer at `W5`, left with them at `W6`. Its four arrays
    are split out of the unscoped buffers on entry and put back, at what the pipeline's write-backs leave, on exit; the
    generator register goes into the pipeline's invariant and comes back; nothing is owed; the kernel has no semaphore of
    its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V5 m ρ) c).loose
  hwaits := Pipeline.hwaits_of_owed_zero _ _ _ _ L lv 0 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec0 c (V5 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V5 m ρ c) (V6 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 as a segment: entered with every unscoped buffer at `W6`, left with them at `W7`. Its four arrays
    are split out of the unscoped buffers on entry and put back, at what the pipeline's write-backs leave, on exit; the
    generator register goes into the pipeline's invariant and comes back; nothing is owed; the kernel has no semaphore of
    its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V6 m ρ) c).loose
  hwaits := Pipeline.hwaits_of_owed_zero _ _ _ _ L lv 1 fun _ _ => rfl
  pre c := iprop(StableHlo.held (c : Thread nD τ) (Pipeline.ucRefs τ sig) (W6 m ρ c) ∗ R c)
  post c := iprop(StableHlo.held (c : Thread nD τ) (Pipeline.ucRefs τ sig) (W7 m ρ c) ∗ R c)
  X c := iprop(∃ r, prngReg c r)
  Y c := iprop(∃ r, prngReg c r)
  Z c := Pipeline.unscopedRest (Ix := Unit) (Name := ℕ) (U := UR sig nD τ) (Lvl := ℕ) spec1 c (V6 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V6 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V6 m ρ c) (V7 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 as a segment: entered with every unscoped buffer at `W7`, left with them at `W8`. Its four arrays
    are split out of the unscoped buffers on entry and put back, at what the pipeline's write-backs leave, on exit; the
    generator register goes into the pipeline's invariant and comes back; nothing is owed; the kernel has no semaphore of
    its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V7 m ρ) c).loose
  hwaits := Pipeline.hwaits_of_owed_zero _ _ _ _ L lv 2 fun _ _ => rfl
  pre c := iprop(StableHlo.held (c : Thread nD τ) (Pipeline.ucRefs τ sig) (W7 m ρ c) ∗ R c)
  post c := iprop(StableHlo.held (c : Thread nD τ) (Pipeline.ucRefs τ sig) (W8 m ρ c) ∗ R c)
  X c := iprop(∃ r, prngReg c r)
  Y c := iprop(∃ r, prngReg c r)
  Z c := Pipeline.unscopedRest (Ix := Unit) (Name := ℕ) (U := UR sig nD τ) (Lvl := ℕ) spec2 c (V7 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V7 m ρ c) (V8 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments, and the launch -/

/-- The nine segments in order. -/
abbrev segs : List (Pipeline.Seg (pcfgs (F := F)) adm (pdats m ρ) () defs₀ 𝒱₀ L lv) :=
  [ .host (hseg hostOps0 hostOps0_sub hostOps0_fresh (W0 m ρ)),
    .host (hseg hostOps0_1 hostOps0_1_sub hostOps0_1_fresh (W1 m ρ)),
    .host (hseg hostOps0_2 hostOps0_2_sub hostOps0_2_fresh (W2 m ρ)),
    .host (hseg hostOps0_3 hostOps0_3_sub hostOps0_3_fresh (W3 m ρ)),
    .host (hseg hostOps0_4 hostOps0_4_sub hostOps0_4_fresh (W4 m ρ)),
    .region (reg0 m ρ),
    .region (reg1 m ρ),
    .region (reg2 m ρ),
    .host (hseg hostOps3 hostOps3_sub hostOps3_fresh (W8 m ρ)) ]
/-- The program IS the run of the segments. -/
theorem main_run (c : Dev nD) : main (F := F) c = Pipeline.Seg.run (segs m ρ) := (main_chain c).trans (by chain_rfl)

set_option backward.isDefEq.respectTransparency.types false in
set_option maxHeartbeats 4000000 in
/-- THE RUN: from any launch memory with zero counters, every weakly fair execution of the program on the TensorCores
    terminates, nothing faulting, and in every final state every unscoped buffer of core c holds `W9 m ρ c`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W9 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl,
      fun _ => .rfl, fun c => by
        show iprop(StableHlo.held (c : Thread nD τ) (Pipeline.ucRefs τ sig) (W9 m ρ c)
            ∗ ((∃ r, prngReg c r) ∗ ∃ W, owes (c : Thread nD τ) (0 : CellTallies nD τ sig Unit) W))
          ⊢ iprop((StableHlo.held (c : Thread nD τ) (Pipeline.ucRefs τ sig) (W9 m ρ c) ∗ ∃ r, prngReg c r)
            ∗ ∃ W, owes (c : Thread nD τ) (0 : CellTallies nD τ sig Unit) W)
        iintro ⟨Hh, Hp, HO⟩
        isplitr [HO]
        · isplitl [Hh]; · iexact Hh
          iexact Hp
        iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h c => h c)

end Cert.KernelIdeal.Hand

end
-- ==== Proof.KI.Args.lean ====
/-
  Every argument array ends as it was launched: no host operation writes an argument's buffer, the second and third
  regions do not touch one, and the first region only reads the input array through a window, so walking the final
  contents back through the nine segments reaches the launch memory.
-/
import proofs.«158892_j50087908606273_2_alg».proof.Proof.KI.Run

set_option maxRecDepth 16384

noncomputable section

namespace Cert.KernelIdeal.Hand

open Cert.KernelIdeal Cert.KernelIdeal.Gen
open Idealize.ShloMosaic Idealize.ShloMosaic.TcCoe
open Idealize.SL Idealize.SL.Sem
open Idealize.ShloMosaic.Pipeline (Dat)

variable {F : FTy → Type} [FloatOps F]
variable (m : (ℓ : Loc nD τ sig) → Buf (Elt F) ℓ) (ρ : Dev nD → PrngReg)

/-- A buffer that no operation of a stretch writes holds after the stretch what it held before. -/
local macro "kept_through " ops:ident : tactic => `(tactic| (
  refine StableHlo.after_of_forall_not_mem _ _ (List.forall_iff_forall_mem.mp ?_)
  simp only [$ops:ident, List.Forall, StableHlo.nullary_writes, StableHlo.unary_writes, StableHlo.binary_writes,
    StableHlo.reshape_writes, StableHlo.nary_writes, Finset.mem_singleton]
  repeat' apply And.intro
  all_goals exact StableHlo.devRef_ne_of_ne (by decide)))

theorem W9_main_arg0 (c : Dev nD) : W9 m ρ c (Proc.devRef .tc main_arg0) = m ((c : Thread nD τ).loc main_arg0) :=
  calc W9 m ρ c (Proc.devRef .tc main_arg0)
    _ = W8 m ρ c (Proc.devRef .tc main_arg0) := by kept_through hostOps3
    _ = W7 m ρ c (Proc.devRef .tc main_arg0) := W8_of_ne m ρ c main_arg0 (by decide)
    _ = W6 m ρ c (Proc.devRef .tc main_arg0) := W7_of_ne m ρ c main_arg0 (by decide)
    _ = W5 m ρ c (Proc.devRef .tc main_arg0) := (W6_arr m ρ c 0).trans (((dat0 (V5 m ρ) c).arrAt_in 0 rfl _).trans (A_eq0 (V5 m ρ) c 0))
    _ = W4 m ρ c (Proc.devRef .tc main_arg0) := by kept_through hostOps0_4
    _ = W3 m ρ c (Proc.devRef .tc main_arg0) := by kept_through hostOps0_3
    _ = W2 m ρ c (Proc.devRef .tc main_arg0) := by kept_through hostOps0_2
    _ = W1 m ρ c (Proc.devRef .tc main_arg0) := by kept_through hostOps0_1
    _ = W0 m ρ c (Proc.devRef .tc main_arg0) := by kept_through hostOps0
    _ = m ((c : Thread nD τ).loc main_arg0) := rfl

theorem W9_main_arg1 (c : Dev nD) : W9 m ρ c (Proc.devRef .tc main_arg1) = m ((c : Thread nD τ).loc main_arg1) :=
  calc W9 m ρ c (Proc.devRef .tc main_arg1)
    _ = W8 m ρ c (Proc.devRef .tc main_arg1) := by kept_through hostOps3
    _ = W7 m ρ c (Proc.devRef .tc main_arg1) := W8_of_ne m ρ c main_arg1 (by decide)
    _ = W6 m ρ c (Proc.devRef .tc main_arg1) := W7_of_ne m ρ c main_arg1 (by decide)
    _ = W5 m ρ c (Proc.devRef .tc main_arg1) := W6_of_ne m ρ c main_arg1 (by decide)
    _ = W4 m ρ c (Proc.devRef .tc main_arg1) := by kept_through hostOps0_4
    _ = W3 m ρ c (Proc.devRef .tc main_arg1) := by kept_through hostOps0_3
    _ = W2 m ρ c (Proc.devRef .tc main_arg1) := by kept_through hostOps0_2
    _ = W1 m ρ c (Proc.devRef .tc main_arg1) := by kept_through hostOps0_1
    _ = W0 m ρ c (Proc.devRef .tc main_arg1) := by kept_through hostOps0
    _ = m ((c : Thread nD τ).loc main_arg1) := rfl

theorem W9_main_arg2 (c : Dev nD) : W9 m ρ c (Proc.devRef .tc main_arg2) = m ((c : Thread nD τ).loc main_arg2) :=
  calc W9 m ρ c (Proc.devRef .tc main_arg2)
    _ = W8 m ρ c (Proc.devRef .tc main_arg2) := by kept_through hostOps3
    _ = W7 m ρ c (Proc.devRef .tc main_arg2) := W8_of_ne m ρ c main_arg2 (by decide)
    _ = W6 m ρ c (Proc.devRef .tc main_arg2) := W7_of_ne m ρ c main_arg2 (by decide)
    _ = W5 m ρ c (Proc.devRef .tc main_arg2) := W6_of_ne m ρ c main_arg2 (by decide)
    _ = W4 m ρ c (Proc.devRef .tc main_arg2) := by kept_through hostOps0_4
    _ = W3 m ρ c (Proc.devRef .tc main_arg2) := by kept_through hostOps0_3
    _ = W2 m ρ c (Proc.devRef .tc main_arg2) := by kept_through hostOps0_2
    _ = W1 m ρ c (Proc.devRef .tc main_arg2) := by kept_through hostOps0_1
    _ = W0 m ρ c (Proc.devRef .tc main_arg2) := by kept_through hostOps0
    _ = m ((c : Thread nD τ).loc main_arg2) := rfl

theorem W9_main_arg3 (c : Dev nD) : W9 m ρ c (Proc.devRef .tc main_arg3) = m ((c : Thread nD τ).loc main_arg3) :=
  calc W9 m ρ c (Proc.devRef .tc main_arg3)
    _ = W8 m ρ c (Proc.devRef .tc main_arg3) := by kept_through hostOps3
    _ = W7 m ρ c (Proc.devRef .tc main_arg3) := W8_of_ne m ρ c main_arg3 (by decide)
    _ = W6 m ρ c (Proc.devRef .tc main_arg3) := W7_of_ne m ρ c main_arg3 (by decide)
    _ = W5 m ρ c (Proc.devRef .tc main_arg3) := W6_of_ne m ρ c main_arg3 (by decide)
    _ = W4 m ρ c (Proc.devRef .tc main_arg3) := by kept_through hostOps0_4
    _ = W3 m ρ c (Proc.devRef .tc main_arg3) := by kept_through hostOps0_3
    _ = W2 m ρ c (Proc.devRef .tc main_arg3) := by kept_through hostOps0_2
    _ = W1 m ρ c (Proc.devRef .tc main_arg3) := by kept_through hostOps0_1
    _ = W0 m ρ c (Proc.devRef .tc main_arg3) := by kept_through hostOps0
    _ = m ((c : Thread nD τ).loc main_arg3) := rfl

theorem W9_main_arg4 (c : Dev nD) : W9 m ρ c (Proc.devRef .tc main_arg4) = m ((c : Thread nD τ).loc main_arg4) :=
  calc W9 m ρ c (Proc.devRef .tc main_arg4)
    _ = W8 m ρ c (Proc.devRef .tc main_arg4) := by kept_through hostOps3
    _ = W7 m ρ c (Proc.devRef .tc main_arg4) := W8_of_ne m ρ c main_arg4 (by decide)
    _ = W6 m ρ c (Proc.devRef .tc main_arg4) := W7_of_ne m ρ c main_arg4 (by decide)
    _ = W5 m ρ c (Proc.devRef .tc main_arg4) := W6_of_ne m ρ c main_arg4 (by decide)
    _ = W4 m ρ c (Proc.devRef .tc main_arg4) := by kept_through hostOps0_4
    _ = W3 m ρ c (Proc.devRef .tc main_arg4) := by kept_through hostOps0_3
    _ = W2 m ρ c (Proc.devRef .tc main_arg4) := by kept_through hostOps0_2
    _ = W1 m ρ c (Proc.devRef .tc main_arg4) := by kept_through hostOps0_1
    _ = W0 m ρ c (Proc.devRef .tc main_arg4) := by kept_through hostOps0
    _ = m ((c : Thread nD τ).loc main_arg4) := rfl

theorem W9_main_arg5 (c : Dev nD) : W9 m ρ c (Proc.devRef .tc main_arg5) = m ((c : Thread nD τ).loc main_arg5) :=
  calc W9 m ρ c (Proc.devRef .tc main_arg5)
    _ = W8 m ρ c (Proc.devRef .tc main_arg5) := by kept_through hostOps3
    _ = W7 m ρ c (Proc.devRef .tc main_arg5) := W8_of_ne m ρ c main_arg5 (by decide)
    _ = W6 m ρ c (Proc.devRef .tc main_arg5) := W7_of_ne m ρ c main_arg5 (by decide)
    _ = W5 m ρ c (Proc.devRef .tc main_arg5) := W6_of_ne m ρ c main_arg5 (by decide)
    _ = W4 m ρ c (Proc.devRef .tc main_arg5) := by kept_through hostOps0_4
    _ = W3 m ρ c (Proc.devRef .tc main_arg5) := by kept_through hostOps0_3
    _ = W2 m ρ c (Proc.devRef .tc main_arg5) := by kept_through hostOps0_2
    _ = W1 m ρ c (Proc.devRef .tc main_arg5) := by kept_through hostOps0_1
    _ = W0 m ρ c (Proc.devRef .tc main_arg5) := by kept_through hostOps0
    _ = m ((c : Thread nD τ).loc main_arg5) := rfl

theorem W9_main_arg6 (c : Dev nD) : W9 m ρ c (Proc.devRef .tc main_arg6) = m ((c : Thread nD τ).loc main_arg6) :=
  calc W9 m ρ c (Proc.devRef .tc main_arg6)
    _ = W8 m ρ c (Proc.devRef .tc main_arg6) := by kept_through hostOps3
    _ = W7 m ρ c (Proc.devRef .tc main_arg6) := W8_of_ne m ρ c main_arg6 (by decide)
    _ = W6 m ρ c (Proc.devRef .tc main_arg6) := W7_of_ne m ρ c main_arg6 (by decide)
    _ = W5 m ρ c (Proc.devRef .tc main_arg6) := W6_of_ne m ρ c main_arg6 (by decide)
    _ = W4 m ρ c (Proc.devRef .tc main_arg6) := by kept_through hostOps0_4
    _ = W3 m ρ c (Proc.devRef .tc main_arg6) := by kept_through hostOps0_3
    _ = W2 m ρ c (Proc.devRef .tc main_arg6) := by kept_through hostOps0_2
    _ = W1 m ρ c (Proc.devRef .tc main_arg6) := by kept_through hostOps0_1
    _ = W0 m ρ c (Proc.devRef .tc main_arg6) := by kept_through hostOps0
    _ = m ((c : Thread nD τ).loc main_arg6) := rfl

theorem W9_main_arg7 (c : Dev nD) : W9 m ρ c (Proc.devRef .tc main_arg7) = m ((c : Thread nD τ).loc main_arg7) :=
  calc W9 m ρ c (Proc.devRef .tc main_arg7)
    _ = W8 m ρ c (Proc.devRef .tc main_arg7) := by kept_through hostOps3
    _ = W7 m ρ c (Proc.devRef .tc main_arg7) := W8_of_ne m ρ c main_arg7 (by decide)
    _ = W6 m ρ c (Proc.devRef .tc main_arg7) := W7_of_ne m ρ c main_arg7 (by decide)
    _ = W5 m ρ c (Proc.devRef .tc main_arg7) := W6_of_ne m ρ c main_arg7 (by decide)
    _ = W4 m ρ c (Proc.devRef .tc main_arg7) := by kept_through hostOps0_4
    _ = W3 m ρ c (Proc.devRef .tc main_arg7) := by kept_through hostOps0_3
    _ = W2 m ρ c (Proc.devRef .tc main_arg7) := by kept_through hostOps0_2
    _ = W1 m ρ c (Proc.devRef .tc main_arg7) := by kept_through hostOps0_1
    _ = W0 m ρ c (Proc.devRef .tc main_arg7) := by kept_through hostOps0
    _ = m ((c : Thread nD τ).loc main_arg7) := rfl

theorem W9_main_arg8 (c : Dev nD) : W9 m ρ c (Proc.devRef .tc main_arg8) = m ((c : Thread nD τ).loc main_arg8) :=
  calc W9 m ρ c (Proc.devRef .tc main_arg8)
    _ = W8 m ρ c (Proc.devRef .tc main_arg8) := by kept_through hostOps3
    _ = W7 m ρ c (Proc.devRef .tc main_arg8) := W8_of_ne m ρ c main_arg8 (by decide)
    _ = W6 m ρ c (Proc.devRef .tc main_arg8) := W7_of_ne m ρ c main_arg8 (by decide)
    _ = W5 m ρ c (Proc.devRef .tc main_arg8) := W6_of_ne m ρ c main_arg8 (by decide)
    _ = W4 m ρ c (Proc.devRef .tc main_arg8) := by kept_through hostOps0_4
    _ = W3 m ρ c (Proc.devRef .tc main_arg8) := by kept_through hostOps0_3
    _ = W2 m ρ c (Proc.devRef .tc main_arg8) := by kept_through hostOps0_2
    _ = W1 m ρ c (Proc.devRef .tc main_arg8) := by kept_through hostOps0_1
    _ = W0 m ρ c (Proc.devRef .tc main_arg8) := by kept_through hostOps0
    _ = m ((c : Thread nD τ).loc main_arg8) := rfl

theorem W9_main_arg9 (c : Dev nD) : W9 m ρ c (Proc.devRef .tc main_arg9) = m ((c : Thread nD τ).loc main_arg9) :=
  calc W9 m ρ c (Proc.devRef .tc main_arg9)
    _ = W8 m ρ c (Proc.devRef .tc main_arg9) := by kept_through hostOps3
    _ = W7 m ρ c (Proc.devRef .tc main_arg9) := W8_of_ne m ρ c main_arg9 (by decide)
    _ = W6 m ρ c (Proc.devRef .tc main_arg9) := W7_of_ne m ρ c main_arg9 (by decide)
    _ = W5 m ρ c (Proc.devRef .tc main_arg9) := W6_of_ne m ρ c main_arg9 (by decide)
    _ = W4 m ρ c (Proc.devRef .tc main_arg9) := by kept_through hostOps0_4
    _ = W3 m ρ c (Proc.devRef .tc main_arg9) := by kept_through hostOps0_3
    _ = W2 m ρ c (Proc.devRef .tc main_arg9) := by kept_through hostOps0_2
    _ = W1 m ρ c (Proc.devRef .tc main_arg9) := by kept_through hostOps0_1
    _ = W0 m ρ c (Proc.devRef .tc main_arg9) := by kept_through hostOps0
    _ = m ((c : Thread nD τ).loc main_arg9) := rfl

theorem W9_main_arg10 (c : Dev nD) : W9 m ρ c (Proc.devRef .tc main_arg10) = m ((c : Thread nD τ).loc main_arg10) :=
  calc W9 m ρ c (Proc.devRef .tc main_arg10)
    _ = W8 m ρ c (Proc.devRef .tc main_arg10) := by kept_through hostOps3
    _ = W7 m ρ c (Proc.devRef .tc main_arg10) := W8_of_ne m ρ c main_arg10 (by decide)
    _ = W6 m ρ c (Proc.devRef .tc main_arg10) := W7_of_ne m ρ c main_arg10 (by decide)
    _ = W5 m ρ c (Proc.devRef .tc main_arg10) := W6_of_ne m ρ c main_arg10 (by decide)
    _ = W4 m ρ c (Proc.devRef .tc main_arg10) := by kept_through hostOps0_4
    _ = W3 m ρ c (Proc.devRef .tc main_arg10) := by kept_through hostOps0_3
    _ = W2 m ρ c (Proc.devRef .tc main_arg10) := by kept_through hostOps0_2
    _ = W1 m ρ c (Proc.devRef .tc main_arg10) := by kept_through hostOps0_1
    _ = W0 m ρ c (Proc.devRef .tc main_arg10) := by kept_through hostOps0
    _ = m ((c : Thread nD τ).loc main_arg10) := rfl

theorem W9_main_arg11 (c : Dev nD) : W9 m ρ c (Proc.devRef .tc main_arg11) = m ((c : Thread nD τ).loc main_arg11) :=
  calc W9 m ρ c (Proc.devRef .tc main_arg11)
    _ = W8 m ρ c (Proc.devRef .tc main_arg11) := by kept_through hostOps3
    _ = W7 m ρ c (Proc.devRef .tc main_arg11) := W8_of_ne m ρ c main_arg11 (by decide)
    _ = W6 m ρ c (Proc.devRef .tc main_arg11) := W7_of_ne m ρ c main_arg11 (by decide)
    _ = W5 m ρ c (Proc.devRef .tc main_arg11) := W6_of_ne m ρ c main_arg11 (by decide)
    _ = W4 m ρ c (Proc.devRef .tc main_arg11) := by kept_through hostOps0_4
    _ = W3 m ρ c (Proc.devRef .tc main_arg11) := by kept_through hostOps0_3
    _ = W2 m ρ c (Proc.devRef .tc main_arg11) := by kept_through hostOps0_2
    _ = W1 m ρ c (Proc.devRef .tc main_arg11) := by kept_through hostOps0_1
    _ = W0 m ρ c (Proc.devRef .tc main_arg11) := by kept_through hostOps0
    _ = m ((c : Thread nD τ).loc main_arg11) := rfl

theorem W9_main_arg12 (c : Dev nD) : W9 m ρ c (Proc.devRef .tc main_arg12) = m ((c : Thread nD τ).loc main_arg12) :=
  calc W9 m ρ c (Proc.devRef .tc main_arg12)
    _ = W8 m ρ c (Proc.devRef .tc main_arg12) := by kept_through hostOps3
    _ = W7 m ρ c (Proc.devRef .tc main_arg12) := W8_of_ne m ρ c main_arg12 (by decide)
    _ = W6 m ρ c (Proc.devRef .tc main_arg12) := W7_of_ne m ρ c main_arg12 (by decide)
    _ = W5 m ρ c (Proc.devRef .tc main_arg12) := W6_of_ne m ρ c main_arg12 (by decide)
    _ = W4 m ρ c (Proc.devRef .tc main_arg12) := by kept_through hostOps0_4
    _ = W3 m ρ c (Proc.devRef .tc main_arg12) := by kept_through hostOps0_3
    _ = W2 m ρ c (Proc.devRef .tc main_arg12) := by kept_through hostOps0_2
    _ = W1 m ρ c (Proc.devRef .tc main_arg12) := by kept_through hostOps0_1
    _ = W0 m ρ c (Proc.devRef .tc main_arg12) := by kept_through hostOps0
    _ = m ((c : Thread nD τ).loc main_arg12) := rfl

end Cert.KernelIdeal.Hand

end
-- ==== Proof.KI.Frame.lean ====
/-
  The frame claim read off the run: in every final state each argument array is the final contents of its buffer,
  and those are the launch contents. For the value claim the same run also names what the result buffer holds.
-/
import proofs.«158892_j50087908606273_2_alg».proof.Proof.KI.Args

set_option maxRecDepth 16384

noncomputable section

namespace Cert.KernelIdeal.Hand

open Cert.KernelIdeal Cert.KernelIdeal.Gen
open Idealize.ShloMosaic Idealize.ShloMosaic.TcCoe
open Idealize.SL Idealize.SL.Sem

variable {F : FTy → Type} [FloatOps F]
variable (m : (ℓ : Loc nD τ sig) → Buf (Elt F) ℓ) (ρ : Dev nD → PrngReg)

/-- Every weakly fair execution terminates, nothing faulting, with the thirteen argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun r h c => ⟨(h c _ (mem_uc main_arg0 (by decide))).trans (W9_main_arg0 m ρ c),
      (h c _ (mem_uc main_arg1 (by decide))).trans (W9_main_arg1 m ρ c),
      (h c _ (mem_uc main_arg2 (by decide))).trans (W9_main_arg2 m ρ c),
      (h c _ (mem_uc main_arg3 (by decide))).trans (W9_main_arg3 m ρ c),
      (h c _ (mem_uc main_arg4 (by decide))).trans (W9_main_arg4 m ρ c),
      (h c _ (mem_uc main_arg5 (by decide))).trans (W9_main_arg5 m ρ c),
      (h c _ (mem_uc main_arg6 (by decide))).trans (W9_main_arg6 m ρ c),
      (h c _ (mem_uc main_arg7 (by decide))).trans (W9_main_arg7 m ρ c),
      (h c _ (mem_uc main_arg8 (by decide))).trans (W9_main_arg8 m ρ c),
      (h c _ (mem_uc main_arg9 (by decide))).trans (W9_main_arg9 m ρ c),
      (h c _ (mem_uc main_arg10 (by decide))).trans (W9_main_arg10 m ρ c),
      (h c _ (mem_uc main_arg11 (by decide))).trans (W9_main_arg11 m ρ c),
      (h c _ (mem_uc main_arg12 (by decide))).trans (W9_main_arg12 m ρ c)⟩) (run_all m ρ)

/-- The same run with the result named: the result buffer ends at the final contents `W9 m ρ c` of its reference. -/
theorem run_result : θ_run defs (onTc (τ := τ) (main (F := F))) ⟨m, fun _ => 0, ρ⟩ (fun r => ∀ c : Dev nD,
      r.2.mem ((c.tc : Thread nD τ).loc main_v84) = W9 m ρ c (Proc.devRef .tc main_v84)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun r h c => ⟨h c _ (mem_uc main_v84 (by decide)),
      (h c _ (mem_uc main_arg0 (by decide))).trans (W9_main_arg0 m ρ c),
      (h c _ (mem_uc main_arg1 (by decide))).trans (W9_main_arg1 m ρ c),
      (h c _ (mem_uc main_arg2 (by decide))).trans (W9_main_arg2 m ρ c),
      (h c _ (mem_uc main_arg3 (by decide))).trans (W9_main_arg3 m ρ c),
      (h c _ (mem_uc main_arg4 (by decide))).trans (W9_main_arg4 m ρ c),
      (h c _ (mem_uc main_arg5 (by decide))).trans (W9_main_arg5 m ρ c),
      (h c _ (mem_uc main_arg6 (by decide))).trans (W9_main_arg6 m ρ c),
      (h c _ (mem_uc main_arg7 (by decide))).trans (W9_main_arg7 m ρ c),
      (h c _ (mem_uc main_arg8 (by decide))).trans (W9_main_arg8 m ρ c),
      (h c _ (mem_uc main_arg9 (by decide))).trans (W9_main_arg9 m ρ c),
      (h c _ (mem_uc main_arg10 (by decide))).trans (W9_main_arg10 m ρ c),
      (h c _ (mem_uc main_arg11 (by decide))).trans (W9_main_arg11 m ρ c),
      (h c _ (mem_uc main_arg12 (by decide))).trans (W9_main_arg12 m ρ c)⟩) (run_all m ρ)

end Cert.KernelIdeal.Hand

end
-- ==== Proof.KI.EntryQ.lean ====
/-
  The ternary quantization of a weight array w: with a the array of absolute values, the threshold is 0.7 times the
  mean of a (the sum of a divided by the element count); the mask is 1 where a exceeds the threshold and 0 elsewhere;
  the scale is the sum of a over the masked entries divided by the larger of the mask's count and 1; the quantized
  weight is scale * sign(w) * mask. For the stacked direction heads the means, counts and scales are taken per head
  (over the last two axes).
-/
import proofs.«158892_j50087908606273_2_alg».proof.Proof.Gen.KernelIdeal

noncomputable section

namespace Cert.KernelIdeal.Hand

open Cert.KernelIdeal Cert.KernelIdeal.Gen
open Idealize.ShloMosaic Idealize.ShloMosaic.TcCoe
open Idealize.SL Idealize.SL.Sem

variable {F : FTy → Type} [FloatOps F]

/-! ## The quantization of the first hidden weight (4096 x 2048) -/

/-- The array of absolute values. -/
def abs1 (w : (⟨S4096x2048, .f32⟩ : BufTy).Contents (Elt F)) : (⟨S4096x2048, .f32⟩ : BufTy).Contents (Elt F) :=
  Host.absf w

/-- The mask: 1 where the absolute value exceeds 0.7 times the mean absolute value, 0 elsewhere. -/
def mask1 (w : (⟨S4096x2048, .f32⟩ : BufTy).Contents (Elt F)) : (⟨S4096x2048, .f32⟩ : BufTy).Contents (Elt F) :=
  uitofp .f32 (cmpf .ogt (abs1 w)
    (broadcastInDim S4096x2048 ![0, 1] bcast_S1x1_S4096x2048_0_1
      (mulf (broadcastInDim S1x1 ![] bcast_S_S1x1 (constant S_ .f32 0x3F333333#32))
        (Host.divf
          (broadcastInDim S1x1 ![] bcast_S_S1x1
        (Host.reduceAdd (abs1 w) (constant S_ .f32 0x00000000#32) reducesTo_S4096x2048_S_d0_1 h_S_))
          (broadcastInDim S1x1 ![] bcast_S_S1x1 (constant S_ .f32 0x4B000000#32))))))

/-- The scale: the masked sum of absolute values over the larger of the mask's count and 1. -/
def scale1 (w : (⟨S4096x2048, .f32⟩ : BufTy).Contents (Elt F)) : (⟨S1x1, .f32⟩ : BufTy).Contents (Elt F) :=
  Host.divf
    (broadcastInDim S1x1 ![] bcast_S_S1x1
        (Host.reduceAdd (mulf (abs1 w) (mask1 w)) (constant S_ .f32 0x00000000#32) reducesTo_S4096x2048_S_d0_1 h_S_))
    (maximumf
      (broadcastInDim S1x1 ![] bcast_S_S1x1
        (Host.reduceAdd (mask1 w) (constant S_ .f32 0x00000000#32) reducesTo_S4096x2048_S_d0_1 h_S_))
      (broadcastInDim S1x1 ![] bcast_S_S1x1 (constant S_ .f32 0x3F800000#32)))

/-- The quantized weight: scale * sign * mask. -/
def Q1 (w : (⟨S4096x2048, .f32⟩ : BufTy).Contents (Elt F)) : (⟨S4096x2048, .f32⟩ : BufTy).Contents (Elt F) :=
  mulf (mulf (broadcastInDim S4096x2048 ![0, 1] bcast_S1x1_S4096x2048_0_1 (scale1 w)) (Host.sign w)) (mask1 w)

/-! ## The quantization of the second hidden weight (4096 x 4096) -/

/-- The array of absolute values. -/
def abs2 (w : (⟨S4096x4096, .f32⟩ : BufTy).Contents (Elt F)) : (⟨S4096x4096, .f32⟩ : BufTy).Contents (Elt F) :=
  Host.absf w

/-- The mask: 1 where the absolute value exceeds 0.7 times the mean absolute value, 0 elsewhere. -/
def mask2 (w : (⟨S4096x4096, .f32⟩ : BufTy).Contents (Elt F)) : (⟨S4096x4096, .f32⟩ : BufTy).Contents (Elt F) :=
  uitofp .f32 (cmpf .ogt (abs2 w)
    (broadcastInDim S4096x4096 ![0, 1] bcast_S1x1_S4096x4096_0_1
      (mulf (broadcastInDim S1x1 ![] bcast_S_S1x1 (constant S_ .f32 0x3F333333#32))
        (Host.divf
          (broadcastInDim S1x1 ![] bcast_S_S1x1
        (Host.reduceAdd (abs2 w) (constant S_ .f32 0x00000000#32) reducesTo_S4096x4096_S_d0_1 h_S_))
          (broadcastInDim S1x1 ![] bcast_S_S1x1 (constant S_ .f32 0x4B800000#32))))))

/-- The scale: the masked sum of absolute values over the larger of the mask's count and 1. -/
def scale2 (w : (⟨S4096x4096, .f32⟩ : BufTy).Contents (Elt F)) : (⟨S1x1, .f32⟩ : BufTy).Contents (Elt F) :=
  Host.divf
    (broadcastInDim S1x1 ![] bcast_S_S1x1
        (Host.reduceAdd (mulf (abs2 w) (mask2 w)) (constant S_ .f32 0x00000000#32) reducesTo_S4096x4096_S_d0_1 h_S_))
    (maximumf
      (broadcastInDim S1x1 ![] bcast_S_S1x1
        (Host.reduceAdd (mask2 w) (constant S_ .f32 0x00000000#32) reducesTo_S4096x4096_S_d0_1 h_S_))
      (broadcastInDim S1x1 ![] bcast_S_S1x1 (constant S_ .f32 0x3F800000#32)))

/-- The quantized weight: scale * sign * mask. -/
def Q2 (w : (⟨S4096x4096, .f32⟩ : BufTy).Contents (Elt F)) : (⟨S4096x4096, .f32⟩ : BufTy).Contents (Elt F) :=
  mulf (mulf (broadcastInDim S4096x4096 ![0, 1] bcast_S1x1_S4096x4096_0_1 (scale2 w)) (Host.sign w)) (mask2 w)

/-! ## The quantization of the six direction heads (6 x 3 x 4096), each head on its own -/

/-- The array of absolute values. -/
def abs5 (w : (⟨S6x3x4096, .f32⟩ : BufTy).Contents (Elt F)) : (⟨S6x3x4096, .f32⟩ : BufTy).Contents (Elt F) :=
  Host.absf w

/-- The mask: 1 where the absolute value exceeds 0.7 times the mean absolute value of its head, 0 elsewhere. -/
def mask5 (w : (⟨S6x3x4096, .f32⟩ : BufTy).Contents (Elt F)) : (⟨S6x3x4096, .f32⟩ : BufTy).Contents (Elt F) :=
  uitofp .f32 (cmpf .ogt (abs5 w)
    (broadcastInDim S6x3x4096 ![0, 1, 2] bcast_S6x1x1_S6x3x4096_0_1_2
      (mulf (broadcastInDim S6x1x1 ![] bcast_S_S6x1x1 (constant S_ .f32 0x3F333333#32))
        (Host.divf
          (broadcastInDim S6x1x1 ![0] bcast_S6_S6x1x1_0
        (Host.reduceAdd (abs5 w) (constant S_ .f32 0x00000000#32) reducesTo_S6x3x4096_S6_d1_2 h_S_))
          (broadcastInDim S6x1x1 ![] bcast_S_S6x1x1 (constant S_ .f32 0x46400000#32))))))

/-- The scale of its head: the masked sum of absolute values over the larger of the mask's count and 1. -/
def scale5 (w : (⟨S6x3x4096, .f32⟩ : BufTy).Contents (Elt F)) : (⟨S6x1x1, .f32⟩ : BufTy).Contents (Elt F) :=
  Host.divf
    (broadcastInDim S6x1x1 ![0] bcast_S6_S6x1x1_0
        (Host.reduceAdd (mulf (abs5 w) (mask5 w)) (constant S_ .f32 0x00000000#32) reducesTo_S6x3x4096_S6_d1_2 h_S_))
    (maximumf
      (broadcastInDim S6x1x1 ![0] bcast_S6_S6x1x1_0
        (Host.reduceAdd (mask5 w) (constant S_ .f32 0x00000000#32) reducesTo_S6x3x4096_S6_d1_2 h_S_))
      (broadcastInDim S6x1x1 ![] bcast_S_S6x1x1 (constant S_ .f32 0x3F800000#32)))

/-- The quantized weight: scale * sign * mask. -/
def Q5 (w : (⟨S6x3x4096, .f32⟩ : BufTy).Contents (Elt F)) : (⟨S6x3x4096, .f32⟩ : BufTy).Contents (Elt F) :=
  mulf (mulf (broadcastInDim S6x3x4096 ![0, 1, 2] bcast_S6x1x1_S6x3x4096_0_1_2 (scale5 w)) (Host.sign w)) (mask5 w)

end Cert.KernelIdeal.Hand

end
-- ==== Proof.Spec.lean ====
/-
  What both programs compute, as one function of the input arrays and of the three quantized weight
  arrays, element by element on the extended reals.

  A dense layer sends row r of its input x and row c of its weight w to the sum over k of x(r,k)·w(c,k)
  plus the bias b(c); the two hidden layers clip that below at zero. The last stage is one such affine
  map against a weight of 1044 rows made of four stacked pieces: rows 0..17 are the six direction heads
  (row 3a+o is output o of head a), rows 18..1041 the anchor weight, row 1042 the progress weight and
  row 1043 the critic weight, with the bias stacked the same way. Only column 1043, the critic, is passed
  through the logistic function 1/(1+e^(-z)).

  The quantized weights are arguments here: the two programs compute them by the same chain of
  operations, and the reference then adds and subtracts the unquantized weight, which changes nothing
  when that weight is a real number.
-/
import Idealize.ShloMosaic.PureOps.Ideal

noncomputable section

namespace Cert.Spec

open Idealize.ShloMosaic

/-- Row r of x against row c of w, plus the bias of column c. -/
def affine {R K C : ℕ} (x : Fin R → Fin K → EReal) (w : Fin C → Fin K → EReal) (b : Fin C → EReal)
    (r : Fin R) (c : Fin C) : EReal :=
  (∑ k : Fin K, x r k * w c k) + b c

/-- An affine map clipped below at zero. -/
def layer {R K C : ℕ} (x : Fin R → Fin K → EReal) (w : Fin C → Fin K → EReal) (b : Fin C → EReal)
    (r : Fin R) (c : Fin C) : EReal :=
  max (affine x w b r c) 0

/-- The stacked head weight: six direction heads of three rows each, then 1024 anchor rows, then the
    progress row, then the critic row. -/
def wall (wd : Fin 6 → Fin 3 → Fin 4096 → EReal) (wa : Fin 1024 → Fin 4096 → EReal)
    (wp wc : Fin 4096 → EReal) (j : Fin 1044) (k : Fin 4096) : EReal :=
  if h : j.val < 18 then wd ⟨j.val / 3, by omega⟩ ⟨j.val % 3, Nat.mod_lt _ (by decide)⟩ k
  else if h2 : j.val < 1042 then wa ⟨j.val - 18, by omega⟩ k
  else if j.val = 1042 then wp k else wc k

/-- The stacked head bias, in the same order. -/
def ball (bd : Fin 6 → Fin 3 → EReal) (ba : Fin 1024 → EReal) (bp bc : EReal) (j : Fin 1044) : EReal :=
  if h : j.val < 18 then bd ⟨j.val / 3, by omega⟩ ⟨j.val % 3, Nat.mod_lt _ (by decide)⟩
  else if h2 : j.val < 1042 then ba ⟨j.val - 18, by omega⟩
  else if j.val = 1042 then bp else bc

/-- The second hidden layer's output: two clipped affine maps. -/
def hidden (x : Fin 8192 → Fin 2048 → EReal) (q1 : Fin 4096 → Fin 2048 → EReal) (b1 : Fin 4096 → EReal)
    (q2 : Fin 4096 → Fin 4096 → EReal) (b2 : Fin 4096 → EReal) : Fin 8192 → Fin 4096 → EReal :=
  layer (layer x q1 b1) q2 b2

/-- The result at row r and column j: the hidden layers against the stacked head weight, the critic
    column alone through the logistic function. -/
def out (x : Fin 8192 → Fin 2048 → EReal) (q1 : Fin 4096 → Fin 2048 → EReal) (b1 : Fin 4096 → EReal)
    (q2 : Fin 4096 → Fin 4096 → EReal) (b2 : Fin 4096 → EReal)
    (wd : Fin 6 → Fin 3 → Fin 4096 → EReal) (bd : Fin 6 → Fin 3 → EReal)
    (wa : Fin 1024 → Fin 4096 → EReal) (ba : Fin 1024 → EReal)
    (wp : Fin 4096 → EReal) (bp : EReal) (wc : Fin 4096 → EReal) (bc : EReal)
    (r : Fin 8192) (j : Fin 1044) : EReal :=
  if j.val = 1043 then
    Ideal.logistic (affine (hidden x q1 b1 q2 b2) (wall wd wa wp wc) (ball bd ba bp bc) r j)
  else affine (hidden x q1 b1 q2 b2) (wall wd wa wp wc) (ball bd ba bp bc) r j

/-- Adding a real number x to the difference q - x gives q back, whatever extended real q is. -/
theorem add_sub_cancel_real (x : ℝ) (q : EReal) : (x : EReal) + (q - (x : EReal)) = q := by
  induction q using EReal.rec with
  | bot => simp
  | top => simp
  | coe y => rw [← EReal.coe_sub, ← EReal.coe_add]; congr 1; ring

end Cert.Spec

end
-- ==== Proof.KI.Stack.lean ====
/-
  The last stage's two operands as the program builds them, read entry by entry.

  The weight: the six direction heads [6,3,4096] are laid out as 18 rows (row 3a+o is output o of head a), the
  anchor's 1024 rows, the progress row and the critic row are put under them, 108 rows of zeros are added below to
  make 1152, and the whole is transposed, so that entry (k, j) of the result is entry k of stacked row j for
  j < 1044 and zero for the 108 columns after that. A change of float format changes no value here.

  The bias: the same stack of 18 + 1024 + 1 + 1 entries, 108 zeros after them, laid out as one row of 1152.
-/
import proofs.«158892_j50087908606273_2_alg».proof.KernelIdeal
import proofs.«158892_j50087908606273_2_alg».proof.Proof.Spec
import Idealize.ShloMosaic.Lib.ValueIdx
import Idealize.ShloMosaic.Lib.Pipeline.Value
import Idealize.ShloMosaic.Lib.KernelVsHost

noncomputable section

namespace Cert.KernelIdeal.Hand

open Cert.KernelIdeal
open Idealize.ShloMosaic Idealize.ShloMosaic.ValueIdx

variable [Facts]
open Facts₀ Facts

/-- The stacked head weight, padded with zero rows to 1152 and transposed to [4096, 1152], as a function of the
    quantized direction weight and the three other head weights. -/
def wallT (q5 : FVec Ideal S6x3x4096 .f32) (wa : FVec Ideal S1024x4096 .f32) (wp wc : FVec Ideal S1x4096 .f32) :
    FVec Ideal S4096x1152 .bf16 :=
  truncf .bf16
    (transpose S4096x1152 [1, 0]
      (pad S1152x4096 ![0, 0] ![108, 0] ![0, 0]
        (concatenate S1044x4096 0
          [⟨S18x4096, shapeCast S18x4096 q5 shapeCasts_S6x3x4096_S18x4096⟩, ⟨S1024x4096, wa⟩, ⟨S1x4096, wp⟩, ⟨S1x4096, wc⟩]
          concatenates_S18x4096_S1024x4096_S1x4096_S1x4096_S1044x4096_d0)
        (sitofp .f32 (constantI S_ 32 0#32)) pads_S1044x4096_S1152x4096_01080_000 h_S_)
      transposes_S1152x4096_S4096x1152_1_0)
    bitsLt_bf16_f32

/-- The stacked head bias, padded with zeros to 1152 entries and laid out as one row. -/
def ballRow (bd : FVec Ideal S6x3 .f32) (ba : FVec Ideal S1024 .f32) (bp bc : FVec Ideal S1 .f32) :
    FVec Ideal S1x1152 .f32 :=
  shapeCast S1x1152
    (pad S1152 ![0] ![108] ![0]
      (concatenate S1044 0
        [⟨S18, shapeCast S18 bd shapeCasts_S6x3_S18⟩, ⟨S1024, ba⟩, ⟨S1, bp⟩, ⟨S1, bc⟩]
        concatenates_S18_S1024_S1_S1_S1044_d0)
      (sitofp .f32 (constantI S_ 32 0#32)) pads_S1044_S1152_01080 h_S_)
    shapeCasts_S1152_S1x1152

/-- The padding value: the integer zero read as a float is the real number zero. -/
theorem padValue_eq_zero :
    (sitofp .f32 (constantI S_ 32 0#32) : FVec Ideal S_ .f32) (Shape.Idx.first h_S_) = 0 := by
  show ((((0#32 : BitVec 32).toInt : ℤ) : ℝ) : EReal) = 0
  simp

/-- Row r of the four stacked weight pieces: rows 0..17 are the direction heads (row 3a+o is head a, output o),
    rows 18..1041 the anchor rows, row 1042 the progress row, row 1043 the critic row. -/
theorem stackedWeight_at (q5 : FVec Ideal S6x3x4096 .f32) (wa : FVec Ideal S1024x4096 .f32)
    (wp wc : FVec Ideal S1x4096 .f32) (r : Fin 1044) (k : Fin 4096) :
    concatenate S1044x4096 0
        [⟨S18x4096, shapeCast S18x4096 q5 shapeCasts_S6x3x4096_S18x4096⟩, ⟨S1024x4096, wa⟩, ⟨S1x4096, wp⟩, ⟨S1x4096, wc⟩]
        concatenates_S18x4096_S1024x4096_S1x4096_S1x4096_S1044x4096_d0 (ix2 r k)
      = Cert.Spec.wall (fun a o k => q5 (ix3 a o k)) (fun a k => wa (ix2 a k)) (fun k => wp (ix2 0 k))
          (fun k => wc (ix2 0 k)) r k := by
  unfold Cert.Spec.wall
  by_cases h1 : r.val < 18
  · -- a direction row: position 4096 r + k of the 18 rows is position 4096 (3 (r / 3) + r % 3) + k of the heads
    rw [dif_pos h1]
    refine (concatenate_apply_piece (t := S1044x4096) 0
      [⟨S18x4096, shapeCast S18x4096 q5 shapeCasts_S6x3x4096_S18x4096⟩, ⟨S1024x4096, wa⟩, ⟨S1x4096, wp⟩, ⟨S1x4096, wc⟩]
      concatenates_S18x4096_S1024x4096_S1x4096_S1x4096_S1044x4096_d0
      (ix2 r k) 0 (by show 0 < 4; omega) S18x4096 _ rfl rfl 0 rfl (ix2 (⟨r.val, h1⟩ : Fin 18) k) ?_ ?_).trans ?_
    · intro b hb
      match b, hb with
      | ⟨0, _⟩, hb => exact absurd rfl hb
      | ⟨1, _⟩, _ => rfl
    · show 0 + r.val = r.val
      omega
    · refine shapeCast_apply q5 _ (ix2 (⟨r.val, h1⟩ : Fin 18) k)
        (ix3 (⟨r.val / 3, by omega⟩ : Fin 6) (⟨r.val % 3, Nat.mod_lt _ (by decide)⟩ : Fin 3) k) ?_
      rw [Shape.rowMajor_val_three, Shape.rowMajor_val_two]
      show ((r.val / 3) * 3 + r.val % 3) * 4096 + k.val = r.val * 4096 + k.val
      omega
  · rw [dif_neg h1]
    by_cases h2 : r.val < 1042
    · -- an anchor row: 18 rows come before it
      rw [dif_pos h2]
      refine (concatenate_apply_piece (t := S1044x4096) 0
        [⟨S18x4096, shapeCast S18x4096 q5 shapeCasts_S6x3x4096_S18x4096⟩, ⟨S1024x4096, wa⟩, ⟨S1x4096, wp⟩, ⟨S1x4096, wc⟩]
        concatenates_S18x4096_S1024x4096_S1x4096_S1x4096_S1044x4096_d0
        (ix2 r k) 1 (by show 1 < 4; omega) S1024x4096 wa rfl rfl 18 rfl (ix2 (⟨r.val - 18, by omega⟩ : Fin 1024) k) ?_ ?_)
      · intro b hb
        match b, hb with
        | ⟨0, _⟩, hb => exact absurd rfl hb
        | ⟨1, _⟩, _ => rfl
      · show 18 + (r.val - 18) = r.val
        omega
    · rw [dif_neg h2]
      by_cases h3 : r.val = 1042
      · -- the progress row: 18 + 1024 rows come before it
        rw [if_pos h3]
        refine (concatenate_apply_piece (t := S1044x4096) 0
          [⟨S18x4096, shapeCast S18x4096 q5 shapeCasts_S6x3x4096_S18x4096⟩, ⟨S1024x4096, wa⟩, ⟨S1x4096, wp⟩, ⟨S1x4096, wc⟩]
          concatenates_S18x4096_S1024x4096_S1x4096_S1x4096_S1044x4096_d0
          (ix2 r k) 2 (by show 2 < 4; omega) S1x4096 wp rfl rfl 1042 rfl (ix2 (0 : Fin 1) k) ?_ ?_)
        · intro b hb
          match b, hb with
          | ⟨0, _⟩, hb => exact absurd rfl hb
          | ⟨1, _⟩, _ => rfl
        · show 1042 + 0 = r.val
          omega
      · -- the critic row, the last one
        rw [if_neg h3]
        refine (concatenate_apply_piece (t := S1044x4096) 0
          [⟨S18x4096, shapeCast S18x4096 q5 shapeCasts_S6x3x4096_S18x4096⟩, ⟨S1024x4096, wa⟩, ⟨S1x4096, wp⟩, ⟨S1x4096, wc⟩]
          concatenates_S18x4096_S1024x4096_S1x4096_S1x4096_S1044x4096_d0
          (ix2 r k) 3 (by show 3 < 4; omega) S1x4096 wc rfl rfl 1043 rfl (ix2 (0 : Fin 1) k) ?_ ?_)
        · intro b hb
          match b, hb with
          | ⟨0, _⟩, hb => exact absurd rfl hb
          | ⟨1, _⟩, _ => rfl
        · have := r.isLt
          show 1043 + 0 = r.val
          omega

/-- Entry (k, j) of the transposed padded weight: entry k of stacked row j below 1044, zero from there on. -/
theorem wallT_at (q5 : FVec Ideal S6x3x4096 .f32) (wa : FVec Ideal S1024x4096 .f32) (wp wc : FVec Ideal S1x4096 .f32)
    (k : Fin 4096) (j : Fin 1152) :
    wallT q5 wa wp wc (ix2 k j)
      = if h : j.val < 1044 then
          Cert.Spec.wall (fun a o k => q5 (ix3 a o k)) (fun a k => wa (ix2 a k)) (fun k => wp (ix2 0 k))
            (fun k => wc (ix2 0 k)) ⟨j.val, h⟩ k
        else 0 := by
  unfold wallT
  rw [truncf_apply]
  refine (transpose_apply [1, 0] _ transposes_S1152x4096_S4096x1152_1_0 (ix2 k j) (ix2 j k) ?_).trans ?_
  · intro b
    match b with
    | ⟨0, _⟩ => rfl
    | ⟨1, _⟩ => rfl
  by_cases h : j.val < 1044
  · rw [dif_pos h]
    refine (pad_apply_of_inside _ _ _ _ _ pads_S1044x4096_S1152x4096_01080_000 h_S_ (ix2 j k)
      (ix2 (⟨j.val, h⟩ : Fin 1044) k) ?_).trans (stackedWeight_at q5 wa wp wc ⟨j.val, h⟩ k)
    intro a
    match a with
    | ⟨0, _⟩ => show j.val = 0 + j.val * (0 + 1); omega
    | ⟨1, _⟩ => show k.val = 0 + k.val * (0 + 1); omega
  · rw [dif_neg h]
    refine (pad_apply_of_not_inside _ _ _ _ _ pads_S1044x4096_S1152x4096_01080_000 h_S_ (ix2 j k) (0 : Fin 2) ?_).trans
      padValue_eq_zero
    intro hin
    have h3 : (j.val - 0) / (0 + 1) < 1044 := hin.2.2
    rw [Nat.sub_zero, Nat.zero_add, Nat.div_one] at h3
    exact h h3

/-- Entry r of the four stacked bias pieces, in the same order as the weight's rows. -/
theorem stackedBias_at (bd : FVec Ideal S6x3 .f32) (ba : FVec Ideal S1024 .f32) (bp bc : FVec Ideal S1 .f32)
    (r : Fin 1044) :
    concatenate S1044 0
        [⟨S18, shapeCast S18 bd shapeCasts_S6x3_S18⟩, ⟨S1024, ba⟩, ⟨S1, bp⟩, ⟨S1, bc⟩]
        concatenates_S18_S1024_S1_S1_S1044_d0 (ix1 r)
      = Cert.Spec.ball (fun a o => bd (ix2 a o)) (fun a => ba (ix1 a)) (bp (ix1 0)) (bc (ix1 0)) r := by
  unfold Cert.Spec.ball
  by_cases h1 : r.val < 18
  · rw [dif_pos h1]
    refine (concatenate_apply_piece (t := S1044) 0
      [⟨S18, shapeCast S18 bd shapeCasts_S6x3_S18⟩, ⟨S1024, ba⟩, ⟨S1, bp⟩, ⟨S1, bc⟩]
      concatenates_S18_S1024_S1_S1_S1044_d0
      (ix1 r) 0 (by show 0 < 4; omega) S18 _ rfl rfl 0 rfl (ix1 (⟨r.val, h1⟩ : Fin 18)) ?_ ?_).trans ?_
    · intro b hb
      match b, hb with
      | ⟨0, _⟩, hb => exact absurd rfl hb
    · show 0 + r.val = r.val
      omega
    · refine shapeCast_apply bd _ (ix1 (⟨r.val, h1⟩ : Fin 18))
        (ix2 (⟨r.val / 3, by omega⟩ : Fin 6) (⟨r.val % 3, Nat.mod_lt _ (by decide)⟩ : Fin 3)) ?_
      rw [Shape.rowMajor_val_two, Shape.rowMajor_val_one]
      show (r.val / 3) * 3 + r.val % 3 = r.val
      omega
  · rw [dif_neg h1]
    by_cases h2 : r.val < 1042
    · rw [dif_pos h2]
      refine (concatenate_apply_piece (t := S1044) 0
        [⟨S18, shapeCast S18 bd shapeCasts_S6x3_S18⟩, ⟨S1024, ba⟩, ⟨S1, bp⟩, ⟨S1, bc⟩]
        concatenates_S18_S1024_S1_S1_S1044_d0
        (ix1 r) 1 (by show 1 < 4; omega) S1024 ba rfl rfl 18 rfl (ix1 (⟨r.val - 18, by omega⟩ : Fin 1024)) ?_ ?_)
      · intro b hb
        match b, hb with
        | ⟨0, _⟩, hb => exact absurd rfl hb
      · show 18 + (r.val - 18) = r.val
        omega
    · rw [dif_neg h2]
      by_cases h3 : r.val = 1042
      · rw [if_pos h3]
        refine (concatenate_apply_piece (t := S1044) 0
          [⟨S18, shapeCast S18 bd shapeCasts_S6x3_S18⟩, ⟨S1024, ba⟩, ⟨S1, bp⟩, ⟨S1, bc⟩]
          concatenates_S18_S1024_S1_S1_S1044_d0
          (ix1 r) 2 (by show 2 < 4; omega) S1 bp rfl rfl 1042 rfl (ix1 (0 : Fin 1)) ?_ ?_)
        · intro b hb
          match b, hb with
          | ⟨0, _⟩, hb => exact absurd rfl hb
        · show 1042 + 0 = r.val
          omega
      · rw [if_neg h3]
        refine (concatenate_apply_piece (t := S1044) 0
          [⟨S18, shapeCast S18 bd shapeCasts_S6x3_S18⟩, ⟨S1024, ba⟩, ⟨S1, bp⟩, ⟨S1, bc⟩]
          concatenates_S18_S1024_S1_S1_S1044_d0
          (ix1 r) 3 (by show 3 < 4; omega) S1 bc rfl rfl 1043 rfl (ix1 (0 : Fin 1)) ?_ ?_)
        · intro b hb
          match b, hb with
          | ⟨0, _⟩, hb => exact absurd rfl hb
        · have := r.isLt
          show 1043 + 0 = r.val
          omega

/-- Entry j of the padded bias row: stacked entry j below 1044, zero from there on. -/
theorem ballRow_at (bd : FVec Ideal S6x3 .f32) (ba : FVec Ideal S1024 .f32) (bp bc : FVec Ideal S1 .f32)
    (j : Fin 1152) :
    ballRow bd ba bp bc (ix2 0 j)
      = if h : j.val < 1044 then
          Cert.Spec.ball (fun a o => bd (ix2 a o)) (fun a => ba (ix1 a)) (bp (ix1 0)) (bc (ix1 0)) ⟨j.val, h⟩
        else 0 := by
  unfold ballRow
  refine (shapeCast_apply _ shapeCasts_S1152_S1x1152 (ix2 (0 : Fin 1) j) (ix1 j) ?_).trans ?_
  · rw [Shape.rowMajor_val_one, Shape.rowMajor_val_two]
    show j.val = 0 * 1152 + j.val
    omega
  by_cases h : j.val < 1044
  · rw [dif_pos h]
    refine (pad_apply_of_inside _ _ _ _ _ pads_S1044_S1152_01080 h_S_ (ix1 j) (ix1 (⟨j.val, h⟩ : Fin 1044)) ?_).trans
      (stackedBias_at bd ba bp bc ⟨j.val, h⟩)
    intro a
    match a with
    | ⟨0, _⟩ => show j.val = 0 + j.val * (0 + 1); omega
  · rw [dif_neg h]
    refine (pad_apply_of_not_inside _ _ _ _ _ pads_S1044_S1152_01080 h_S_ (ix1 j) (0 : Fin 1) ?_).trans
      padValue_eq_zero
    intro hin
    have h3 : (j.val - 0) / (0 + 1) < 1044 := hin.2.2
    rw [Nat.sub_zero, Nat.zero_add, Nat.div_one] at h3
    exact h h3

end Cert.KernelIdeal.Hand

end
-- ==== Proof.KI.Entry.lean ====
/-
  What the first kernel region finds in the buffers it reads. The host operations before it are a straight line over
  distinct buffers, each written once, so the contents of a buffer on entry are the composition of the operations on
  the path from the argument arrays to it:

  * the two hidden weights: the quantized weight, transposed, in the narrower float format;
  * the head weight: the quantized direction heads flattened to 18 rows, stacked over the anchor weight, the progress
    row and the critic row (1044 rows), padded below with 108 rows of the number 0 to 1152 rows, transposed, in the
    narrower float format;
  * the head bias: the direction biases flattened to 18 entries, stacked over the anchor biases, the progress bias and
    the critic bias (1044 entries), padded with 108 zeros to 1152 entries, as one row;
  * the two hidden biases as one row each;
  * the argument arrays themselves, which no host operation writes.
-/
import proofs.«158892_j50087908606273_2_alg».proof.Proof.KI.Fold
import proofs.«158892_j50087908606273_2_alg».proof.Proof.KI.EntryQ
import proofs.«158892_j50087908606273_2_alg».proof.Proof.KI.Stack
import Idealize.ShloMosaic.Lib.StableHlo.Run
import Idealize.ShloMosaic.Lib.Pipeline.Frame

noncomputable section

namespace Cert.KernelIdeal.Hand

open Cert.KernelIdeal Cert.KernelIdeal.Gen
open Idealize.ShloMosaic Idealize.ShloMosaic.TcCoe
open Idealize.SL Idealize.SL.Sem

variable {F : FTy → Type} [FloatOps F]
variable (m : (ℓ : Loc nD τ sig) → Buf (Elt F) ℓ) (ρ : Dev nD → PrngReg)

/-! ## The argument arrays are as launched -/

/-- Every buffer some host operation before the first region writes: one per operation. -/
def hostWritten : List (Ref sig .tc) :=
  [
    main_v0, main_cst, main_v1, main_v2, main_cst_0, main_v3, main_v4, main_cst_1, main_v5, main_v6,
    main_v7, main_v8, main_v9, main_cst_2, main_v10, main_v11, main_cst_3, main_v12, main_v13, main_v14,
    main_cst_4, main_v15, main_v16, main_v17, main_v18, main_v19, main_v20, main_v21, main_v22, main_cst_5,
    main_v23, main_v24, main_cst_6, main_v25, main_v26, main_cst_7, main_v27, main_v28, main_v29, main_v30,
    main_v31, main_cst_8, main_v32, main_v33, main_cst_9, main_v34, main_v35, main_v36, main_cst_10, main_v37,
    main_v38, main_v39, main_v40, main_v41, main_v42, main_v43, main_v44, main_cst_11, main_v45, main_v46,
    main_cst_12, main_v47, main_v48, main_cst_13, main_v49, main_v50, main_v51, main_v52, main_v53, main_cst_14,
    main_v54, main_v55, main_cst_15, main_v56, main_v57, main_v58, main_cst_16, main_v59, main_v60, main_v61,
    main_v62, main_v63, main_v64, main_v65, main_v66, main_v67, main_v68, main_v69, main_v70, main_v71,
    main_v72, main_v73, main_c, main_call0_v0, main_v74, main_c_17, main_call1_v0, main_v75, main_v76, main_v77,
    main_v78, main_v79, main_v80 ]

theorem hostOps0_writes : (hostOps0 (F := F)).Forall fun op =>
    op.writes ⊆ (hostWritten.map (Proc.devRef (τ := τ) .tc)).toFinset := by
  simp only [hostOps0, List.Forall, StableHlo.nullary_writes, StableHlo.unary_writes, StableHlo.binary_writes,
    StableHlo.reshape_writes, StableHlo.nary_writes, Finset.singleton_subset_iff]
  repeat' apply And.intro
  all_goals exact List.mem_toFinset.mpr (List.mem_map_of_mem (by decide))
theorem hostOps0_1_writes : (hostOps0_1 (F := F)).Forall fun op =>
    op.writes ⊆ (hostWritten.map (Proc.devRef (τ := τ) .tc)).toFinset := by
  simp only [hostOps0_1, List.Forall, StableHlo.nullary_writes, StableHlo.unary_writes, StableHlo.binary_writes,
    StableHlo.reshape_writes, StableHlo.nary_writes, Finset.singleton_subset_iff]
  repeat' apply And.intro
  all_goals exact List.mem_toFinset.mpr (List.mem_map_of_mem (by decide))
theorem hostOps0_2_writes : (hostOps0_2 (F := F)).Forall fun op =>
    op.writes ⊆ (hostWritten.map (Proc.devRef (τ := τ) .tc)).toFinset := by
  simp only [hostOps0_2, List.Forall, StableHlo.nullary_writes, StableHlo.unary_writes, StableHlo.binary_writes,
    StableHlo.reshape_writes, StableHlo.nary_writes, Finset.singleton_subset_iff]
  exact List.mem_toFinset.mpr (List.mem_map_of_mem (by decide))
theorem hostOps0_3_writes : (hostOps0_3 (F := F)).Forall fun op =>
    op.writes ⊆ (hostWritten.map (Proc.devRef (τ := τ) .tc)).toFinset := by
  simp only [hostOps0_3, List.Forall, StableHlo.nullary_writes, StableHlo.unary_writes, StableHlo.binary_writes,
    StableHlo.reshape_writes, StableHlo.nary_writes, Finset.singleton_subset_iff]
  repeat' apply And.intro
  all_goals exact List.mem_toFinset.mpr (List.mem_map_of_mem (by decide))
theorem hostOps0_4_writes : (hostOps0_4 (F := F)).Forall fun op =>
    op.writes ⊆ (hostWritten.map (Proc.devRef (τ := τ) .tc)).toFinset := by
  simp only [hostOps0_4, List.Forall, StableHlo.nullary_writes, StableHlo.unary_writes, StableHlo.binary_writes,
    StableHlo.reshape_writes, StableHlo.nary_writes, Finset.singleton_subset_iff]
  repeat' apply And.intro
  all_goals exact List.mem_toFinset.mpr (List.mem_map_of_mem (by decide))

/-- A buffer none of the host operations writes holds on entry what it was launched with. -/
theorem V5_of_not_written (c : Dev nD) (r : Ref sig .tc) (hr : r ∉ hostWritten) :
    V5 m ρ c r = m ((c : Thread nD τ).loc r) :=
  calc W5 m ρ c (Proc.devRef .tc r)
    _ = W4 m ρ c (Proc.devRef .tc r) := StableHlo.after_of_writes_sub _ _ hostOps0_4_writes hr
    _ = W3 m ρ c (Proc.devRef .tc r) := StableHlo.after_of_writes_sub _ _ hostOps0_3_writes hr
    _ = W2 m ρ c (Proc.devRef .tc r) := StableHlo.after_of_writes_sub _ _ hostOps0_2_writes hr
    _ = W1 m ρ c (Proc.devRef .tc r) := StableHlo.after_of_writes_sub _ _ hostOps0_1_writes hr
    _ = W0 m ρ c (Proc.devRef .tc r) := StableHlo.after_of_writes_sub _ _ hostOps0_writes hr
    _ = m ((c : Thread nD τ).loc r) := rfl

theorem V5_arg0 (c : Dev nD) : V5 m ρ c main_arg0 = m ((c : Thread nD τ).loc main_arg0) :=
  V5_of_not_written m ρ c main_arg0 (by decide)
theorem V5_arg1 (c : Dev nD) : V5 m ρ c main_arg1 = m ((c : Thread nD τ).loc main_arg1) :=
  V5_of_not_written m ρ c main_arg1 (by decide)
theorem V5_arg2 (c : Dev nD) : V5 m ρ c main_arg2 = m ((c : Thread nD τ).loc main_arg2) :=
  V5_of_not_written m ρ c main_arg2 (by decide)
theorem V5_arg3 (c : Dev nD) : V5 m ρ c main_arg3 = m ((c : Thread nD τ).loc main_arg3) :=
  V5_of_not_written m ρ c main_arg3 (by decide)
theorem V5_arg4 (c : Dev nD) : V5 m ρ c main_arg4 = m ((c : Thread nD τ).loc main_arg4) :=
  V5_of_not_written m ρ c main_arg4 (by decide)
theorem V5_arg5 (c : Dev nD) : V5 m ρ c main_arg5 = m ((c : Thread nD τ).loc main_arg5) :=
  V5_of_not_written m ρ c main_arg5 (by decide)
theorem V5_arg6 (c : Dev nD) : V5 m ρ c main_arg6 = m ((c : Thread nD τ).loc main_arg6) :=
  V5_of_not_written m ρ c main_arg6 (by decide)
theorem V5_arg7 (c : Dev nD) : V5 m ρ c main_arg7 = m ((c : Thread nD τ).loc main_arg7) :=
  V5_of_not_written m ρ c main_arg7 (by decide)
theorem V5_arg8 (c : Dev nD) : V5 m ρ c main_arg8 = m ((c : Thread nD τ).loc main_arg8) :=
  V5_of_not_written m ρ c main_arg8 (by decide)
theorem V5_arg9 (c : Dev nD) : V5 m ρ c main_arg9 = m ((c : Thread nD τ).loc main_arg9) :=
  V5_of_not_written m ρ c main_arg9 (by decide)
theorem V5_arg10 (c : Dev nD) : V5 m ρ c main_arg10 = m ((c : Thread nD τ).loc main_arg10) :=
  V5_of_not_written m ρ c main_arg10 (by decide)
theorem V5_arg11 (c : Dev nD) : V5 m ρ c main_arg11 = m ((c : Thread nD τ).loc main_arg11) :=
  V5_of_not_written m ρ c main_arg11 (by decide)
theorem V5_arg12 (c : Dev nD) : V5 m ρ c main_arg12 = m ((c : Thread nD τ).loc main_arg12) :=
  V5_of_not_written m ρ c main_arg12 (by decide)

/-! ## The arrays the regions read -/

/-- The first hidden weight on entry: quantized, transposed to 2048 x 4096, in the narrower format. -/
theorem V5_v67 (c : Dev nD) :
    V5 m ρ c main_v67 = truncf .bf16 (transpose S2048x4096 [1, 0] (Q1 (m ((c : Thread nD τ).loc main_arg1)))
      transposes_S4096x2048_S2048x4096_1_0) bitsLt_bf16_f32 := by
  show StableHlo.after hostOps0_4 (StableHlo.after hostOps0_3 (StableHlo.after hostOps0_2 (StableHlo.after hostOps0_1
    (StableHlo.after hostOps0 (W0 m ρ c))))) (Proc.devRef .tc main_v67) = _
  simp only [hostOps0_4, hostOps0_3, hostOps0_2, hostOps0_1, hostOps0]
  after_results_simp
  rfl

/-- The second hidden weight on entry: quantized, transposed, in the narrower format. -/
theorem V5_v69 (c : Dev nD) :
    V5 m ρ c main_v69 = truncf .bf16 (transpose S4096x4096 [1, 0] (Q2 (m ((c : Thread nD τ).loc main_arg3)))
      transposes_S4096x4096_S4096x4096_1_0) bitsLt_bf16_f32 := by
  show StableHlo.after hostOps0_4 (StableHlo.after hostOps0_3 (StableHlo.after hostOps0_2 (StableHlo.after hostOps0_1
    (StableHlo.after hostOps0 (W0 m ρ c))))) (Proc.devRef .tc main_v69) = _
  simp only [hostOps0_4, hostOps0_3, hostOps0_2, hostOps0_1, hostOps0]
  after_results_simp
  rfl

/-- The first hidden bias on entry, as one row. -/
theorem V5_v78 (c : Dev nD) :
    V5 m ρ c main_v78 = shapeCast S1x4096 (m ((c : Thread nD τ).loc main_arg2)) shapeCasts_S4096_S1x4096 := by
  show StableHlo.after hostOps0_4 (StableHlo.after hostOps0_3 (StableHlo.after hostOps0_2 (StableHlo.after hostOps0_1
    (StableHlo.after hostOps0 (W0 m ρ c))))) (Proc.devRef .tc main_v78) = _
  simp only [hostOps0_4, hostOps0_3, hostOps0_2, hostOps0_1, hostOps0]
  after_results_simp
  rfl

/-- The second hidden bias on entry, as one row. -/
theorem V5_v79 (c : Dev nD) :
    V5 m ρ c main_v79 = shapeCast S1x4096 (m ((c : Thread nD τ).loc main_arg4)) shapeCasts_S4096_S1x4096 := by
  show StableHlo.after hostOps0_4 (StableHlo.after hostOps0_3 (StableHlo.after hostOps0_2 (StableHlo.after hostOps0_1
    (StableHlo.after hostOps0 (W0 m ρ c))))) (Proc.devRef .tc main_v79) = _
  simp only [hostOps0_4, hostOps0_3, hostOps0_2, hostOps0_1, hostOps0]
  after_results_simp
  rfl

/-! ## The head weight

The operations that build it read the stacked array, which is a four-operand operation's result. Its contents are read
in three steps: the buffers after the 89 operations before the stacking; the stacking and the three operations after
it; the padding, the transposition and the change of format. -/

/-- A core's buffers after the 89 operations that precede the stacking of the head weight. -/
def Wpre (c : Dev nD) : Valuation τ sig (Elt F) :=
  StableHlo.after ((hostOps0 (F := F)).take 89) (W0 m ρ c)

/-- The first stretch is those 89 operations followed by the remaining four. -/
theorem W1_split (c : Dev nD) :
    W1 m ρ c = StableHlo.after ((hostOps0 (F := F)).drop 89) (Wpre m ρ c) :=
  calc StableHlo.after hostOps0 (W0 m ρ c)
    _ = StableHlo.after ((hostOps0 (F := F)).take 89 ++ (hostOps0 (F := F)).drop 89) (W0 m ρ c) := by
          rw [List.take_append_drop]
    _ = _ := StableHlo.after_append _ _ _

/-- The quantized direction heads as 18 rows. -/
theorem Wpre_v70 (c : Dev nD) :
    Wpre m ρ c (Proc.devRef .tc main_v70)
      = shapeCast S18x4096 (Q5 (m ((c : Thread nD τ).loc main_arg5))) shapeCasts_S6x3x4096_S18x4096 := by
  unfold Wpre
  simp only [hostOps0, List.take_succ_cons, List.take_zero]
  after_results_simp
  rfl
theorem Wpre_arg7 (c : Dev nD) : Wpre m ρ c (Proc.devRef .tc main_arg7) = m ((c : Thread nD τ).loc main_arg7) := by
  unfold Wpre
  simp only [hostOps0, List.take_succ_cons, List.take_zero]
  after_results_simp
theorem Wpre_arg9 (c : Dev nD) : Wpre m ρ c (Proc.devRef .tc main_arg9) = m ((c : Thread nD τ).loc main_arg9) := by
  unfold Wpre
  simp only [hostOps0, List.take_succ_cons, List.take_zero]
  after_results_simp
theorem Wpre_arg11 (c : Dev nD) : Wpre m ρ c (Proc.devRef .tc main_arg11) = m ((c : Thread nD τ).loc main_arg11) := by
  unfold Wpre
  simp only [hostOps0, List.take_succ_cons, List.take_zero]
  after_results_simp

/-- The last four operations of the first stretch, from any contents: the stacked weight is the concatenation of the
    four buffers it reads. -/
theorem stack_of (V : Valuation τ sig (Elt F)) :
    StableHlo.after ((hostOps0 (F := F)).drop 89) V (Proc.devRef .tc main_v71)
      = concatenate S1044x4096 0
      [⟨S18x4096, V (Proc.devRef .tc main_v70)⟩, ⟨S1024x4096, V (Proc.devRef .tc main_arg7)⟩, ⟨S1x4096, V (Proc.devRef .tc main_arg9)⟩, ⟨S1x4096, V (Proc.devRef .tc main_arg11)⟩]
      concatenates_S18x4096_S1024x4096_S1x4096_S1x4096_S1044x4096_d0 := by
  simp only [hostOps0, List.drop_succ_cons, List.drop_zero]
  after_results
  rfl

/-- The stacked head weight before padding. -/
theorem W1_v71 (c : Dev nD) :
    W1 m ρ c (Proc.devRef .tc main_v71)
      = concatenate S1044x4096 0
      [⟨S18x4096, shapeCast S18x4096 (Q5 (m ((c : Thread nD τ).loc main_arg5))) shapeCasts_S6x3x4096_S18x4096⟩, ⟨S1024x4096, m ((c : Thread nD τ).loc main_arg7)⟩, ⟨S1x4096, m ((c : Thread nD τ).loc main_arg9)⟩, ⟨S1x4096, m ((c : Thread nD τ).loc main_arg11)⟩]
      concatenates_S18x4096_S1024x4096_S1x4096_S1x4096_S1044x4096_d0 := by
  rw [W1_split, stack_of, Wpre_v70, Wpre_arg7, Wpre_arg9, Wpre_arg11]

/-- The four later stretches, from any contents: the head weight on entry is the stacked weight padded, transposed and
    changed in format. -/
theorem wall_of (V : Valuation τ sig (Elt F)) :
    StableHlo.after hostOps0_4 (StableHlo.after hostOps0_3 (StableHlo.after hostOps0_2 (StableHlo.after hostOps0_1 V)))
        (Proc.devRef .tc main_v77)
      = truncf .bf16 (transpose S4096x1152 [1, 0]
          (pad S1152x4096 ![0, 0] ![108, 0] ![0, 0] (V (Proc.devRef .tc main_v71))
            (sitofp .f32 (V (Proc.devRef .tc main_c))) pads_S1044x4096_S1152x4096_01080_000 h_S_)
          transposes_S1152x4096_S4096x1152_1_0) bitsLt_bf16_f32 := by
  simp only [hostOps0_4, hostOps0_3, hostOps0_2, hostOps0_1]
  after_results_simp
  rfl

/-- The padding constant. -/
theorem W1_c (c : Dev nD) : W1 m ρ c (Proc.devRef .tc main_c) = constantI S_ 32 0#32 := by
  show StableHlo.after hostOps0 (W0 m ρ c) (Proc.devRef .tc main_c) = _
  simp only [hostOps0]
  after_results_simp

/-- The head weight on entry: the quantized direction heads as 18 rows over the anchor, progress and critic rows,
    padded below with zeros to 1152 rows, transposed to 4096 x 1152, in the narrower format. -/
theorem V5_v77_gen (c : Dev nD) :
    V5 m ρ c main_v77 = truncf .bf16 (transpose S4096x1152 [1, 0]
      (pad S1152x4096 ![0, 0] ![108, 0] ![0, 0]
        (concatenate S1044x4096 0
      [⟨S18x4096, shapeCast S18x4096 (Q5 (m ((c : Thread nD τ).loc main_arg5))) shapeCasts_S6x3x4096_S18x4096⟩, ⟨S1024x4096, m ((c : Thread nD τ).loc main_arg7)⟩, ⟨S1x4096, m ((c : Thread nD τ).loc main_arg9)⟩, ⟨S1x4096, m ((c : Thread nD τ).loc main_arg11)⟩]
      concatenates_S18x4096_S1024x4096_S1x4096_S1x4096_S1044x4096_d0)
        (sitofp .f32 (constantI S_ 32 0#32)) pads_S1044x4096_S1152x4096_01080_000 h_S_)
      transposes_S1152x4096_S4096x1152_1_0) bitsLt_bf16_f32 := by
  show StableHlo.after hostOps0_4 (StableHlo.after hostOps0_3 (StableHlo.after hostOps0_2 (StableHlo.after hostOps0_1
    (W1 m ρ c)))) (Proc.devRef .tc main_v77) = _
  rw [wall_of, W1_v71, W1_c]

/-! ## The head bias -/

/-- The head bias on entry: the direction biases as 18 entries over the anchor, progress and critic biases, padded
    with zeros to 1152 entries, as one row. -/
theorem V5_v80_gen (c : Dev nD) :
    V5 m ρ c main_v80 = shapeCast S1x1152
      (pad S1152 ![0] ![108] ![0]
        (concatenate S1044 0
          [⟨S18, shapeCast S18 (m ((c : Thread nD τ).loc main_arg6)) shapeCasts_S6x3_S18⟩,
           ⟨S1024, m ((c : Thread nD τ).loc main_arg8)⟩, ⟨S1, m ((c : Thread nD τ).loc main_arg10)⟩, ⟨S1, m ((c : Thread nD τ).loc main_arg12)⟩]
          concatenates_S18_S1024_S1_S1_S1044_d0)
        (sitofp .f32 (constantI S_ 32 0#32)) pads_S1044_S1152_01080 h_S_)
      shapeCasts_S1152_S1x1152 := by
  show StableHlo.after hostOps0_4 (StableHlo.after hostOps0_3 (StableHlo.after hostOps0_2 (StableHlo.after hostOps0_1
    (StableHlo.after hostOps0 (W0 m ρ c))))) (Proc.devRef .tc main_v80) = _
  simp only [hostOps0_4, hostOps0_3, hostOps0_2, hostOps0_1, hostOps0]
  after_results_simp
  rfl

end Cert.KernelIdeal.Hand

namespace Cert.KernelIdeal.Hand

open Cert.KernelIdeal Cert.KernelIdeal.Gen
open Idealize.ShloMosaic Idealize.ShloMosaic.TcCoe
open Idealize.SL Idealize.SL.Sem

/-! ## On the extended reals: the head operands by name -/

section OnIdeal

variable (m : (ℓ : Loc nD τ sig) → Buf (Elt Ideal) ℓ) (ρ : Dev nD → PrngReg)

/-- The head weight on entry is the stacked, padded, transposed weight of the quantized direction heads and the three
    other head weights. -/
theorem V5_v77 (c : Dev nD) :
    V5 (F := Ideal) m ρ c main_v77
      = wallT (Q5 (F := Ideal) (m ((c : Thread nD τ).loc main_arg5))) (m ((c : Thread nD τ).loc main_arg7)) (m ((c : Thread nD τ).loc main_arg9)) (m ((c : Thread nD τ).loc main_arg11)) :=
  V5_v77_gen (F := Ideal) m ρ c

/-- The head bias on entry is the stacked, padded bias row. -/
theorem V5_v80 (c : Dev nD) :
    V5 (F := Ideal) m ρ c main_v80
      = ballRow (m ((c : Thread nD τ).loc main_arg6)) (m ((c : Thread nD τ).loc main_arg8)) (m ((c : Thread nD τ).loc main_arg10)) (m ((c : Thread nD τ).loc main_arg12)) :=
  V5_v80_gen (F := Ideal) m ρ c

end OnIdeal

end Cert.KernelIdeal.Hand

end
-- ==== Proof.KI.Pay.lean ====
/-
  The value each of the three kernels stores into its output block, read at one position.

  Each kernel multiplies a block of rows x by a whole weight w (already transposed, so that column q of w
  holds the weights of output q) and adds the bias row b. On the extended reals a change of float format is
  the identity and a product accumulated into zero is the plain sum, so the stored value at row p and column
  q is z = (sum over k of x(p,k) * w(k,q)) + b(0,q) for the head kernel, with the logistic function applied
  in column 1043 alone, and max(z, 0) for the two hidden layers.
-/
import proofs.«158892_j50087908606273_2_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Hand

open Cert.KernelIdeal Cert.KernelIdeal.Gen
open Idealize.ShloMosaic Idealize.ShloMosaic.ValueIdx

/-- Where the product of a [256,2048] block and a [2048,4096] weight reads its two operands: output position i and
    contraction position c read the block at (i 0, c) and the weight at (c, i 1). -/
theorem mm0_at_lhs_0 (i : S256x4096.Idx) (c : dot_S256x2048_S2048x4096_S256x4096_1_0_0_1_n_n.contr.Idx) :
    (dot_S256x2048_S2048x4096_S256x4096_1_0_0_1_n_n.lhsIdx i c 0).val = (i 0).val := by
  unfold DotDims.lhsIdx
  rw [dif_neg (show ¬(0 : Fin S256x2048.rank) ∈ dot_S256x2048_S2048x4096_S256x4096_1_0_0_1_n_n.lhsBatch by decide), dif_pos (show (0 : Fin S256x2048.rank) ∈ dot_S256x2048_S2048x4096_S256x4096_1_0_0_1_n_n.lhsNonContracting by decide)]
  rfl
theorem mm0_at_lhs_1 (i : S256x4096.Idx) (c : dot_S256x2048_S2048x4096_S256x4096_1_0_0_1_n_n.contr.Idx) :
    (dot_S256x2048_S2048x4096_S256x4096_1_0_0_1_n_n.lhsIdx i c 1).val = (c ⟨0, by decide⟩).val :=
  dot_S256x2048_S2048x4096_S256x4096_1_0_0_1_n_n.lhsIdx_val_of_single rfl i c
theorem mm0_at_rhs_0 (i : S256x4096.Idx) (c : dot_S256x2048_S2048x4096_S256x4096_1_0_0_1_n_n.contr.Idx) :
    (dot_S256x2048_S2048x4096_S256x4096_1_0_0_1_n_n.rhsIdx i c 0).val = (c ⟨0, by decide⟩).val :=
  dot_S256x2048_S2048x4096_S256x4096_1_0_0_1_n_n.rhsIdx_val_of_single rfl i c
theorem mm0_at_rhs_1 (i : S256x4096.Idx) (c : dot_S256x2048_S2048x4096_S256x4096_1_0_0_1_n_n.contr.Idx) :
    (dot_S256x2048_S2048x4096_S256x4096_1_0_0_1_n_n.rhsIdx i c 1).val = (i 1).val := by
  unfold DotDims.rhsIdx
  rw [dif_neg (show ¬(1 : Fin S2048x4096.rank) ∈ dot_S256x2048_S2048x4096_S256x4096_1_0_0_1_n_n.rhsBatch by decide), dif_pos (show (1 : Fin S2048x4096.rank) ∈ dot_S256x2048_S2048x4096_S256x4096_1_0_0_1_n_n.rhsNonContracting by decide)]
  rfl

/-- That product, accumulated into zero, at row p and column q: the sum over the 2048 positions k of the block's
    (p,k) times the weight's (k,q). -/
theorem mm0_at (a : FVec Ideal S256x2048 .bf16) (b : FVec Ideal S2048x4096 .bf16) (p : Fin 256) (q : Fin 4096) :
    matmul dot_S256x2048_S2048x4096_S256x4096_1_0_0_1_n_n none a b (constant S256x4096 .f32 0x00000000#32) (ix2 p q)
      = ∑ k : Fin 2048, a (ix2 p k) * b (ix2 k q) := by
  simp only [matmul]
  rw [Ideal.matmul_constant_zero_apply, ← Equiv.sum_comp (contrEquiv1 dot_S256x2048_S2048x4096_S256x4096_1_0_0_1_n_n 2048 rfl rfl).symm]
  refine Finset.sum_congr rfl fun k _ => ?_
  have hk := contrEquiv1_symm_val dot_S256x2048_S2048x4096_S256x4096_1_0_0_1_n_n 2048 rfl rfl k
  have el : dot_S256x2048_S2048x4096_S256x4096_1_0_0_1_n_n.lhsIdx (ix2 p q) ((contrEquiv1 dot_S256x2048_S2048x4096_S256x4096_1_0_0_1_n_n 2048 rfl rfl).symm k) = ix2 p k := funext fun ax => Fin.ext (by
    match ax with
    | ⟨0, _⟩ => exact mm0_at_lhs_0 _ _
    | ⟨1, _⟩ => exact (mm0_at_lhs_1 _ _).trans hk)
  have er : dot_S256x2048_S2048x4096_S256x4096_1_0_0_1_n_n.rhsIdx (ix2 p q) ((contrEquiv1 dot_S256x2048_S2048x4096_S256x4096_1_0_0_1_n_n 2048 rfl rfl).symm k) = ix2 k q := funext fun ax => Fin.ext (by
    match ax with
    | ⟨0, _⟩ => exact (mm0_at_rhs_0 _ _).trans hk
    | ⟨1, _⟩ => exact mm0_at_rhs_1 _ _)
  rw [el, er]

/-- Where the product of a [64,4096] block and a [4096,4096] weight reads its two operands: output position i and
    contraction position c read the block at (i 0, c) and the weight at (c, i 1). -/
theorem mm1_at_lhs_0 (i : S64x4096.Idx) (c : dot_S64x4096_S4096x4096_S64x4096_1_0_0_1_n_n.contr.Idx) :
    (dot_S64x4096_S4096x4096_S64x4096_1_0_0_1_n_n.lhsIdx i c 0).val = (i 0).val := by
  unfold DotDims.lhsIdx
  rw [dif_neg (show ¬(0 : Fin S64x4096.rank) ∈ dot_S64x4096_S4096x4096_S64x4096_1_0_0_1_n_n.lhsBatch by decide), dif_pos (show (0 : Fin S64x4096.rank) ∈ dot_S64x4096_S4096x4096_S64x4096_1_0_0_1_n_n.lhsNonContracting by decide)]
  rfl
theorem mm1_at_lhs_1 (i : S64x4096.Idx) (c : dot_S64x4096_S4096x4096_S64x4096_1_0_0_1_n_n.contr.Idx) :
    (dot_S64x4096_S4096x4096_S64x4096_1_0_0_1_n_n.lhsIdx i c 1).val = (c ⟨0, by decide⟩).val :=
  dot_S64x4096_S4096x4096_S64x4096_1_0_0_1_n_n.lhsIdx_val_of_single rfl i c
theorem mm1_at_rhs_0 (i : S64x4096.Idx) (c : dot_S64x4096_S4096x4096_S64x4096_1_0_0_1_n_n.contr.Idx) :
    (dot_S64x4096_S4096x4096_S64x4096_1_0_0_1_n_n.rhsIdx i c 0).val = (c ⟨0, by decide⟩).val :=
  dot_S64x4096_S4096x4096_S64x4096_1_0_0_1_n_n.rhsIdx_val_of_single rfl i c
theorem mm1_at_rhs_1 (i : S64x4096.Idx) (c : dot_S64x4096_S4096x4096_S64x4096_1_0_0_1_n_n.contr.Idx) :
    (dot_S64x4096_S4096x4096_S64x4096_1_0_0_1_n_n.rhsIdx i c 1).val = (i 1).val := by
  unfold DotDims.rhsIdx
  rw [dif_neg (show ¬(1 : Fin S4096x4096.rank) ∈ dot_S64x4096_S4096x4096_S64x4096_1_0_0_1_n_n.rhsBatch by decide), dif_pos (show (1 : Fin S4096x4096.rank) ∈ dot_S64x4096_S4096x4096_S64x4096_1_0_0_1_n_n.rhsNonContracting by decide)]
  rfl

/-- That product, accumulated into zero, at row p and column q: the sum over the 4096 positions k of the block's
    (p,k) times the weight's (k,q). -/
theorem mm1_at (a : FVec Ideal S64x4096 .bf16) (b : FVec Ideal S4096x4096 .bf16) (p : Fin 64) (q : Fin 4096) :
    matmul dot_S64x4096_S4096x4096_S64x4096_1_0_0_1_n_n none a b (constant S64x4096 .f32 0x00000000#32) (ix2 p q)
      = ∑ k : Fin 4096, a (ix2 p k) * b (ix2 k q) := by
  simp only [matmul]
  rw [Ideal.matmul_constant_zero_apply, ← Equiv.sum_comp (contrEquiv1 dot_S64x4096_S4096x4096_S64x4096_1_0_0_1_n_n 4096 rfl rfl).symm]
  refine Finset.sum_congr rfl fun k _ => ?_
  have hk := contrEquiv1_symm_val dot_S64x4096_S4096x4096_S64x4096_1_0_0_1_n_n 4096 rfl rfl k
  have el : dot_S64x4096_S4096x4096_S64x4096_1_0_0_1_n_n.lhsIdx (ix2 p q) ((contrEquiv1 dot_S64x4096_S4096x4096_S64x4096_1_0_0_1_n_n 4096 rfl rfl).symm k) = ix2 p k := funext fun ax => Fin.ext (by
    match ax with
    | ⟨0, _⟩ => exact mm1_at_lhs_0 _ _
    | ⟨1, _⟩ => exact (mm1_at_lhs_1 _ _).trans hk)
  have er : dot_S64x4096_S4096x4096_S64x4096_1_0_0_1_n_n.rhsIdx (ix2 p q) ((contrEquiv1 dot_S64x4096_S4096x4096_S64x4096_1_0_0_1_n_n 4096 rfl rfl).symm k) = ix2 k q := funext fun ax => Fin.ext (by
    match ax with
    | ⟨0, _⟩ => exact (mm1_at_rhs_0 _ _).trans hk
    | ⟨1, _⟩ => exact mm1_at_rhs_1 _ _)
  rw [el, er]

/-- Where the product of a [512,4096] block and a [4096,1152] weight reads its two operands: output position i and
    contraction position c read the block at (i 0, c) and the weight at (c, i 1). -/
theorem mm2_at_lhs_0 (i : S512x1152.Idx) (c : dot_S512x4096_S4096x1152_S512x1152_1_0_0_1_n_n.contr.Idx) :
    (dot_S512x4096_S4096x1152_S512x1152_1_0_0_1_n_n.lhsIdx i c 0).val = (i 0).val := by
  unfold DotDims.lhsIdx
  rw [dif_neg (show ¬(0 : Fin S512x4096.rank) ∈ dot_S512x4096_S4096x1152_S512x1152_1_0_0_1_n_n.lhsBatch by decide), dif_pos (show (0 : Fin S512x4096.rank) ∈ dot_S512x4096_S4096x1152_S512x1152_1_0_0_1_n_n.lhsNonContracting by decide)]
  rfl
theorem mm2_at_lhs_1 (i : S512x1152.Idx) (c : dot_S512x4096_S4096x1152_S512x1152_1_0_0_1_n_n.contr.Idx) :
    (dot_S512x4096_S4096x1152_S512x1152_1_0_0_1_n_n.lhsIdx i c 1).val = (c ⟨0, by decide⟩).val :=
  dot_S512x4096_S4096x1152_S512x1152_1_0_0_1_n_n.lhsIdx_val_of_single rfl i c
theorem mm2_at_rhs_0 (i : S512x1152.Idx) (c : dot_S512x4096_S4096x1152_S512x1152_1_0_0_1_n_n.contr.Idx) :
    (dot_S512x4096_S4096x1152_S512x1152_1_0_0_1_n_n.rhsIdx i c 0).val = (c ⟨0, by decide⟩).val :=
  dot_S512x4096_S4096x1152_S512x1152_1_0_0_1_n_n.rhsIdx_val_of_single rfl i c
theorem mm2_at_rhs_1 (i : S512x1152.Idx) (c : dot_S512x4096_S4096x1152_S512x1152_1_0_0_1_n_n.contr.Idx) :
    (dot_S512x4096_S4096x1152_S512x1152_1_0_0_1_n_n.rhsIdx i c 1).val = (i 1).val := by
  unfold DotDims.rhsIdx
  rw [dif_neg (show ¬(1 : Fin S4096x1152.rank) ∈ dot_S512x4096_S4096x1152_S512x1152_1_0_0_1_n_n.rhsBatch by decide), dif_pos (show (1 : Fin S4096x1152.rank) ∈ dot_S512x4096_S4096x1152_S512x1152_1_0_0_1_n_n.rhsNonContracting by decide)]
  rfl

/-- That product, accumulated into zero, at row p and column q: the sum over the 4096 positions k of the block's
    (p,k) times the weight's (k,q). -/
theorem mm2_at (a : FVec Ideal S512x4096 .bf16) (b : FVec Ideal S4096x1152 .bf16) (p : Fin 512) (q : Fin 1152) :
    matmul dot_S512x4096_S4096x1152_S512x1152_1_0_0_1_n_n none a b (constant S512x1152 .f32 0x00000000#32) (ix2 p q)
      = ∑ k : Fin 4096, a (ix2 p k) * b (ix2 k q) := by
  simp only [matmul]
  rw [Ideal.matmul_constant_zero_apply, ← Equiv.sum_comp (contrEquiv1 dot_S512x4096_S4096x1152_S512x1152_1_0_0_1_n_n 4096 rfl rfl).symm]
  refine Finset.sum_congr rfl fun k _ => ?_
  have hk := contrEquiv1_symm_val dot_S512x4096_S4096x1152_S512x1152_1_0_0_1_n_n 4096 rfl rfl k
  have el : dot_S512x4096_S4096x1152_S512x1152_1_0_0_1_n_n.lhsIdx (ix2 p q) ((contrEquiv1 dot_S512x4096_S4096x1152_S512x1152_1_0_0_1_n_n 4096 rfl rfl).symm k) = ix2 p k := funext fun ax => Fin.ext (by
    match ax with
    | ⟨0, _⟩ => exact mm2_at_lhs_0 _ _
    | ⟨1, _⟩ => exact (mm2_at_lhs_1 _ _).trans hk)
  have er : dot_S512x4096_S4096x1152_S512x1152_1_0_0_1_n_n.rhsIdx (ix2 p q) ((contrEquiv1 dot_S512x4096_S4096x1152_S512x1152_1_0_0_1_n_n 4096 rfl rfl).symm k) = ix2 k q := funext fun ax => Fin.ext (by
    match ax with
    | ⟨0, _⟩ => exact (mm2_at_rhs_0 _ _).trans hk
    | ⟨1, _⟩ => exact mm2_at_rhs_1 _ _)
  rw [el, er]

/-- The first hidden layer's stored value at row p and column q. -/
theorem pay0_at (x0 : Vec Ideal S256x2048 .f32) (x1 : Vec Ideal S2048x4096 .bf16) (x2 : Vec Ideal S1x4096 .f32) (p : Fin 256) (q : Fin 4096) :
    Gen.k0_pay1 (F := Ideal) x0 x1 x2 (ix2 p q)
      = max ((∑ k : Fin 2048, x0 (ix2 p k) * x1 (ix2 k q)) + x2 (ix2 0 q)) 0 := by
  unfold Gen.k0_pay1
  simp only [shapeCast_self]
  rw [truncf_apply, maximumf_apply, addf_apply, broadcast_apply, mm0_at, broadcastTo_1b_ab_apply]
  simp only [Scalar.ofBits, Ideal.ofBits_zero_f32]
  rfl

/-- The second hidden layer's stored value at row p and column q. -/
theorem pay1_at (x0 : Vec Ideal S64x4096 .bf16) (x1 : Vec Ideal S4096x4096 .bf16) (x2 : Vec Ideal S1x4096 .f32) (p : Fin 64) (q : Fin 4096) :
    Gen.k1_pay1 (F := Ideal) x0 x1 x2 (ix2 p q)
      = max ((∑ k : Fin 4096, x0 (ix2 p k) * x1 (ix2 k q)) + x2 (ix2 0 q)) 0 := by
  unfold Gen.k1_pay1
  simp only [shapeCast_self]
  rw [truncf_apply, maximumf_apply, addf_apply, broadcast_apply, mm1_at, broadcastTo_1b_ab_apply]
  simp only [Scalar.ofBits, Ideal.ofBits_zero_f32]

/-- The comparison of a column number below 1152, as a 32-bit word, with the word 1043 answers the bit 1 exactly at
    column 1043. -/
theorem col_is_1043 (q : Fin 1152) :
    IntOp.cmpi .eq (BitVec.ofNat 32 q.val) 1043#32 = if q.val = 1043 then 1#1 else 0#1 := by
  unfold IntOp.cmpi
  by_cases h : q.val = 1043
  · rw [if_pos h, h]; rfl
  · rw [if_neg h]
    have hne : (BitVec.ofNat 32 q.val == 1043#32) = false := by
      rw [beq_eq_false_iff_ne]
      intro he
      have h2 := congrArg BitVec.toNat he
      rw [BitVec.toNat_ofNat] at h2
      have hq := q.isLt
      have h3 : (1043#32 : BitVec 32).toNat = 1043 := rfl
      rw [h3] at h2
      omega
    simp only [hne]; rfl

/-- The head kernel's stored value at row p and column q: the affine value, through the logistic function in
    column 1043 alone. -/
theorem pay2_at (x0 : Vec Ideal S512x4096 .bf16) (x1 : Vec Ideal S4096x1152 .bf16) (x2 : Vec Ideal S1x1152 .f32) (p : Fin 512) (q : Fin 1152) :
    Gen.k2_pay1 (F := Ideal) x0 x1 x2 (ix2 p q)
      = if q.val = 1043 then Ideal.logistic ((∑ k : Fin 4096, x0 (ix2 p k) * x1 (ix2 k q)) + x2 (ix2 0 q))
        else (∑ k : Fin 4096, x0 (ix2 p k) * x1 (ix2 k q)) + x2 (ix2 0 q) := by
  unfold Gen.k2_pay1
  simp only [shapeCast_self]
  rw [select_apply]
  have hc : cmpi .eq (iota .tc S512x1152 32 [1] iota_S512x1152_d1_w32) (broadcast S512x1152 1043#32) (ix2 p q)
      = if q.val = 1043 then 1#1 else 0#1 := by
    show IntOp.cmpi .eq (iota .tc S512x1152 32 [1] iota_S512x1152_d1_w32 (ix2 p q)) 1043#32 = _
    rw [iota_single_apply]
    exact col_is_1043 q
  rw [hc]
  simp only [logistic, Ideal.logistic_def]
  rw [addf_apply, mm2_at, broadcastTo_1b_ab_apply]
  by_cases h : q.val = 1043
  · rw [if_pos h, if_pos h, select_one]
  · rw [if_neg h, if_neg h, select_zero]

end Cert.KernelIdeal.Hand

end
-- ==== Proof.KI.GDefs.lean ====
/-
  What each of the three launched regions of the kernel program writes, as one function of its three
  whole input arrays, element by element on the extended reals.

  A region takes an activation array (one row per sample), a weight array already transposed so that
  its rows are indexed by the contracted coordinate, and a bias laid out as a single row. The entry at
  row r and column q of its output is the sum over k of activation(r, k) · weight(k, q), plus bias(0, q).
  The first two regions clip that below at zero; the third passes column 1043 alone through the
  logistic function 1/(1+e^(-z)) and leaves every other column as it is.

  The definitions read the two coordinates off the index, so that at the index (r, q) each of them is
  the displayed formula.
-/
import proofs.«158892_j50087908606273_2_alg».proof.KernelIdeal
import Idealize.ShloMosaic.Lib.ValueIdx
import Idealize.ShloMosaic.PureOps.Ideal

noncomputable section

namespace Cert.KernelIdeal.Hand

open Cert.KernelIdeal Idealize.ShloMosaic Idealize.ShloMosaic.ValueIdx

/-- First region: samples [8192, 2048] against the transposed first weight [2048, 4096] and the bias row
    [1, 4096], clipped below at zero. -/
def G0 (x : FVec Ideal S8192x2048 .f32) (w : FVec Ideal S2048x4096 .bf16) (b : FVec Ideal S1x4096 .f32) :
    FVec Ideal S8192x4096 .bf16 := fun i =>
  max ((∑ k : Fin 2048, (x (ix2 (⟨(i 0).val, idx2_lt0 i⟩ : Fin 8192) k) : EReal)
          * (w (ix2 k (⟨(i 1).val, idx2_lt1 i⟩ : Fin 4096)) : EReal))
        + (b (ix2 (0 : Fin 1) (⟨(i 1).val, idx2_lt1 i⟩ : Fin 4096)) : EReal)) 0

/-- The first region's output at row r, column q. -/
theorem G0_at (x : FVec Ideal S8192x2048 .f32) (w : FVec Ideal S2048x4096 .bf16) (b : FVec Ideal S1x4096 .f32)
    (r : Fin 8192) (q : Fin 4096) :
    G0 x w b (ix2 r q)
      = max ((∑ k : Fin 2048, (x (ix2 r k) : EReal) * (w (ix2 k q) : EReal)) + (b (ix2 (0 : Fin 1) q) : EReal)) 0 :=
  rfl

/-- Second region: the first hidden layer [8192, 4096] against the transposed second weight [4096, 4096]
    and the bias row [1, 4096], clipped below at zero. -/
def G1 (h : FVec Ideal S8192x4096 .bf16) (w : FVec Ideal S4096x4096 .bf16) (b : FVec Ideal S1x4096 .f32) :
    FVec Ideal S8192x4096 .bf16 := fun i =>
  max ((∑ k : Fin 4096, (h (ix2 (⟨(i 0).val, idx2_lt0 i⟩ : Fin 8192) k) : EReal)
          * (w (ix2 k (⟨(i 1).val, idx2_lt1 i⟩ : Fin 4096)) : EReal))
        + (b (ix2 (0 : Fin 1) (⟨(i 1).val, idx2_lt1 i⟩ : Fin 4096)) : EReal)) 0

/-- The second region's output at row r, column q. -/
theorem G1_at (h : FVec Ideal S8192x4096 .bf16) (w : FVec Ideal S4096x4096 .bf16) (b : FVec Ideal S1x4096 .f32)
    (r : Fin 8192) (q : Fin 4096) :
    G1 h w b (ix2 r q)
      = max ((∑ k : Fin 4096, (h (ix2 r k) : EReal) * (w (ix2 k q) : EReal)) + (b (ix2 (0 : Fin 1) q) : EReal)) 0 :=
  rfl

/-- Third region: the second hidden layer [8192, 4096] against the transposed, padded head weight
    [4096, 1152] and the padded head bias row [1, 1152]; column 1043 through the logistic function. -/
def G2 (h : FVec Ideal S8192x4096 .bf16) (w : FVec Ideal S4096x1152 .bf16) (b : FVec Ideal S1x1152 .f32) :
    FVec Ideal S8192x1152 .f32 := fun i =>
  if (i 1).val = 1043 then
    Ideal.logistic
      ((∑ k : Fin 4096, (h (ix2 (⟨(i 0).val, idx2_lt0 i⟩ : Fin 8192) k) : EReal)
          * (w (ix2 k (⟨(i 1).val, idx2_lt1 i⟩ : Fin 1152)) : EReal))
        + (b (ix2 (0 : Fin 1) (⟨(i 1).val, idx2_lt1 i⟩ : Fin 1152)) : EReal))
  else
    (∑ k : Fin 4096, (h (ix2 (⟨(i 0).val, idx2_lt0 i⟩ : Fin 8192) k) : EReal)
        * (w (ix2 k (⟨(i 1).val, idx2_lt1 i⟩ : Fin 1152)) : EReal))
      + (b (ix2 (0 : Fin 1) (⟨(i 1).val, idx2_lt1 i⟩ : Fin 1152)) : EReal)

/-- The third region's output at row r, column q. -/
theorem G2_at (h : FVec Ideal S8192x4096 .bf16) (w : FVec Ideal S4096x1152 .bf16) (b : FVec Ideal S1x1152 .f32)
    (r : Fin 8192) (q : Fin 1152) :
    G2 h w b (ix2 r q)
      = (if q.val = 1043 then
          Ideal.logistic ((∑ k : Fin 4096, (h (ix2 r k) : EReal) * (w (ix2 k q) : EReal)) + (b (ix2 (0 : Fin 1) q) : EReal))
        else (∑ k : Fin 4096, (h (ix2 r k) : EReal) * (w (ix2 k q) : EReal)) + (b (ix2 (0 : Fin 1) q) : EReal)) :=
  rfl

end Cert.KernelIdeal.Hand

end
-- ==== Proof.KI.Final0.lean ====
/-
  The first hidden layer's region, from its blocks to the whole output array.

  Each of the region's 32 grid points writes back one block of 256 rows of the output. What a point stores is
  max(x·w + b, 0) computed on the block of activations it fetched, which is rows 256·t … 256·t + 255 of the activation
  array, against the whole weight and the whole bias row. So what point t writes back is block t of one function
  G0 of the three whole arrays, the same function at every point. The 32 blocks tile the 8192 rows (row r lies in
  block r / 256), hence after the last point the output array is G0 of the three arrays as the region found them.
-/
import proofs.«158892_j50087908606273_2_alg».proof.Proof.KI.Body0
import proofs.«158892_j50087908606273_2_alg».proof.Proof.KI.Pay
import proofs.«158892_j50087908606273_2_alg».proof.Proof.KI.GDefs
import Idealize.ShloMosaic.Lib.Pipeline.Value
import Idealize.ShloMosaic.Lib.ValueIdx

noncomputable section

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- Both offsets of a whole-buffer rectangle are zero. -/
theorem zero_off0 : (![0, 0] : Fin 2 → Nat) = fun _ => 0 := funext fun a => by fin_cases a <;> rfl

/-- Where each window's block sits at grid point t: the activation block and the output block are the t-th
    block of 256 rows, the weight and the bias row are fetched whole. -/
theorem block_index0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- One grid point's stored block is the matching block of rows of the whole output: if the activation block x0
    holds rows n·256 … n·256 + 255 of the array X, and the weight and bias blocks are the whole arrays, then
    the stored value at position j of the block is the whole output at the position i with row n·256 + (row of j)
    and the same column. -/
theorem stored_block0 (X : FVec Ideal S8192x2048 .f32) (W : FVec Ideal S2048x4096 .bf16) (B : FVec Ideal S1x4096 .f32)
    (x0 : Vec Ideal S256x2048 .f32) (x1 : Vec Ideal S2048x4096 .bf16) (x2 : Vec Ideal S1x4096 .f32) (n : ℕ)
    (h0 : ∀ (p : Fin 256) (k : Fin 2048) (r : Fin 8192), r.val = n * 256 + p.val → x0 (ix2 p k) = X (ix2 r k))
    (h1 : x1 = W) (h2 : x2 = B)
    (j : S256x4096.Idx) (i : S8192x4096.Idx) (hi0 : (i 0).val = n * 256 + (j 0).val) (hi1 : (i 1).val = (j 1).val) :
    Gen.k0_pay1 (F := Ideal) x0 x1 x2 j = G0 X W B i := by
  obtain ⟨p, q, rfl⟩ : ∃ (p : Fin 256) (q : Fin 4096), j = ix2 p q := ⟨j 0, j 1, eq_ix2 j⟩
  obtain ⟨r, s, rfl⟩ : ∃ (r : Fin 8192) (s : Fin 4096), i = ix2 r s := ⟨i 0, i 1, eq_ix2 i⟩
  have hr : r.val = n * 256 + p.val := hi0
  obtain rfl : s = q := Fin.ext hi1
  subst h1; subst h2
  rw [pay0_at, G0_at]
  have hs : ∀ k : Fin 2048, x0 (ix2 p k) = X (ix2 r k) := fun k => h0 p k r hr
  simp only [hs]

/-- What grid point t writes back is block t of the whole output computed from the three arrays as the region
    finds them: the activation block is rows t·256 … of its array, the other two blocks are their arrays. -/
theorem flushed0_eq (c : Dev nD) (t : Fin cfg0.N) :
    (dat0 (F := Ideal) V c).flushed 3 t
      = ((cfg0.win 3).blk t).view.read (Elt Ideal) (G0 (V c main_arg0) (V c main_v67) (V c main_v78)) := by
  show (cfg0.win 3).cut (grid0.coords t) ((dat0 V c).after 3 t) = _
  rw [after0_3]
  unfold out0_3
  rw [View.canon_unit_zero zero_off0]
  simp only [View.ld_unit_zero (S := S256x2048) zero_off0, View.ld_unit_zero (S := S2048x4096) zero_off0, View.ld_unit_zero (S := S1x4096) zero_off0]
  obtain ⟨e00, e01, e10, e11, e20, e21, e30, e31⟩ := block_index0 t
  funext j
  show Gen.k0_pay1 (F := Ideal) (iblk0 V c 0 t) (iblk0 V c 1 t) (iblk0 V c 2 t) j
    = G0 (V c main_arg0) (V c main_v67) (V c main_v78) (((cfg0.win 3).blk t).view.emb j)
  refine stored_block0 (V c main_arg0) (V c main_v67) (V c main_v78) _ _ _ t.val ?_ ?_ ?_ j _ ?_ ?_
  · intro p k r hr
    show V c main_arg0 (((cfg0.win 0).blk t).view.emb (ix2 p k)) = V c main_arg0 (ix2 r k)
    congr 1
    funext a; apply Fin.ext
    match a with
    | ⟨0, _⟩ => show win0_0.index t (0 : Fin 2) * 256 + 1 * p.val = r.val; rw [e00, hr]; omega
    | ⟨1, _⟩ => show win0_0.index t (1 : Fin 2) * 2048 + 1 * k.val = k.val; rw [e01]; omega
  · funext y
    show V c main_v67 (((cfg0.win 1).blk t).view.emb y) = V c main_v67 y
    congr 1
    funext a; apply Fin.ext
    match a with
    | ⟨0, _⟩ => show win0_1.index t (0 : Fin 2) * 2048 + 1 * (y 0).val = (y 0).val; rw [e10]; omega
    | ⟨1, _⟩ => show win0_1.index t (1 : Fin 2) * 4096 + 1 * (y 1).val = (y 1).val; rw [e11]; omega
  · funext y
    show V c main_v78 (((cfg0.win 2).blk t).view.emb y) = V c main_v78 y
    congr 1
    funext a; apply Fin.ext
    match a with
    | ⟨0, _⟩ => show win0_2.index t (0 : Fin 2) * 1 + 1 * (y 0).val = (y 0).val; rw [e20]; omega
    | ⟨1, _⟩ => show win0_2.index t (1 : Fin 2) * 4096 + 1 * (y 1).val = (y 1).val; rw [e21]; omega
  · show win0_3.index t (0 : Fin 2) * 256 + 1 * (j 0).val = t.val * 256 + (j 0).val; rw [e30]; omega
  · show win0_3.index t (1 : Fin 2) * 4096 + 1 * (j 1).val = (j 1).val; rw [e31]; omega

/-- An index of the output array is in point t's block iff each coordinate is in the block's range on its axis. -/
theorem mem_block0 (t : Fin cfg0.N) (i : S8192x4096.Idx) :
    i ∈ ((cfg0.win 3).blk t).view.set
      ↔ ∀ a : Fin 2, win0_3.index t a * S256x4096.size a ≤ (i a).val ∧ (i a).val < win0_3.index t a * S256x4096.size a + S256x4096.size a := by
  show i ∈ ((View.whole main_v81).slice (win0_3.rect t)).set ↔ _
  rw [View.set_slice_whole, Rect.mem_set_unit]
  exact Iff.rfl

/-- Every index of the output array is in some point's block: row r is in block r / 256. -/
theorem covered0 (i : S8192x4096.Idx) :
    ∃ t : Fin cfg0.N, (cfg0.win 3).flush t = true ∧ i ∈ ((cfg0.win 3).blk t).view.set := by
  have hN : grid0.N = 32 := N_0
  have hi0 : (i 0).val < 8192 := (i 0).isLt
  have hi1 : (i 1).val < 4096 := (i 1).isLt
  have ht : (i 0).val / 256 < cfg0.N := by show (i 0).val / 256 < grid0.N; rw [hN]; omega
  refine ⟨⟨(i 0).val / 256, ht⟩, flush0_3 _, ?_⟩
  obtain ⟨e00, e01, e10, e11, e20, e21, e30, e31⟩ := block_index0 ⟨(i 0).val / 256, ht⟩
  rw [mem_block0]
  intro a
  match a with
  | ⟨0, _⟩ =>
    show win0_3.index ⟨(i 0).val / 256, ht⟩ (0 : Fin 2) * 256 ≤ (i 0).val ∧ (i 0).val < win0_3.index ⟨(i 0).val / 256, ht⟩ (0 : Fin 2) * 256 + 256
    rw [e30]; show (i 0).val / 256 * 256 ≤ (i 0).val ∧ (i 0).val < (i 0).val / 256 * 256 + 256; omega
  | ⟨1, _⟩ =>
    show win0_3.index ⟨(i 0).val / 256, ht⟩ (1 : Fin 2) * 4096 ≤ (i 1).val ∧ (i 1).val < win0_3.index ⟨(i 0).val / 256, ht⟩ (1 : Fin 2) * 4096 + 4096
    rw [e31]; omega

/-- The region's output array after its 32 points is the whole output computed from the three arrays as the region
    finds them. -/
theorem final0 (c : Dev nD) :
    (dat0 (F := Ideal) V c).arrAt 3 cfg0.N = G0 (V c main_arg0) (V c main_v67) (V c main_v78) :=
  (dat0 (F := Ideal) V c).arrAt_eq_of_cover 3 (G0 (V c main_arg0) (V c main_v67) (V c main_v78)) (fun t _ => flushed0_eq V c t) covered0

end Cert.KernelIdeal.Hand

end
-- ==== Proof.KI.Final1.lean ====
/-
  The second hidden layer's region, from its blocks to the whole output array.

  Each of the region's 128 grid points writes back one block of 64 rows of the output. What a point stores is
  max(x·w + b, 0) computed on the block of activations it fetched, which is rows 64·t … 64·t + 63 of the activation
  array, against the whole weight and the whole bias row. So what point t writes back is block t of one function
  G1 of the three whole arrays, the same function at every point. The 128 blocks tile the 8192 rows (row r lies in
  block r / 64), hence after the last point the output array is G1 of the three arrays as the region found them.
-/
import proofs.«158892_j50087908606273_2_alg».proof.Proof.KI.Body1
import proofs.«158892_j50087908606273_2_alg».proof.Proof.KI.Pay
import proofs.«158892_j50087908606273_2_alg».proof.Proof.KI.GDefs
import Idealize.ShloMosaic.Lib.Pipeline.Value
import Idealize.ShloMosaic.Lib.ValueIdx

noncomputable section

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- Both offsets of a whole-buffer rectangle are zero. -/
theorem zero_off1 : (![0, 0] : Fin 2 → Nat) = fun _ => 0 := funext fun a => by fin_cases a <;> rfl

/-- Where each window's block sits at grid point t: the activation block and the output block are the t-th
    block of 64 rows, the weight and the bias row are fetched whole. -/
theorem block_index1 : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- One grid point's stored block is the matching block of rows of the whole output: if the activation block x0
    holds rows n·64 … n·64 + 63 of the array X, and the weight and bias blocks are the whole arrays, then
    the stored value at position j of the block is the whole output at the position i with row n·64 + (row of j)
    and the same column. -/
theorem stored_block1 (X : FVec Ideal S8192x4096 .bf16) (W : FVec Ideal S4096x4096 .bf16) (B : FVec Ideal S1x4096 .f32)
    (x0 : Vec Ideal S64x4096 .bf16) (x1 : Vec Ideal S4096x4096 .bf16) (x2 : Vec Ideal S1x4096 .f32) (n : ℕ)
    (h0 : ∀ (p : Fin 64) (k : Fin 4096) (r : Fin 8192), r.val = n * 64 + p.val → x0 (ix2 p k) = X (ix2 r k))
    (h1 : x1 = W) (h2 : x2 = B)
    (j : S64x4096.Idx) (i : S8192x4096.Idx) (hi0 : (i 0).val = n * 64 + (j 0).val) (hi1 : (i 1).val = (j 1).val) :
    Gen.k1_pay1 (F := Ideal) x0 x1 x2 j = G1 X W B i := by
  obtain ⟨p, q, rfl⟩ : ∃ (p : Fin 64) (q : Fin 4096), j = ix2 p q := ⟨j 0, j 1, eq_ix2 j⟩
  obtain ⟨r, s, rfl⟩ : ∃ (r : Fin 8192) (s : Fin 4096), i = ix2 r s := ⟨i 0, i 1, eq_ix2 i⟩
  have hr : r.val = n * 64 + p.val := hi0
  obtain rfl : s = q := Fin.ext hi1
  subst h1; subst h2
  rw [pay1_at, G1_at]
  have hs : ∀ k : Fin 4096, x0 (ix2 p k) = X (ix2 r k) := fun k => h0 p k r hr
  simp only [hs]

/-- What grid point t writes back is block t of the whole output computed from the three arrays as the region
    finds them: the activation block is rows t·64 … of its array, the other two blocks are their arrays. -/
theorem flushed1_eq (c : Dev nD) (t : Fin cfg1.N) :
    (dat1 (F := Ideal) V c).flushed 3 t
      = ((cfg1.win 3).blk t).view.read (Elt Ideal) (G1 (V c main_v81) (V c main_v69) (V c main_v79)) := by
  show (cfg1.win 3).cut (grid1.coords t) ((dat1 V c).after 3 t) = _
  rw [after1_3]
  unfold out1_3
  rw [View.canon_unit_zero zero_off1]
  simp only [View.ld_unit_zero (S := S64x4096) zero_off1, View.ld_unit_zero (S := S4096x4096) zero_off1, View.ld_unit_zero (S := S1x4096) zero_off1]
  obtain ⟨e00, e01, e10, e11, e20, e21, e30, e31⟩ := block_index1 t
  funext j
  show Gen.k1_pay1 (F := Ideal) (iblk1 V c 0 t) (iblk1 V c 1 t) (iblk1 V c 2 t) j
    = G1 (V c main_v81) (V c main_v69) (V c main_v79) (((cfg1.win 3).blk t).view.emb j)
  refine stored_block1 (V c main_v81) (V c main_v69) (V c main_v79) _ _ _ t.val ?_ ?_ ?_ j _ ?_ ?_
  · intro p k r hr
    show V c main_v81 (((cfg1.win 0).blk t).view.emb (ix2 p k)) = V c main_v81 (ix2 r k)
    congr 1
    funext a; apply Fin.ext
    match a with
    | ⟨0, _⟩ => show win1_0.index t (0 : Fin 2) * 64 + 1 * p.val = r.val; rw [e00, hr]; omega
    | ⟨1, _⟩ => show win1_0.index t (1 : Fin 2) * 4096 + 1 * k.val = k.val; rw [e01]; omega
  · funext y
    show V c main_v69 (((cfg1.win 1).blk t).view.emb y) = V c main_v69 y
    congr 1
    funext a; apply Fin.ext
    match a with
    | ⟨0, _⟩ => show win1_1.index t (0 : Fin 2) * 4096 + 1 * (y 0).val = (y 0).val; rw [e10]; omega
    | ⟨1, _⟩ => show win1_1.index t (1 : Fin 2) * 4096 + 1 * (y 1).val = (y 1).val; rw [e11]; omega
  · funext y
    show V c main_v79 (((cfg1.win 2).blk t).view.emb y) = V c main_v79 y
    congr 1
    funext a; apply Fin.ext
    match a with
    | ⟨0, _⟩ => show win1_2.index t (0 : Fin 2) * 1 + 1 * (y 0).val = (y 0).val; rw [e20]; omega
    | ⟨1, _⟩ => show win1_2.index t (1 : Fin 2) * 4096 + 1 * (y 1).val = (y 1).val; rw [e21]; omega
  · show win1_3.index t (0 : Fin 2) * 64 + 1 * (j 0).val = t.val * 64 + (j 0).val; rw [e30]; omega
  · show win1_3.index t (1 : Fin 2) * 4096 + 1 * (j 1).val = (j 1).val; rw [e31]; omega

/-- An index of the output array is in point t's block iff each coordinate is in the block's range on its axis. -/
theorem mem_block1 (t : Fin cfg1.N) (i : S8192x4096.Idx) :
    i ∈ ((cfg1.win 3).blk t).view.set
      ↔ ∀ a : Fin 2, win1_3.index t a * S64x4096.size a ≤ (i a).val ∧ (i a).val < win1_3.index t a * S64x4096.size a + S64x4096.size a := by
  show i ∈ ((View.whole main_v82).slice (win1_3.rect t)).set ↔ _
  rw [View.set_slice_whole, Rect.mem_set_unit]
  exact Iff.rfl

/-- Every index of the output array is in some point's block: row r is in block r / 64. -/
theorem covered1 (i : S8192x4096.Idx) :
    ∃ t : Fin cfg1.N, (cfg1.win 3).flush t = true ∧ i ∈ ((cfg1.win 3).blk t).view.set := by
  have hN : grid1.N = 128 := N_1
  have hi0 : (i 0).val < 8192 := (i 0).isLt
  have hi1 : (i 1).val < 4096 := (i 1).isLt
  have ht : (i 0).val / 64 < cfg1.N := by show (i 0).val / 64 < grid1.N; rw [hN]; omega
  refine ⟨⟨(i 0).val / 64, ht⟩, flush1_3 _, ?_⟩
  obtain ⟨e00, e01, e10, e11, e20, e21, e30, e31⟩ := block_index1 ⟨(i 0).val / 64, ht⟩
  rw [mem_block1]
  intro a
  match a with
  | ⟨0, _⟩ =>
    show win1_3.index ⟨(i 0).val / 64, ht⟩ (0 : Fin 2) * 64 ≤ (i 0).val ∧ (i 0).val < win1_3.index ⟨(i 0).val / 64, ht⟩ (0 : Fin 2) * 64 + 64
    rw [e30]; show (i 0).val / 64 * 64 ≤ (i 0).val ∧ (i 0).val < (i 0).val / 64 * 64 + 64; omega
  | ⟨1, _⟩ =>
    show win1_3.index ⟨(i 0).val / 64, ht⟩ (1 : Fin 2) * 4096 ≤ (i 1).val ∧ (i 1).val < win1_3.index ⟨(i 0).val / 64, ht⟩ (1 : Fin 2) * 4096 + 4096
    rw [e31]; omega

/-- The region's output array after its 128 points is the whole output computed from the three arrays as the region
    finds them. -/
theorem final1 (c : Dev nD) :
    (dat1 (F := Ideal) V c).arrAt 3 cfg1.N = G1 (V c main_v81) (V c main_v69) (V c main_v79) :=
  (dat1 (F := Ideal) V c).arrAt_eq_of_cover 3 (G1 (V c main_v81) (V c main_v69) (V c main_v79)) (fun t _ => flushed1_eq V c t) covered1

end Cert.KernelIdeal.Hand

end
-- ==== Proof.KI.Final2.lean ====
/-
  The head's region, from its blocks to the whole output array.

  Each of the region's 16 grid points writes back one block of 512 rows of the output. What a point stores is
  x·w + b with the logistic function applied in column 1043 alone, computed on the block of activations it fetched, which is rows 512·t … 512·t + 511 of the activation
  array, against the whole weight and the whole bias row. So what point t writes back is block t of one function
  G2 of the three whole arrays, the same function at every point. The 16 blocks tile the 8192 rows (row r lies in
  block r / 512), hence after the last point the output array is G2 of the three arrays as the region found them.
-/
import proofs.«158892_j50087908606273_2_alg».proof.Proof.KI.Body2
import proofs.«158892_j50087908606273_2_alg».proof.Proof.KI.Pay
import proofs.«158892_j50087908606273_2_alg».proof.Proof.KI.GDefs
import Idealize.ShloMosaic.Lib.Pipeline.Value
import Idealize.ShloMosaic.Lib.ValueIdx

noncomputable section

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- Both offsets of a whole-buffer rectangle are zero. -/
theorem zero_off2 : (![0, 0] : Fin 2 → Nat) = fun _ => 0 := funext fun a => by fin_cases a <;> rfl

/-- Where each window's block sits at grid point t: the activation block and the output block are the t-th
    block of 512 rows, the weight and the bias row are fetched whole. -/
theorem block_index2 : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- One grid point's stored block is the matching block of rows of the whole output: if the activation block x0
    holds rows n·512 … n·512 + 511 of the array X, and the weight and bias blocks are the whole arrays, then
    the stored value at position j of the block is the whole output at the position i with row n·512 + (row of j)
    and the same column. -/
theorem stored_block2 (X : FVec Ideal S8192x4096 .bf16) (W : FVec Ideal S4096x1152 .bf16) (B : FVec Ideal S1x1152 .f32)
    (x0 : Vec Ideal S512x4096 .bf16) (x1 : Vec Ideal S4096x1152 .bf16) (x2 : Vec Ideal S1x1152 .f32) (n : ℕ)
    (h0 : ∀ (p : Fin 512) (k : Fin 4096) (r : Fin 8192), r.val = n * 512 + p.val → x0 (ix2 p k) = X (ix2 r k))
    (h1 : x1 = W) (h2 : x2 = B)
    (j : S512x1152.Idx) (i : S8192x1152.Idx) (hi0 : (i 0).val = n * 512 + (j 0).val) (hi1 : (i 1).val = (j 1).val) :
    Gen.k2_pay1 (F := Ideal) x0 x1 x2 j = G2 X W B i := by
  obtain ⟨p, q, rfl⟩ : ∃ (p : Fin 512) (q : Fin 1152), j = ix2 p q := ⟨j 0, j 1, eq_ix2 j⟩
  obtain ⟨r, s, rfl⟩ : ∃ (r : Fin 8192) (s : Fin 1152), i = ix2 r s := ⟨i 0, i 1, eq_ix2 i⟩
  have hr : r.val = n * 512 + p.val := hi0
  obtain rfl : s = q := Fin.ext hi1
  subst h1; subst h2
  rw [pay2_at, G2_at]
  have hs : ∀ k : Fin 4096, x0 (ix2 p k) = X (ix2 r k) := fun k => h0 p k r hr
  simp only [hs]

/-- What grid point t writes back is block t of the whole output computed from the three arrays as the region
    finds them: the activation block is rows t·512 … of its array, the other two blocks are their arrays. -/
theorem flushed2_eq (c : Dev nD) (t : Fin cfg2.N) :
    (dat2 (F := Ideal) V c).flushed 3 t
      = ((cfg2.win 3).blk t).view.read (Elt Ideal) (G2 (V c main_v82) (V c main_v77) (V c main_v80)) := by
  show (cfg2.win 3).cut (grid2.coords t) ((dat2 V c).after 3 t) = _
  rw [after2_3]
  unfold out2_3
  rw [View.canon_unit_zero zero_off2]
  simp only [View.ld_unit_zero (S := S512x4096) zero_off2, View.ld_unit_zero (S := S4096x1152) zero_off2, View.ld_unit_zero (S := S1x1152) zero_off2]
  obtain ⟨e00, e01, e10, e11, e20, e21, e30, e31⟩ := block_index2 t
  funext j
  show Gen.k2_pay1 (F := Ideal) (iblk2 V c 0 t) (iblk2 V c 1 t) (iblk2 V c 2 t) j
    = G2 (V c main_v82) (V c main_v77) (V c main_v80) (((cfg2.win 3).blk t).view.emb j)
  refine stored_block2 (V c main_v82) (V c main_v77) (V c main_v80) _ _ _ t.val ?_ ?_ ?_ j _ ?_ ?_
  · intro p k r hr
    show V c main_v82 (((cfg2.win 0).blk t).view.emb (ix2 p k)) = V c main_v82 (ix2 r k)
    congr 1
    funext a; apply Fin.ext
    match a with
    | ⟨0, _⟩ => show win2_0.index t (0 : Fin 2) * 512 + 1 * p.val = r.val; rw [e00, hr]; omega
    | ⟨1, _⟩ => show win2_0.index t (1 : Fin 2) * 4096 + 1 * k.val = k.val; rw [e01]; omega
  · funext y
    show V c main_v77 (((cfg2.win 1).blk t).view.emb y) = V c main_v77 y
    congr 1
    funext a; apply Fin.ext
    match a with
    | ⟨0, _⟩ => show win2_1.index t (0 : Fin 2) * 4096 + 1 * (y 0).val = (y 0).val; rw [e10]; omega
    | ⟨1, _⟩ => show win2_1.index t (1 : Fin 2) * 1152 + 1 * (y 1).val = (y 1).val; rw [e11]; omega
  · funext y
    show V c main_v80 (((cfg2.win 2).blk t).view.emb y) = V c main_v80 y
    congr 1
    funext a; apply Fin.ext
    match a with
    | ⟨0, _⟩ => show win2_2.index t (0 : Fin 2) * 1 + 1 * (y 0).val = (y 0).val; rw [e20]; omega
    | ⟨1, _⟩ => show win2_2.index t (1 : Fin 2) * 1152 + 1 * (y 1).val = (y 1).val; rw [e21]; omega
  · show win2_3.index t (0 : Fin 2) * 512 + 1 * (j 0).val = t.val * 512 + (j 0).val; rw [e30]; omega
  · show win2_3.index t (1 : Fin 2) * 1152 + 1 * (j 1).val = (j 1).val; rw [e31]; omega

/-- An index of the output array is in point t's block iff each coordinate is in the block's range on its axis. -/
theorem mem_block2 (t : Fin cfg2.N) (i : S8192x1152.Idx) :
    i ∈ ((cfg2.win 3).blk t).view.set
      ↔ ∀ a : Fin 2, win2_3.index t a * S512x1152.size a ≤ (i a).val ∧ (i a).val < win2_3.index t a * S512x1152.size a + S512x1152.size a := by
  show i ∈ ((View.whole main_v83).slice (win2_3.rect t)).set ↔ _
  rw [View.set_slice_whole, Rect.mem_set_unit]
  exact Iff.rfl

/-- Every index of the output array is in some point's block: row r is in block r / 512. -/
theorem covered2 (i : S8192x1152.Idx) :
    ∃ t : Fin cfg2.N, (cfg2.win 3).flush t = true ∧ i ∈ ((cfg2.win 3).blk t).view.set := by
  have hN : grid2.N = 16 := N_2
  have hi0 : (i 0).val < 8192 := (i 0).isLt
  have hi1 : (i 1).val < 1152 := (i 1).isLt
  have ht : (i 0).val / 512 < cfg2.N := by show (i 0).val / 512 < grid2.N; rw [hN]; omega
  refine ⟨⟨(i 0).val / 512, ht⟩, flush2_3 _, ?_⟩
  obtain ⟨e00, e01, e10, e11, e20, e21, e30, e31⟩ := block_index2 ⟨(i 0).val / 512, ht⟩
  rw [mem_block2]
  intro a
  match a with
  | ⟨0, _⟩ =>
    show win2_3.index ⟨(i 0).val / 512, ht⟩ (0 : Fin 2) * 512 ≤ (i 0).val ∧ (i 0).val < win2_3.index ⟨(i 0).val / 512, ht⟩ (0 : Fin 2) * 512 + 512
    rw [e30]; show (i 0).val / 512 * 512 ≤ (i 0).val ∧ (i 0).val < (i 0).val / 512 * 512 + 512; omega
  | ⟨1, _⟩ =>
    show win2_3.index ⟨(i 0).val / 512, ht⟩ (1 : Fin 2) * 1152 ≤ (i 1).val ∧ (i 1).val < win2_3.index ⟨(i 0).val / 512, ht⟩ (1 : Fin 2) * 1152 + 1152
    rw [e31]; omega

/-- The region's output array after its 16 points is the whole output computed from the three arrays as the region
    finds them. -/
theorem final2 (c : Dev nD) :
    (dat2 (F := Ideal) V c).arrAt 3 cfg2.N = G2 (V c main_v82) (V c main_v77) (V c main_v80) :=
  (dat2 (F := Ideal) V c).arrAt_eq_of_cover 3 (G2 (V c main_v82) (V c main_v77) (V c main_v80)) (fun t _ => flushed2_eq V c t) covered2

end Cert.KernelIdeal.Hand

end
-- ==== Proof.KLayout.lean ====
/-
  The host-side layout steps that sit between the weights and the three matrix products of the kernel
  program, each read at an index written by its coordinates.

  Before each product the program transposes a weight of shape [rows, cols] to [cols, rows] and then
  changes its float format; on the extended reals the format change is the identity, so the entry at
  (k, c) of the result is the entry at (c, k) of the weight. A bias vector of length n is re-laid as a
  single row [1, n], whose entry (0, c) is the vector's entry c. The six direction heads [6, 3, 4096]
  are re-laid as 18 rows [18, 4096], row 3a + o being output o of head a, and the bias [6, 3] as a
  vector of length 18 in the same order. The last step keeps the first 1044 of 1152 result columns.

  Every statement is over variables of the literal array types.
-/
import proofs.«158892_j50087908606273_2_alg».proof.KernelIdeal
import Idealize.ShloMosaic.Lib.ValueIdx
import Idealize.ShloMosaic.Lib.ValueLayout
import Idealize.ShloMosaic.Lib.Pipeline.Value
import Idealize.ShloMosaic.PureOps.Ideal

noncomputable section

namespace Cert.KLayout

open Cert.KernelIdeal Idealize.ShloMosaic Idealize.ShloMosaic.ValueIdx

variable [Cert.KernelIdeal.Facts₀]
open Cert.KernelIdeal.Facts₀

/-! ## A weight transposed, then its float format changed -/

/-- First weight, [4096, 2048] to [2048, 4096]: entry (k, c) of the result is entry (c, k) of the weight. -/
theorem w1T_apply (q : FVec Ideal S4096x2048 .f32) (k : Fin 2048) (c : Fin 4096) :
    (truncf .bf16 (transpose S2048x4096 [1, 0] q transposes_S4096x2048_S2048x4096_1_0) bitsLt_bf16_f32) (ix2 k c)
      = q (ix2 c k) :=
  (truncf_apply _ bitsLt_bf16_f32 _).trans (transpose_ix2_apply q transposes_S4096x2048_S2048x4096_1_0 k c)

/-- Second weight, [4096, 4096] to [4096, 4096]: entry (k, c) of the result is entry (c, k) of the weight. -/
theorem w2T_apply (q : FVec Ideal S4096x4096 .f32) (k : Fin 4096) (c : Fin 4096) :
    (truncf .bf16 (transpose S4096x4096 [1, 0] q transposes_S4096x4096_S4096x4096_1_0) bitsLt_bf16_f32) (ix2 k c)
      = q (ix2 c k) :=
  (truncf_apply _ bitsLt_bf16_f32 _).trans (transpose_ix2_apply q transposes_S4096x4096_S4096x4096_1_0 k c)

/-- Stacked head weight padded to 1152 rows, [1152, 4096] to [4096, 1152]: entry (k, c) of the result is
    entry (c, k) of the padded weight. -/
theorem wallT_apply (q : FVec Ideal S1152x4096 .f32) (k : Fin 4096) (c : Fin 1152) :
    (truncf .bf16 (transpose S4096x1152 [1, 0] q transposes_S1152x4096_S4096x1152_1_0) bitsLt_bf16_f32) (ix2 k c)
      = q (ix2 c k) :=
  (truncf_apply _ bitsLt_bf16_f32 _).trans (transpose_ix2_apply q transposes_S1152x4096_S4096x1152_1_0 k c)

/-! ## A bias vector re-laid as one row -/

/-- A bias of length 4096 as a [1, 4096] row: entry (0, c) is entry c of the vector. -/
theorem bias4096_row_apply (b : FVec Ideal S4096 .f32) (c : Fin 4096) :
    (shapeCast S1x4096 b shapeCasts_S4096_S1x4096) (ix2 (0 : Fin 1) c) = b (ix1 c) :=
  shapeCast_a_1a_apply b shapeCasts_S4096_S1x4096 0 c

/-- The padded head bias of length 1152 as a [1, 1152] row: entry (0, c) is entry c of the vector. -/
theorem bias1152_row_apply (b : FVec Ideal S1152 .f32) (c : Fin 1152) :
    (shapeCast S1x1152 b shapeCasts_S1152_S1x1152) (ix2 (0 : Fin 1) c) = b (ix1 c) :=
  shapeCast_a_1a_apply b shapeCasts_S1152_S1x1152 0 c

/-! ## The six direction heads re-laid as eighteen rows -/

/-- Head weight [6, 3, 4096] as [18, 4096]: row 3a + o is output o of head a. -/
theorem heads_rows_apply (w : FVec Ideal S6x3x4096 .f32) (a : Fin 6) (o : Fin 3) (k : Fin 4096) :
    (shapeCast S18x4096 w shapeCasts_S6x3x4096_S18x4096) (ix2 (⟨3 * a.val + o.val, by omega⟩ : Fin 18) k)
      = w (ix3 a o k) :=
  shapeCast_apply w shapeCasts_S6x3x4096_S18x4096 _ _ (by
    rw [Shape.rowMajor_val_three, Shape.rowMajor_val_two]
    show (a.val * 3 + o.val) * 4096 + k.val = (3 * a.val + o.val) * 4096 + k.val
    omega)

/-- Head weight [6, 3, 4096] as [18, 4096], read at a row j below 18: head j / 3, output j % 3. -/
theorem heads_rows_apply' (w : FVec Ideal S6x3x4096 .f32) (j : Fin 18) (k : Fin 4096) :
    (shapeCast S18x4096 w shapeCasts_S6x3x4096_S18x4096) (ix2 j k)
      = w (ix3 (⟨j.val / 3, by omega⟩ : Fin 6) (⟨j.val % 3, Nat.mod_lt _ (by decide)⟩ : Fin 3) k) :=
  shapeCast_apply w shapeCasts_S6x3x4096_S18x4096 _ _ (by
    rw [Shape.rowMajor_val_three, Shape.rowMajor_val_two]
    show (j.val / 3 * 3 + j.val % 3) * 4096 + k.val = j.val * 4096 + k.val
    omega)

/-- Head bias [6, 3] as a vector of length 18, read at j below 18: head j / 3, output j % 3. -/
theorem heads_bias_apply' (b : FVec Ideal S6x3 .f32) (j : Fin 18) :
    (shapeCast S18 b shapeCasts_S6x3_S18) (ix1 j)
      = b (ix2 (⟨j.val / 3, by omega⟩ : Fin 6) (⟨j.val % 3, Nat.mod_lt _ (by decide)⟩ : Fin 3)) :=
  shapeCast_apply b shapeCasts_S6x3_S18 _ _ (by
    rw [Shape.rowMajor_val_two, Shape.rowMajor_val_one]
    show j.val / 3 * 3 + j.val % 3 = j.val
    omega)

/-! ## The first 1044 of 1152 result columns -/

/-- The result cut to its first 1044 columns: entry (r, j) is entry (r, j) of the uncut result. -/
theorem cut1044_apply (y : FVec Ideal S8192x1152 .f32) (r : Fin 8192) (j : Fin 1044) :
    (extractStridedSlice S8192x1044 ![0, 0] y slices_S8192x1152_S8192x1044_0_0) (ix2 r j)
      = y (ix2 r (⟨j.val, by omega⟩ : Fin 1152)) :=
  slice2_axis1_apply 0 y slices_S8192x1152_S8192x1044_0_0 r j _ (Nat.zero_add _).symm

end Cert.KLayout

end
-- ==== Proof.KI.Chain.lean ====
/-
  The three regions composed, with the host-side layout steps around them, against the specification.

  The first region receives the samples, the first weight transposed and the first bias as a row; its
  output at (r, c) is therefore the clipped sum over k of x(r, k) · q1(c, k) plus b1(c): the first hidden
  layer. The second region receives that, the second weight transposed and the second bias as a row: the
  second hidden layer. The third region receives the second hidden layer, a weight array whose entry
  (k, j) is W(j, k) for every column j below 1044, and a bias row whose entry (0, j) is B(j) there; after
  the result is cut to its first 1044 columns, entry (r, j) is the sum over k of hidden(r, k) · W(j, k)
  plus B(j), passed through the logistic function when j is 1043.
-/
import proofs.«158892_j50087908606273_2_alg».proof.Proof.KI.GDefs
import proofs.«158892_j50087908606273_2_alg».proof.Proof.KLayout
import proofs.«158892_j50087908606273_2_alg».proof.Proof.Spec

noncomputable section

namespace Cert.KernelIdeal.Hand

open Cert.KernelIdeal Idealize.ShloMosaic Idealize.ShloMosaic.ValueIdx

variable [Cert.KernelIdeal.Facts₀]
open Cert.KernelIdeal.Facts₀

/-- The first region on the transposed first weight and the first bias row is the first hidden layer. -/
theorem layer1_at (x : FVec Ideal S8192x2048 .f32) (q1 : FVec Ideal S4096x2048 .f32) (b1 : FVec Ideal S4096 .f32)
    (r : Fin 8192) (c : Fin 4096) :
    G0 x (truncf .bf16 (transpose S2048x4096 [1, 0] q1 transposes_S4096x2048_S2048x4096_1_0) bitsLt_bf16_f32)
        (shapeCast S1x4096 b1 shapeCasts_S4096_S1x4096) (ix2 r c)
      = Cert.Spec.layer (fun r k => x (ix2 r k)) (fun c k => q1 (ix2 c k)) (fun c => b1 (ix1 c)) r c := by
  rw [G0_at, Cert.KLayout.bias4096_row_apply]
  show max ((∑ k : Fin 2048, _) + _) 0
    = max ((∑ k : Fin 2048, (x (ix2 r k) : EReal) * (q1 (ix2 c k) : EReal)) + (b1 (ix1 c) : EReal)) 0
  refine congrArg (fun s : EReal => max (s + (b1 (ix1 c) : EReal)) 0) (Finset.sum_congr rfl fun k _ => ?_)
  rw [Cert.KLayout.w1T_apply]

/-- The second region on the first hidden layer, the transposed second weight and the second bias row is
    the second hidden layer. -/
theorem layer2_at (x : FVec Ideal S8192x2048 .f32) (q1 : FVec Ideal S4096x2048 .f32) (b1 : FVec Ideal S4096 .f32)
    (q2 : FVec Ideal S4096x4096 .f32) (b2 : FVec Ideal S4096 .f32) (r : Fin 8192) (c : Fin 4096) :
    G1 (G0 x (truncf .bf16 (transpose S2048x4096 [1, 0] q1 transposes_S4096x2048_S2048x4096_1_0) bitsLt_bf16_f32)
          (shapeCast S1x4096 b1 shapeCasts_S4096_S1x4096))
        (truncf .bf16 (transpose S4096x4096 [1, 0] q2 transposes_S4096x4096_S4096x4096_1_0) bitsLt_bf16_f32)
        (shapeCast S1x4096 b2 shapeCasts_S4096_S1x4096) (ix2 r c)
      = Cert.Spec.hidden (fun r k => x (ix2 r k)) (fun c k => q1 (ix2 c k)) (fun c => b1 (ix1 c))
          (fun c k => q2 (ix2 c k)) (fun c => b2 (ix1 c)) r c := by
  rw [G1_at, Cert.KLayout.bias4096_row_apply]
  show max ((∑ k : Fin 4096, _) + _) 0
    = max ((∑ k : Fin 4096,
              Cert.Spec.layer (fun r k => x (ix2 r k)) (fun c k => q1 (ix2 c k)) (fun c => b1 (ix1 c)) r k
                * (q2 (ix2 c k) : EReal))
            + (b2 (ix1 c) : EReal)) 0
  refine congrArg (fun s : EReal => max (s + (b2 (ix1 c) : EReal)) 0) (Finset.sum_congr rfl fun k _ => ?_)
  rw [Cert.KLayout.w2T_apply, layer1_at]

/-- The third region on an activation array h with entries H(r, k), a weight array whose entry (k, j) is
    W(j, k) and a bias row whose entry (0, j) is B(j) for j below 1044, cut to its first 1044 columns:
    entry (r, j) is the sum over k of H(r, k) · W(j, k) plus B(j), through the logistic function when j
    is 1043. -/
theorem head_at (h : FVec Ideal S8192x4096 .bf16) (H : Fin 8192 → Fin 4096 → EReal)
    (hH : ∀ (r : Fin 8192) (k : Fin 4096), h (ix2 r k) = H r k)
    (wT : FVec Ideal S4096x1152 .bf16) (bR : FVec Ideal S1x1152 .f32)
    (W : Fin 1044 → Fin 4096 → EReal) (B : Fin 1044 → EReal)
    (hW : ∀ (k : Fin 4096) (j : Fin 1044), wT (ix2 k (⟨j.val, by omega⟩ : Fin 1152)) = W j k)
    (hB : ∀ j : Fin 1044, bR (ix2 (0 : Fin 1) (⟨j.val, by omega⟩ : Fin 1152)) = B j)
    (r : Fin 8192) (j : Fin 1044) :
    (extractStridedSlice S8192x1044 ![0, 0] (G2 h wT bR) slices_S8192x1152_S8192x1044_0_0) (ix2 r j)
      = (if j.val = 1043 then Ideal.logistic (Cert.Spec.affine H W B r j) else Cert.Spec.affine H W B r j) := by
  have hz : (∑ k : Fin 4096, (h (ix2 r k) : EReal) * (wT (ix2 k (⟨j.val, by omega⟩ : Fin 1152)) : EReal))
      + (bR (ix2 (0 : Fin 1) (⟨j.val, by omega⟩ : Fin 1152)) : EReal) = Cert.Spec.affine H W B r j := by
    rw [hB j]
    show _ = (∑ k : Fin 4096, H r k * W j k) + B j
    refine congrArg (fun s : EReal => s + B j) (Finset.sum_congr rfl fun k _ => ?_)
    rw [hW k j, hH r k]
  rw [Cert.KLayout.cut1044_apply, G2_at, hz]

/-- The whole chain at row r and column j below 1044: the hidden layers against W and B, column 1043
    through the logistic function. -/
theorem out_chain (x : FVec Ideal S8192x2048 .f32) (q1 : FVec Ideal S4096x2048 .f32) (b1 : FVec Ideal S4096 .f32)
    (q2 : FVec Ideal S4096x4096 .f32) (b2 : FVec Ideal S4096 .f32)
    (wT : FVec Ideal S4096x1152 .bf16) (bR : FVec Ideal S1x1152 .f32)
    (W : Fin 1044 → Fin 4096 → EReal) (B : Fin 1044 → EReal)
    (hW : ∀ (k : Fin 4096) (j : Fin 1044), wT (ix2 k (⟨j.val, by omega⟩ : Fin 1152)) = W j k)
    (hB : ∀ j : Fin 1044, bR (ix2 (0 : Fin 1) (⟨j.val, by omega⟩ : Fin 1152)) = B j)
    (r : Fin 8192) (j : Fin 1044) :
    (extractStridedSlice S8192x1044 ![0, 0]
        (G2 (G1 (G0 x (truncf .bf16 (transpose S2048x4096 [1, 0] q1 transposes_S4096x2048_S2048x4096_1_0) bitsLt_bf16_f32)
                  (shapeCast S1x4096 b1 shapeCasts_S4096_S1x4096))
                (truncf .bf16 (transpose S4096x4096 [1, 0] q2 transposes_S4096x4096_S4096x4096_1_0) bitsLt_bf16_f32)
                (shapeCast S1x4096 b2 shapeCasts_S4096_S1x4096))
            wT bR)
        slices_S8192x1152_S8192x1044_0_0) (ix2 r j)
      = (if j.val = 1043 then
          Ideal.logistic (Cert.Spec.affine
            (Cert.Spec.hidden (fun r k => x (ix2 r k)) (fun c k => q1 (ix2 c k)) (fun c => b1 (ix1 c))
              (fun c k => q2 (ix2 c k)) (fun c => b2 (ix1 c))) W B r j)
        else
          Cert.Spec.affine
            (Cert.Spec.hidden (fun r k => x (ix2 r k)) (fun c k => q1 (ix2 c k)) (fun c => b1 (ix1 c))
              (fun c k => q2 (ix2 c k)) (fun c => b2 (ix1 c))) W B r j) :=
  head_at _ _ (fun r k => layer2_at x q1 b1 q2 b2 r k) wT bR W B hW hB r j

end Cert.KernelIdeal.Hand

end
-- ==== Proof.KI.Value.lean ====
/-
  What the idealized kernel program returns, as one function of its argument arrays.

  Walking the final contents of the result buffer back through the segments: the result is the slice of the head
  region's output array; each region's output array is, by the cover of its blocks, the whole-array function of the
  three arrays its windows stage; a region's input arrays are either the previous region's output or a buffer that no
  region in between touches, hence what the host operations before the first region left there: the transposed
  quantized weights, the bias rows, and the stacked, padded and transposed head weight and bias.

  Read at row r and column j < 1044 this is the specification: the stacked head weight's column j is the
  specification's row j, and the padding columns 1044..1151 are cut away by the slice.
-/
import proofs.«158892_j50087908606273_2_alg».proof.Proof.KI.Run
import proofs.«158892_j50087908606273_2_alg».proof.Proof.KI.Entry
import proofs.«158892_j50087908606273_2_alg».proof.Proof.KI.Final0
import proofs.«158892_j50087908606273_2_alg».proof.Proof.KI.Final1
import proofs.«158892_j50087908606273_2_alg».proof.Proof.KI.Final2
import proofs.«158892_j50087908606273_2_alg».proof.Proof.KI.Chain

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem

variable (m : (ℓ : Loc nD τ sig) → Buf (Elt Ideal) ℓ) (ρ : Dev nD → PrngReg)

/-- The first hidden layer's array, as the first region leaves it. -/
theorem h1_eq (c : Dev nD) : W6 m ρ c (Proc.devRef .tc main_v81)
    = G0 (m ((c : Thread nD τ).loc main_arg0))
        (truncf .bf16 (transpose S2048x4096 [1, 0] (Q1 (m ((c : Thread nD τ).loc main_arg1))) transposes_S4096x2048_S2048x4096_1_0) bitsLt_bf16_f32)
        (shapeCast S1x4096 (m ((c : Thread nD τ).loc main_arg2)) shapeCasts_S4096_S1x4096) := by
  refine (W6_arr m ρ c 3).trans ?_
  rw [final0 (V5 m ρ) c, V5_arg0 m ρ c, V5_v67 m ρ c, V5_v78 m ρ c]

/-- The second hidden layer's array, as the second region leaves it: its weight and bias buffers are untouched by the
    first region. -/
theorem h2_eq (c : Dev nD) : W7 m ρ c (Proc.devRef .tc main_v82)
    = G1 (W6 m ρ c (Proc.devRef .tc main_v81))
        (truncf .bf16 (transpose S4096x4096 [1, 0] (Q2 (m ((c : Thread nD τ).loc main_arg3))) transposes_S4096x4096_S4096x4096_1_0) bitsLt_bf16_f32)
        (shapeCast S1x4096 (m ((c : Thread nD τ).loc main_arg4)) shapeCasts_S4096_S1x4096) := by
  refine (W7_arr m ρ c 3).trans ?_
  rw [final1 (V6 m ρ) c]
  have e69 : V6 m ρ c main_v69 = V5 m ρ c main_v69 := W6_of_ne m ρ c main_v69 (by decide)
  have e79 : V6 m ρ c main_v79 = V5 m ρ c main_v79 := W6_of_ne m ρ c main_v79 (by decide)
  rw [e69, e79, V5_v69 m ρ c, V5_v79 m ρ c]

/-- The head region's output array: its weight and bias buffers are untouched by the first two regions. -/
theorem head_eq (c : Dev nD) : W8 m ρ c (Proc.devRef .tc main_v83)
    = G2 (W7 m ρ c (Proc.devRef .tc main_v82))
        (wallT (Q5 (m ((c : Thread nD τ).loc main_arg5))) (m ((c : Thread nD τ).loc main_arg7)) (m ((c : Thread nD τ).loc main_arg9)) (m ((c : Thread nD τ).loc main_arg11)))
        (ballRow (m ((c : Thread nD τ).loc main_arg6)) (m ((c : Thread nD τ).loc main_arg8)) (m ((c : Thread nD τ).loc main_arg10)) (m ((c : Thread nD τ).loc main_arg12))) := by
  refine (W8_arr m ρ c 3).trans ?_
  rw [final2 (V7 m ρ) c]
  have e77 : V7 m ρ c main_v77 = V5 m ρ c main_v77 :=
    (W7_of_ne m ρ c main_v77 (by decide)).trans (W6_of_ne m ρ c main_v77 (by decide))
  have e80 : V7 m ρ c main_v80 = V5 m ρ c main_v80 :=
    (W7_of_ne m ρ c main_v80 (by decide)).trans (W6_of_ne m ρ c main_v80 (by decide))
  rw [e77, e80, V5_v77 m ρ c, V5_v80 m ρ c]

/-- The result buffer holds the slice of the head region's output. -/
theorem result_eq (c : Dev nD) : W9 m ρ c (Proc.devRef .tc main_v84)
    = extractStridedSlice S8192x1044 ![0, 0] (W8 m ρ c (Proc.devRef .tc main_v83)) slices_S8192x1152_S8192x1044_0_0 := by
  show StableHlo.after hostOps3 (W8 m ρ c) (Proc.devRef .tc main_v84) = _
  simp only [hostOps3]
  after_results

/-- The result at row r and column j is the specification, of the input arrays and the three quantized weights. -/
theorem kernel_at (c : Dev nD) (r : Fin 8192) (j : Fin 1044) :
    W9 m ρ c (Proc.devRef .tc main_v84) (ix2 r j)
      = Cert.Spec.out (fun r k => m ((c : Thread nD τ).loc main_arg0) (ix2 r k))
          (fun a k => Q1 (m ((c : Thread nD τ).loc main_arg1)) (ix2 a k)) (fun a => m ((c : Thread nD τ).loc main_arg2) (ix1 a))
          (fun a k => Q2 (m ((c : Thread nD τ).loc main_arg3)) (ix2 a k)) (fun a => m ((c : Thread nD τ).loc main_arg4) (ix1 a))
          (fun a o k => Q5 (m ((c : Thread nD τ).loc main_arg5)) (ix3 a o k)) (fun a o => m ((c : Thread nD τ).loc main_arg6) (ix2 a o))
          (fun a k => m ((c : Thread nD τ).loc main_arg7) (ix2 a k)) (fun a => m ((c : Thread nD τ).loc main_arg8) (ix1 a))
          (fun k => m ((c : Thread nD τ).loc main_arg9) (ix2 (0 : Fin 1) k)) (m ((c : Thread nD τ).loc main_arg10) (ix1 (0 : Fin 1)))
          (fun k => m ((c : Thread nD τ).loc main_arg11) (ix2 (0 : Fin 1) k)) (m ((c : Thread nD τ).loc main_arg12) (ix1 (0 : Fin 1))) r j := by
  rw [result_eq m ρ c, head_eq m ρ c, h2_eq m ρ c, h1_eq m ρ c]
  refine (out_chain _ _ _ _ _ _ _
    (Cert.Spec.wall (fun a o k => Q5 (m ((c : Thread nD τ).loc main_arg5)) (ix3 a o k)) (fun a k => m ((c : Thread nD τ).loc main_arg7) (ix2 a k))
      (fun k => m ((c : Thread nD τ).loc main_arg9) (ix2 (0 : Fin 1) k)) (fun k => m ((c : Thread nD τ).loc main_arg11) (ix2 (0 : Fin 1) k)))
    (Cert.Spec.ball (fun a o => m ((c : Thread nD τ).loc main_arg6) (ix2 a o)) (fun a => m ((c : Thread nD τ).loc main_arg8) (ix1 a))
      (m ((c : Thread nD τ).loc main_arg10) (ix1 (0 : Fin 1))) (m ((c : Thread nD τ).loc main_arg12) (ix1 (0 : Fin 1))))
    (fun k j' => ?_) (fun j' => ?_) r j).trans ?_
  · exact (wallT_at _ _ _ _ k ⟨j'.val, by omega⟩).trans (dif_pos j'.isLt)
  · exact (ballRow_at _ _ _ _ ⟨j'.val, by omega⟩).trans (dif_pos j'.isLt)
  · rfl

end Cert.KernelIdeal.Hand

end
-- ==== Proof.KI.EntryRef.lean ====
/-
  The quantization chain of the kernel's program and the reference's corresponding stage are the same composition of
  the same operations on the extended reals: the two programs' shape names and side conditions differ only in their
  namespace.
-/
import proofs.«158892_j50087908606273_2_alg».proof.Proof.KI.EntryQ
import proofs.«158892_j50087908606273_2_alg».proof.Proof.Gen.ReferenceIdeal.Read

noncomputable section

namespace Cert.KernelIdeal.Hand

open Idealize.ShloMosaic

/-- The first hidden weight's quantization is the reference's. -/
theorem Q1_eq_ref (w : (⟨Cert.KernelIdeal.S4096x2048, .f32⟩ : BufTy).Contents (Elt Ideal)) :
    Q1 (F := Ideal) w = Cert.ReferenceIdeal.Read.val_main_v21 (F := Ideal) w := rfl

/-- The second hidden weight's quantization is the reference's. -/
theorem Q2_eq_ref (w : (⟨Cert.KernelIdeal.S4096x4096, .f32⟩ : BufTy).Contents (Elt Ideal)) :
    Q2 (F := Ideal) w = Cert.ReferenceIdeal.Read.val_main_v51 (F := Ideal) w := rfl

/-- The direction heads' quantization is the reference's. -/
theorem Q5_eq_ref (w : (⟨Cert.KernelIdeal.S6x3x4096, .f32⟩ : BufTy).Contents (Elt Ideal)) :
    Q5 (F := Ideal) w = Cert.ReferenceIdeal.Read.val_main_v81 (F := Ideal) w := rfl

end Cert.KernelIdeal.Hand

end
-- ==== Proof.RefValue.lean ====
/-
  What the reference computes, element by element on the extended reals.

  Each hidden layer of the reference is a product of the layer's input with the transposed weight, plus the
  bias repeated down the rows, clipped below at zero: at row r and column c that is the sum over k of
  input(r,k)·weight(c,k), plus bias(c), clipped. The four heads are the same products without the clip. The
  critic head is then passed through 1/(1+e^(-z)), spelled with a negation, an exponential, a sum with one and
  a quotient of one: the logistic function of z by its definition. The six direction heads, an array of
  8192×6×3, are laid out again as 8192×18, so that column j holds output j mod 3 of head j div 3. The result
  joins the 18 direction columns, the 1024 anchor columns, the progress column and the critic column side by
  side, which is one affine map against the four weights stacked in that order, with the logistic function on
  the last column alone.

  The three quantized weights are not opened here: each is left as the array the reference forms by adding
  the unquantized weight to the difference of the quantized and the unquantized one.
-/
import proofs.«158892_j50087908606273_2_alg».proof.Proof.Gen.ReferenceIdeal.Read
import proofs.«158892_j50087908606273_2_alg».proof.Proof.Spec
import Idealize.ShloMosaic.Lib.ValueIdx
import Idealize.ShloMosaic.Lib.Pipeline.Value
import Idealize.ShloMosaic.PureOps.Ideal.Laws
import Idealize.ShloMosaic.Lib.IdealHost

noncomputable section

namespace Cert.RefValue

open Cert.ReferenceIdeal Cert.ReferenceIdeal.Gen Cert.ReferenceIdeal.Read Idealize.ShloMosaic Idealize.ShloMosaic.ValueIdx
open Idealize.ShloMosaic.TcCoe Idealize.SL.Sem Idealize.ShloMosaic.StableHlo

/-- The contents of an f32 array of shape S, read on the extended reals. -/
abbrev Arr (S : Shape) : Type := (⟨S, .f32⟩ : BufTy).Contents (Elt Ideal)

/-- The first hidden layer at row r and column c. -/
theorem layer1_at (x0 : Arr S8192x2048) (x1 : Arr S4096x2048) (x2 : Arr S4096) (r : Fin 8192) (c : Fin 4096) :
    val_main_v29 (F := Ideal) x0 x1 x2 (ix2 r c)
      = Cert.Spec.layer (fun r k => x0 (ix2 r k)) (fun c k => val_main_v23 (F := Ideal) x1 (ix2 c k))
          (fun c => x2 (ix1 c)) r c := by
  have e1 : ∀ k : Fin 2048, lidx_main_v25 (ix2 r c) k = ix2 r k := fun k =>
    funext fun a => Fin.ext (by match a with | ⟨0, _⟩ => rfl | ⟨1, _⟩ => rfl)
  have e2 : ∀ k : Fin 2048, idx_main_v24 (ridx_main_v25 (ix2 r c) k) = ix2 c k := fun k =>
    funext fun a => Fin.ext (by match a with | ⟨0, _⟩ => rfl | ⟨1, _⟩ => rfl)
  have e3 : idx_main_v26 (idx_main_v27 (ix2 r c)) = ix1 c :=
    funext fun a => Fin.ext (by match a with | ⟨0, _⟩ => rfl)
  rw [val_main_v29_apply, val_main_v28_apply, val_main_v25_apply, val_main_v27_apply, val_main_v26_apply,
    val_main_call0_v0_apply, val_main_call0_cst_apply, e3]
  simp only [val_main_v24_apply, e1, e2, Ideal.addf_def, Ideal.maximumf_def, Ideal.ofBits_def, Ideal.ofBits_zero_f32,
    Cert.Spec.layer, Cert.Spec.affine]

/-- The second hidden layer at row r and column c, over the first layer's values. -/
theorem layer2_at (x0 : Arr S8192x2048) (x1 : Arr S4096x2048) (x2 : Arr S4096) (x3 : Arr S4096x4096) (x4 : Arr S4096)
    (r : Fin 8192) (c : Fin 4096) :
    val_main_v59 (F := Ideal) x0 x1 x2 x3 x4 (ix2 r c)
      = Cert.Spec.layer (fun r k => val_main_v29 (F := Ideal) x0 x1 x2 (ix2 r k))
          (fun c k => val_main_v53 (F := Ideal) x3 (ix2 c k)) (fun c => x4 (ix1 c)) r c := by
  have e1 : ∀ k : Fin 4096, lidx_main_v55 (ix2 r c) k = ix2 r k := fun k =>
    funext fun a => Fin.ext (by match a with | ⟨0, _⟩ => rfl | ⟨1, _⟩ => rfl)
  have e2 : ∀ k : Fin 4096, idx_main_v54 (ridx_main_v55 (ix2 r c) k) = ix2 c k := fun k =>
    funext fun a => Fin.ext (by match a with | ⟨0, _⟩ => rfl | ⟨1, _⟩ => rfl)
  have e3 : idx_main_v56 (idx_main_v57 (ix2 r c)) = ix1 c :=
    funext fun a => Fin.ext (by match a with | ⟨0, _⟩ => rfl)
  rw [val_main_v59_apply, val_main_v58_apply, val_main_v55_apply, val_main_v57_apply, val_main_v56_apply,
    val_main_call1_v0_apply, val_main_call1_cst_apply, e3]
  simp only [val_main_v54_apply, e1, e2, Ideal.addf_def, Ideal.maximumf_def, Ideal.ofBits_def, Ideal.ofBits_zero_f32,
    Cert.Spec.layer, Cert.Spec.affine]

/-- The two hidden layers together. -/
theorem hidden_at (x0 : Arr S8192x2048) (x1 : Arr S4096x2048) (x2 : Arr S4096) (x3 : Arr S4096x4096) (x4 : Arr S4096)
    (r : Fin 8192) (c : Fin 4096) :
    val_main_v59 (F := Ideal) x0 x1 x2 x3 x4 (ix2 r c)
      = Cert.Spec.hidden (fun r k => x0 (ix2 r k)) (fun c k => val_main_v23 (F := Ideal) x1 (ix2 c k))
          (fun c => x2 (ix1 c)) (fun c k => val_main_v53 (F := Ideal) x3 (ix2 c k)) (fun c => x4 (ix1 c)) r c := by
  rw [layer2_at]
  simp only [layer1_at, Cert.Spec.hidden]

/-- The six direction heads before the reshape: row r against row (a, o) of the quantized direction weight. -/
theorem dir_at (x0 : Arr S8192x2048) (x1 : Arr S4096x2048) (x2 : Arr S4096) (x3 : Arr S4096x4096) (x4 : Arr S4096)
    (x5 : Arr S6x3x4096) (x6 : Arr S6x3) (r : Fin 8192) (a : Fin 6) (o : Fin 3) :
    val_main_v87 (F := Ideal) x0 x1 x2 x3 x4 x5 x6 (ix3 r a o)
      = (∑ k : Fin 4096, val_main_v59 (F := Ideal) x0 x1 x2 x3 x4 (ix2 r k) * val_main_v83 (F := Ideal) x5 (ix3 a o k))
          + x6 (ix2 a o) := by
  have e1 : ∀ k : Fin 4096, lidx_main_v84 (ix3 r a o) k = ix2 r k := fun k =>
    funext fun b => Fin.ext (by match b with | ⟨0, _⟩ => rfl | ⟨1, _⟩ => rfl)
  have e2 : ∀ k : Fin 4096, ridx_main_v84 (ix3 r a o) k = ix3 a o k := fun k =>
    funext fun b => Fin.ext (by match b with | ⟨0, _⟩ => rfl | ⟨1, _⟩ => rfl | ⟨2, _⟩ => rfl)
  have e3 : idx_main_v85 (idx_main_v86 (ix3 r a o)) = ix2 a o :=
    funext fun b => Fin.ext (by match b with | ⟨0, _⟩ => rfl | ⟨1, _⟩ => rfl)
  rw [val_main_v87_apply, val_main_v84_apply, val_main_v86_apply, val_main_v85_apply, e3]
  simp only [e1, e2, Ideal.addf_def]

/-- The anchor head: row r against row a of the anchor weight. -/
theorem anchor_at (x0 : Arr S8192x2048) (x1 : Arr S4096x2048) (x2 : Arr S4096) (x3 : Arr S4096x4096) (x4 : Arr S4096)
    (x7 : Arr S1024x4096) (x8 : Arr S1024) (r : Fin 8192) (a : Fin 1024) :
    val_main_v92 (F := Ideal) x0 x1 x2 x3 x4 x7 x8 (ix2 r a)
      = (∑ k : Fin 4096, val_main_v59 (F := Ideal) x0 x1 x2 x3 x4 (ix2 r k) * x7 (ix2 a k)) + x8 (ix1 a) := by
  have e1 : ∀ k : Fin 4096, lidx_main_v89 (ix2 r a) k = ix2 r k := fun k =>
    funext fun b => Fin.ext (by match b with | ⟨0, _⟩ => rfl | ⟨1, _⟩ => rfl)
  have e2 : ∀ k : Fin 4096, idx_main_v88 (ridx_main_v89 (ix2 r a) k) = ix2 a k := fun k =>
    funext fun b => Fin.ext (by match b with | ⟨0, _⟩ => rfl | ⟨1, _⟩ => rfl)
  have e3 : idx_main_v90 (idx_main_v91 (ix2 r a)) = ix1 a :=
    funext fun b => Fin.ext (by match b with | ⟨0, _⟩ => rfl)
  rw [val_main_v92_apply, val_main_v89_apply, val_main_v91_apply, val_main_v90_apply, e3]
  simp only [val_main_v88_apply, e1, e2, Ideal.addf_def]

/-- The progress head: row r against the one row of the progress weight. -/
theorem progress_at (x0 : Arr S8192x2048) (x1 : Arr S4096x2048) (x2 : Arr S4096) (x3 : Arr S4096x4096) (x4 : Arr S4096)
    (x9 : Arr S1x4096) (x10 : Arr S1) (r : Fin 8192) :
    val_main_v97 (F := Ideal) x0 x1 x2 x3 x4 x9 x10 (ix2 r (0 : Fin 1))
      = (∑ k : Fin 4096, val_main_v59 (F := Ideal) x0 x1 x2 x3 x4 (ix2 r k) * x9 (ix2 (0 : Fin 1) k))
          + x10 (ix1 (0 : Fin 1)) := by
  have e1 : ∀ k : Fin 4096, lidx_main_v94 (ix2 r (0 : Fin 1)) k = ix2 r k := fun k =>
    funext fun b => Fin.ext (by match b with | ⟨0, _⟩ => rfl | ⟨1, _⟩ => rfl)
  have e2 : ∀ k : Fin 4096, idx_main_v93 (ridx_main_v94 (ix2 r (0 : Fin 1)) k) = ix2 (0 : Fin 1) k := fun k =>
    funext fun b => Fin.ext (by match b with | ⟨0, _⟩ => rfl | ⟨1, _⟩ => rfl)
  have e3 : idx_main_v95 (idx_main_v96 (ix2 r (0 : Fin 1))) = ix1 (0 : Fin 1) :=
    funext fun b => Fin.ext (by match b with | ⟨0, _⟩ => rfl)
  rw [val_main_v97_apply, val_main_v94_apply, val_main_v96_apply, val_main_v95_apply, e3]
  simp only [val_main_v93_apply, e1, e2, Ideal.addf_def]

/-- The critic head before the logistic function. -/
theorem critic_pre_at (x0 : Arr S8192x2048) (x1 : Arr S4096x2048) (x2 : Arr S4096) (x3 : Arr S4096x4096) (x4 : Arr S4096)
    (x11 : Arr S1x4096) (x12 : Arr S1) (r : Fin 8192) :
    val_main_v102 (F := Ideal) x0 x1 x2 x3 x4 x11 x12 (ix2 r (0 : Fin 1))
      = (∑ k : Fin 4096, val_main_v59 (F := Ideal) x0 x1 x2 x3 x4 (ix2 r k) * x11 (ix2 (0 : Fin 1) k))
          + x12 (ix1 (0 : Fin 1)) := by
  have e1 : ∀ k : Fin 4096, lidx_main_v99 (ix2 r (0 : Fin 1)) k = ix2 r k := fun k =>
    funext fun b => Fin.ext (by match b with | ⟨0, _⟩ => rfl | ⟨1, _⟩ => rfl)
  have e2 : ∀ k : Fin 4096, idx_main_v98 (ridx_main_v99 (ix2 r (0 : Fin 1)) k) = ix2 (0 : Fin 1) k := fun k =>
    funext fun b => Fin.ext (by match b with | ⟨0, _⟩ => rfl | ⟨1, _⟩ => rfl)
  have e3 : idx_main_v100 (idx_main_v101 (ix2 r (0 : Fin 1))) = ix1 (0 : Fin 1) :=
    funext fun b => Fin.ext (by match b with | ⟨0, _⟩ => rfl)
  rw [val_main_v102_apply, val_main_v99_apply, val_main_v101_apply, val_main_v100_apply, e3]
  simp only [val_main_v98_apply, e1, e2, Ideal.addf_def]

/-- The critic head: one over one plus the exponential of minus the pre-activation is the logistic function of it. -/
theorem critic_at (x0 : Arr S8192x2048) (x1 : Arr S4096x2048) (x2 : Arr S4096) (x3 : Arr S4096x4096) (x4 : Arr S4096)
    (x11 : Arr S1x4096) (x12 : Arr S1) (r : Fin 8192) :
    val_main_v108 (F := Ideal) x0 x1 x2 x3 x4 x11 x12 (ix2 r (0 : Fin 1))
      = Ideal.logistic ((∑ k : Fin 4096, val_main_v59 (F := Ideal) x0 x1 x2 x3 x4 (ix2 r k) * x11 (ix2 (0 : Fin 1) k))
          + x12 (ix1 (0 : Fin 1))) := by
  rw [val_main_v108_apply, val_main_v107_apply, val_main_cst_18_apply, val_main_v106_apply, val_main_v105_apply,
    val_main_cst_17_apply, val_main_v104_apply, val_main_v103_apply, critic_pre_at]
  simp only [Ideal.hostDivf_def, Ideal.ofBits_def, Ideal.ofBits_one_f32, Ideal.addf_def, Ideal.hostUnary_exp_def,
    Ideal.hostNegf_def, Ideal.negf_def, Ideal.logistic]

/-- The reshape of the direction heads: column j of the 18 is output j mod 3 of head j div 3. -/
theorem reshape_at (x0 : Arr S8192x2048) (x1 : Arr S4096x2048) (x2 : Arr S4096) (x3 : Arr S4096x4096) (x4 : Arr S4096)
    (x5 : Arr S6x3x4096) (x6 : Arr S6x3) (r : Fin 8192) (j : Fin 18) :
    val_main_v109 (F := Ideal) x0 x1 x2 x3 x4 x5 x6 (ix2 r j)
      = val_main_v87 (F := Ideal) x0 x1 x2 x3 x4 x5 x6
          (ix3 r (⟨j.val / 3, by omega⟩ : Fin 6) (⟨j.val % 3, Nat.mod_lt _ (by decide)⟩ : Fin 3)) := by
  have e : idx_main_v109 (ix2 r j)
      = ix3 r (⟨j.val / 3, by omega⟩ : Fin 6) (⟨j.val % 3, Nat.mod_lt _ (by decide)⟩ : Fin 3) :=
    funext fun b => Fin.ext (by
      have hr : r.val < 8192 := r.isLt
      have hj : j.val < 18 := j.isLt
      match b with
      | ⟨0, _⟩ => show (r.val * 18 + j.val) / 18 = r.val; omega
      | ⟨1, _⟩ => show (r.val * 18 + j.val) / 3 % 6 = j.val / 3; omega
      | ⟨2, _⟩ => show (r.val * 18 + j.val) % 3 = j.val % 3; omega)
  rw [val_main_v109_apply, e]

/-- Four arrays joined side by side, read at a column: the piece whose span of columns holds it. -/
theorem concat_at (y0 : Arr S8192x18) (y1 : Arr S8192x1024) (y2 y3 : Arr S8192x1)
    (h : Shape.Concatenates (([⟨S8192x18, y0⟩, ⟨S8192x1024, y1⟩, ⟨S8192x1, y2⟩, ⟨S8192x1, y3⟩] :
      List ((s : Shape) × (s.Idx → Elt Ideal .f32))).map (·.1)) S8192x1044 1)
    (r : Fin 8192) (j : Fin 1044) :
    concatenate S8192x1044 1 [⟨S8192x18, y0⟩, ⟨S8192x1024, y1⟩, ⟨S8192x1, y2⟩, ⟨S8192x1, y3⟩] h (ix2 r j)
      = if h0 : j.val < 18 then y0 (ix2 r (⟨j.val, h0⟩ : Fin 18))
        else if h1 : j.val < 1042 then y1 (ix2 r (⟨j.val - 18, by omega⟩ : Fin 1024))
        else if j.val = 1042 then y2 (ix2 r (0 : Fin 1)) else y3 (ix2 r (0 : Fin 1)) := by
  have hj : j.val < 1044 := j.isLt
  by_cases h0 : j.val < 18
  · rw [dif_pos h0]
    refine concatenate_apply_piece (1 : Fin S8192x1044.rank) _ h (ix2 r j) 0 (by simp) S8192x18 y0 rfl rfl 0 rfl
      (ix2 r (⟨j.val, h0⟩ : Fin 18)) (fun b hb => ?_) ?_
    · match b with
      | ⟨0, _⟩ => rfl
      | ⟨1, _⟩ => exact absurd rfl hb
    · show 0 + j.val = j.val; omega
  · rw [dif_neg h0]
    by_cases h1 : j.val < 1042
    · rw [dif_pos h1]
      refine concatenate_apply_piece (1 : Fin S8192x1044.rank) _ h (ix2 r j) 1 (by simp) S8192x1024 y1 rfl rfl 18 rfl
        (ix2 r (⟨j.val - 18, by omega⟩ : Fin 1024)) (fun b hb => ?_) ?_
      · match b with
        | ⟨0, _⟩ => rfl
        | ⟨1, _⟩ => exact absurd rfl hb
      · show 18 + (j.val - 18) = j.val; omega
    · rw [dif_neg h1]
      by_cases h2 : j.val = 1042
      · rw [if_pos h2]
        refine concatenate_apply_piece (1 : Fin S8192x1044.rank) _ h (ix2 r j) 2 (by simp) S8192x1 y2 rfl rfl 1042 rfl
          (ix2 r (0 : Fin 1)) (fun b hb => ?_) ?_
        · match b with
          | ⟨0, _⟩ => rfl
          | ⟨1, _⟩ => exact absurd rfl hb
        · show 1042 + 0 = j.val; omega
      · rw [if_neg h2]
        refine concatenate_apply_piece (1 : Fin S8192x1044.rank) _ h (ix2 r j) 3 (by simp) S8192x1 y3 rfl rfl 1043 rfl
          (ix2 r (0 : Fin 1)) (fun b hb => ?_) ?_
        · match b with
          | ⟨0, _⟩ => rfl
          | ⟨1, _⟩ => exact absurd rfl hb
        · show 1043 + 0 = j.val; omega

/-- The reference's result at row r and column j is the specification's value there. -/
theorem result_at (x0 : Arr S8192x2048) (x1 : Arr S4096x2048) (x2 : Arr S4096) (x3 : Arr S4096x4096) (x4 : Arr S4096)
    (x5 : Arr S6x3x4096) (x6 : Arr S6x3) (x7 : Arr S1024x4096) (x8 : Arr S1024) (x9 : Arr S1x4096) (x10 : Arr S1)
    (x11 : Arr S1x4096) (x12 : Arr S1) (r : Fin 8192) (j : Fin 1044) :
    val_main_v110 (F := Ideal) x0 x1 x2 x3 x4 x5 x6 x7 x8 x9 x10 x11 x12 (ix2 r j)
      = Cert.Spec.out (fun r k => x0 (ix2 r k)) (fun c k => val_main_v23 (F := Ideal) x1 (ix2 c k)) (fun c => x2 (ix1 c))
          (fun c k => val_main_v53 (F := Ideal) x3 (ix2 c k)) (fun c => x4 (ix1 c))
          (fun a o k => val_main_v83 (F := Ideal) x5 (ix3 a o k)) (fun a o => x6 (ix2 a o))
          (fun a k => x7 (ix2 a k)) (fun a => x8 (ix1 a)) (fun k => x9 (ix2 (0 : Fin 1) k)) (x10 (ix1 (0 : Fin 1)))
          (fun k => x11 (ix2 (0 : Fin 1) k)) (x12 (ix1 (0 : Fin 1))) r j := by
  have hj : j.val < 1044 := j.isLt
  unfold val_main_v110
  rw [concat_at]
  by_cases h0 : j.val < 18
  · rw [dif_pos h0, reshape_at, dir_at]
    simp only [hidden_at, Cert.Spec.out, Cert.Spec.affine, Cert.Spec.wall, Cert.Spec.ball, dif_pos h0,
      if_neg (show ¬ j.val = 1043 by omega)]
  · rw [dif_neg h0]
    by_cases h1 : j.val < 1042
    · rw [dif_pos h1, anchor_at]
      simp only [hidden_at, Cert.Spec.out, Cert.Spec.affine, Cert.Spec.wall, Cert.Spec.ball, dif_neg h0, dif_pos h1,
        if_neg (show ¬ j.val = 1043 by omega)]
    · rw [dif_neg h1]
      by_cases h2 : j.val = 1042
      · rw [if_pos h2, progress_at]
        simp only [hidden_at, Cert.Spec.out, Cert.Spec.affine, Cert.Spec.wall, Cert.Spec.ball, dif_neg h0, dif_neg h1,
          if_pos h2, if_neg (show ¬ j.val = 1043 by omega)]
      · rw [if_neg h2, critic_at]
        simp only [hidden_at, Cert.Spec.out, Cert.Spec.affine, Cert.Spec.wall, Cert.Spec.ball, dif_neg h0, dif_neg h1,
          if_neg h2, if_pos (show j.val = 1043 by omega)]

/-- The same about the term the reference's run ends with. -/
theorem res_at (m : (ℓ : Loc nD τ sig) → Buf (Elt Ideal) ℓ) (c : Dev nD) (r : Fin 8192) (j : Fin 1044) :
    Cert.ReferenceIdeal.Value.res_out0 (F := Ideal) m c (ix2 r j)
      = Cert.Spec.out (fun r k => m ((c.tc : Thread nD τ).loc main_arg0) (ix2 r k))
          (fun c' k => val_main_v23 (F := Ideal) (m ((c.tc : Thread nD τ).loc main_arg1)) (ix2 c' k))
          (fun c' => m ((c.tc : Thread nD τ).loc main_arg2) (ix1 c'))
          (fun c' k => val_main_v53 (F := Ideal) (m ((c.tc : Thread nD τ).loc main_arg3)) (ix2 c' k))
          (fun c' => m ((c.tc : Thread nD τ).loc main_arg4) (ix1 c'))
          (fun a o k => val_main_v83 (F := Ideal) (m ((c.tc : Thread nD τ).loc main_arg5)) (ix3 a o k))
          (fun a o => m ((c.tc : Thread nD τ).loc main_arg6) (ix2 a o))
          (fun a k => m ((c.tc : Thread nD τ).loc main_arg7) (ix2 a k))
          (fun a => m ((c.tc : Thread nD τ).loc main_arg8) (ix1 a))
          (fun k => m ((c.tc : Thread nD τ).loc main_arg9) (ix2 (0 : Fin 1) k))
          (m ((c.tc : Thread nD τ).loc main_arg10) (ix1 (0 : Fin 1)))
          (fun k => m ((c.tc : Thread nD τ).loc main_arg11) (ix2 (0 : Fin 1) k))
          (m ((c.tc : Thread nD τ).loc main_arg12) (ix1 (0 : Fin 1))) r j := by
  show Cert.ReferenceIdeal.Value.res_main_v110 m c (ix2 r j) = _
  rw [val_main_v110_eq]
  exact result_at _ _ _ _ _ _ _ _ _ _ _ _ _ r j

end Cert.RefValue
end
-- ==== Proof.Finite.lean ====
/-
  From the precondition to real entries. The precondition of the claim is a single bit computed from
  the thirteen input arrays: for each array, the test |x| < +inf at every entry, all entries joined by
  "and"; then the thirteen bits joined by "and" again. When that bit is set, every entry of every input
  has an absolute value strictly below +inf, and an extended real with that property is a real number.
  Only the three weight arrays that are quantized later need this, so only their three tests are read.
-/
import proofs.«158892_j50087908606273_2_alg».proof.Defs
import Idealize.ShloMosaic.Lib.ReduceAll
import Idealize.ShloMosaic.Lib.ValueIdx
import Idealize.ShloMosaic.Lib.IdealHost
import Idealize.ShloMosaic.PureOps.Ideal.Laws

noncomputable section

namespace Cert.Finite

open Idealize.ShloMosaic Idealize.SL.Sem

instance : Subsingleton Cert.Pre_finite_inputs.S_.Idx := ⟨fun a b => funext fun d => d.elim0⟩

/-- An extended real whose absolute value lies strictly below +inf is a real number. -/
theorem real_of_abs_lt_inf (x : EReal)
    (h : Ideal.cmp .olt (max x (-x)) (Ideal.ofBits .f32 0x7F800000#32) = 1#1) : ∃ r : ℝ, x = (r : EReal) := by
  have hinf : Ideal.ofBits .f32 0x7F800000#32 = (⊤ : EReal) := by
    simp [Ideal.ofBits, Ideal.ieee]
  rw [hinf] at h
  induction x using EReal.rec with
  | bot => simp [Ideal.cmp] at h
  | top => simp [Ideal.cmp] at h
  | coe y => exact ⟨y, rfl⟩

/-- An array all of whose entries pass the test |x| < +inf, the tests joined by "and" into one bit that
    is set, has only real entries. -/
theorem all_real {s : Shape} {axes : List (Fin s.rank)} (x : FVec Ideal s .f32)
    (hb : Cert.Pre_finite_inputs.S_.BroadcastsInDim s (![] : Fin 0 → Fin s.rank))
    (hr : s.ReducesTo axes Cert.Pre_finite_inputs.S_) (hu : 0 < Cert.Pre_finite_inputs.S_.numel)
    (e : Host.reduce IntOp.andi
          (cmpf .olt (Host.absf x)
            (broadcastInDim s ![] hb (constant (F := Ideal) Cert.Pre_finite_inputs.S_ .f32 0x7F800000#32)))
          (constantI Cert.Pre_finite_inputs.S_ 1 1#1) hr hu ValueIdx.ix0 = 1#1) :
    ∀ i, ∃ r : ℝ, x i = (r : EReal) := by
  intro i
  have hi := Host.reduce_andi_all _ _ hr hu ValueIdx.ix0 e i
  rw [ValueIdx.cmpf_apply, ValueIdx.broadcastInDim_scalar_apply] at hi
  exact real_of_abs_lt_inf (x i) hi

/-- The "and" of two one-bit flags, read at the single index of a rank-0 array, is set only when both are. -/
theorem both_of_andi (a b : IVec Cert.Pre_finite_inputs.S_ 1) (e : andi a b ValueIdx.ix0 = 1#1) :
    a ValueIdx.ix0 = 1#1 ∧ b ValueIdx.ix0 = 1#1 :=
  IntOp.andi_eq_one.1 e

/-- Under the precondition (every float input finite) the three weight arrays that get quantized hold
    only real numbers. The precondition is one bit: the "and", nested to the left, of thirteen tests, one
    per input array, the k-th saying that every entry of input k has absolute value below +inf. Peeling
    the outer "and"s gives the tests of inputs 5, 3 and 1; the tests of the other ten inputs are not used. -/
theorem real_of_pre [Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) :
    (∀ i, ∃ x : ℝ, m ((c.tc : Thread Cert.KernelIdeal.nD Cert.KernelIdeal.τ).loc Cert.KernelIdeal.main_arg1) i = (x : EReal)) ∧
    (∀ i, ∃ x : ℝ, m ((c.tc : Thread Cert.KernelIdeal.nD Cert.KernelIdeal.τ).loc Cert.KernelIdeal.main_arg3) i = (x : EReal)) ∧
    (∀ i, ∃ x : ℝ, m ((c.tc : Thread Cert.KernelIdeal.nD Cert.KernelIdeal.τ).loc Cert.KernelIdeal.main_arg5) i = (x : EReal)) := by
  have h0 := congrFun (h c) ValueIdx.ix0
  dsimp only [Cert.Pre_finite_inputs.fn, Cert.Pre_finite_inputs.fn_part1, Cert.Pre_finite_inputs.fn_part2,
    Cert.Pre_finite_inputs.fn_part3] at h0
  -- the tests of inputs 12, 11, …, 6 are the right-hand sides of the seven outermost "and"s
  have a11 := (both_of_andi _ _ h0).1
  have a10 := (both_of_andi _ _ a11).1
  have a9 := (both_of_andi _ _ a10).1
  have a8 := (both_of_andi _ _ a9).1
  have a7 := (both_of_andi _ _ a8).1
  have a6 := (both_of_andi _ _ a7).1
  have a5 := (both_of_andi _ _ a6).1
  -- input 5, then 4 and 3, then 2 and 1
  have t5 := (both_of_andi _ _ a5).2
  have a4 := (both_of_andi _ _ a5).1
  have a3 := (both_of_andi _ _ a4).1
  have t3 := (both_of_andi _ _ a3).2
  have a2 := (both_of_andi _ _ a3).1
  have a1 := (both_of_andi _ _ a2).1
  have t1 := (both_of_andi _ _ a1).2
  exact ⟨all_real (s := Cert.Pre_finite_inputs.S4096x2048) _ _ _ _ t1,
    all_real (s := Cert.Pre_finite_inputs.S4096x4096) _ _ _ _ t3,
    all_real (s := Cert.Pre_finite_inputs.S6x3x4096) _ _ _ _ t5⟩

end Cert.Finite

end
-- ==== Proof.Ste.lean ====
/-
  The reference spells each quantized weight q as x + (q - x), where x is the unquantized weight.
  On the extended reals this is q again as soon as x is a real number: the difference q - x is then
  never of the form (+inf) - (+inf), and adding x back undoes the subtraction whatever q is.
  The three statements below say so for the three weight arrays, element by element; the quantized
  array q itself is never looked into.
-/
import proofs.«158892_j50087908606273_2_alg».proof.Proof.Gen.ReferenceIdeal.Read
import proofs.«158892_j50087908606273_2_alg».proof.Proof.Spec

noncomputable section

namespace Cert.Ste

open Cert.ReferenceIdeal Idealize.ShloMosaic

/-- First layer, weight of shape [4096, 2048]: x1 + (q - x1) is q, q the quantized first weight. -/
theorem ste1 (x1 : (⟨S4096x2048, .f32⟩ : BufTy).Contents (Elt Ideal))
    (hx : ∀ i, ∃ r : ℝ, x1 i = (r : EReal)) :
    Cert.ReferenceIdeal.Read.val_main_v23 (F := Ideal) x1 = Cert.ReferenceIdeal.Read.val_main_v21 (F := Ideal) x1 := by
  funext i
  rw [Cert.ReferenceIdeal.Read.val_main_v23_apply, Cert.ReferenceIdeal.Read.val_main_v22_apply]
  generalize Cert.ReferenceIdeal.Read.val_main_v21 (F := Ideal) x1 i = q
  obtain ⟨r, hr⟩ := hx i
  rw [hr, Ideal.addf_def, Ideal.subf_def]
  exact Cert.Spec.add_sub_cancel_real r q

/-- Second layer, weight of shape [4096, 4096]: x3 + (q - x3) is q, q the quantized second weight. -/
theorem ste2 (x3 : (⟨S4096x4096, .f32⟩ : BufTy).Contents (Elt Ideal))
    (hx : ∀ i, ∃ r : ℝ, x3 i = (r : EReal)) :
    Cert.ReferenceIdeal.Read.val_main_v53 (F := Ideal) x3 = Cert.ReferenceIdeal.Read.val_main_v51 (F := Ideal) x3 := by
  funext i
  rw [Cert.ReferenceIdeal.Read.val_main_v53_apply, Cert.ReferenceIdeal.Read.val_main_v52_apply]
  generalize Cert.ReferenceIdeal.Read.val_main_v51 (F := Ideal) x3 i = q
  obtain ⟨r, hr⟩ := hx i
  rw [hr, Ideal.addf_def, Ideal.subf_def]
  exact Cert.Spec.add_sub_cancel_real r q

/-- Direction heads, weight of shape [6, 3, 4096]: x5 + (q - x5) is q, q the quantized head weight. -/
theorem ste3 (x5 : (⟨S6x3x4096, .f32⟩ : BufTy).Contents (Elt Ideal))
    (hx : ∀ i, ∃ r : ℝ, x5 i = (r : EReal)) :
    Cert.ReferenceIdeal.Read.val_main_v83 (F := Ideal) x5 = Cert.ReferenceIdeal.Read.val_main_v81 (F := Ideal) x5 := by
  funext i
  rw [Cert.ReferenceIdeal.Read.val_main_v83_apply, Cert.ReferenceIdeal.Read.val_main_v82_apply]
  generalize Cert.ReferenceIdeal.Read.val_main_v81 (F := Ideal) x5 i = q
  obtain ⟨r, hr⟩ := hx i
  rw [hr, Ideal.addf_def, Ideal.subf_def]
  exact Cert.Spec.add_sub_cancel_real r q

end Cert.Ste

end
-- ==== Proof.lean ====
/-
  The certificate: a two-hidden-layer network with ternary-quantized weights and a fused output head, computed by
  three matrix-product kernels among host operations, equals on the extended reals the plain formulation that applies
  the same quantization, spelled W + (Wq - W), and computes the four output heads one by one.

  Both programs quantize each weight array by the same chain of operations. The straight-through spelling
  W + (Wq - W) is Wq whenever W is a real number, which is where the precondition (every input finite) is used, and
  nowhere else: change of float format is the identity on the extended reals, a kernel's matrix product into a zero
  accumulator and the host's contraction are the same sum, and the logistic function is by definition 1/(1+e^(-z)).
  The rest is re-indexing: the kernels' blocks tile their arrays, and the stacked head weight's row j is the row of
  the head that column j belongs to.
-/
import proofs.«158892_j50087908606273_2_alg».proof.Defs
import proofs.«158892_j50087908606273_2_alg».proof.Proof.Gen.Kernel
import proofs.«158892_j50087908606273_2_alg».proof.Proof.Gen.KernelIdeal
import proofs.«158892_j50087908606273_2_alg».proof.Proof.Gen.ReferenceIdeal
import proofs.«158892_j50087908606273_2_alg».proof.Proof.Gen.ReferenceIdeal.Run
import proofs.«158892_j50087908606273_2_alg».proof.Proof.Gen.ReferenceIdeal.Read
import proofs.«158892_j50087908606273_2_alg».proof.Proof.Gen.Pre_finite_inputs
import proofs.«158892_j50087908606273_2_alg».proof.Proof.KB.Frame
import proofs.«158892_j50087908606273_2_alg».proof.Proof.KI.Frame
import proofs.«158892_j50087908606273_2_alg».proof.Proof.KI.Value
import proofs.«158892_j50087908606273_2_alg».proof.Proof.KI.EntryRef
import proofs.«158892_j50087908606273_2_alg».proof.Proof.RefValue
import proofs.«158892_j50087908606273_2_alg».proof.Proof.Finite
import proofs.«158892_j50087908606273_2_alg».proof.Proof.Ste
import Idealize.ShloMosaic.Adequacy
import Idealize.ShloMosaic.Init

noncomputable section

namespace Cert.Proof

open Idealize.ShloMosaic Idealize.SL.Sem

/-- The word-level kernel program runs to the end, faults nowhere, and leaves its arguments as launched. -/
theorem frame_k : Cert.frame_Kernel (hKernel := Cert.Kernel.Gen.facts) (hPre_finite_inputs := Cert.Pre_finite_inputs.Gen.facts) :=
  fun m ρ _ => Cert.Kernel.Hand.frame (F := Bits) m ρ

/-- So does the idealized kernel program. -/
theorem frame_ki : Cert.frame_KernelIdeal (hKernelIdeal := Cert.KernelIdeal.Gen.facts) (hPre_finite_inputs := Cert.Pre_finite_inputs.Gen.facts) :=
  fun m ρ _ => Cert.KernelIdeal.Hand.frame (F := Ideal) m ρ

/-- The reference is a straight line of host operations: its run, with the result dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- From memories that agree on the arguments both programs end with the same result array. The idealized kernel's
    result, read at row r and column j, is the specification of its arguments and its three quantized weights; the
    reference's is the specification of its arguments and of W + (Wq - W) for each quantized weight. The arguments
    agree, each weight W is real by the precondition, so W + (Wq - W) is Wq, and the two quantization chains are the
    same composition of the same operations. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨fun c => Cert.KernelIdeal.Hand.W9 (F := Ideal) m ρ c (Proc.devRef .tc Cert.KernelIdeal.main_v84),
    Cert.KernelIdeal.Hand.run_result (F := Ideal) m ρ, ?_⟩
  refine (θ_run Cert.ReferenceIdeal.defs _ _).mono (fun r h c => ⟨(h c).1.trans ?_, (h c).2⟩)
    (Cert.ReferenceIdeal.Value.run (F := Ideal) m' ρ')
  funext i
  obtain ⟨r, j, rfl⟩ : ∃ (r : Fin 8192) (j : Fin 1044), i = ValueIdx.ix2 r j := ⟨_, _, ValueIdx.eq_ix2 i⟩
  obtain ⟨hr1, hr3, hr5⟩ := Cert.Finite.real_of_pre m hpre c
  obtain ⟨a0, a1, a2, a3, a4, a5, a6, a7, a8, a9, a10, a11, a12⟩ := hagree c
  refine (Cert.RefValue.res_at m' c r j).trans ?_
  refine Eq.trans ?_ (Cert.KernelIdeal.Hand.kernel_at m ρ c r j).symm
  rw [a0, a1, a2, a3, a4, a5, a6, a7, a8, a9, a10, a11, a12,
    Cert.Ste.ste1 _ hr1, Cert.Ste.ste2 _ hr3, Cert.Ste.ste3 _ hr5,
    ← Cert.KernelIdeal.Hand.Q1_eq_ref, ← Cert.KernelIdeal.Hand.Q2_eq_ref, ← Cert.KernelIdeal.Hand.Q5_eq_ref]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
